-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S2048x512 : Shape := ⟨2, ![2048, 512]⟩
abbrev S295 : Shape := ⟨1, ![295]⟩
abbrev S4096x2048 : Shape := ⟨2, ![4096, 2048]⟩
abbrev S4096 : Shape := ⟨1, ![4096]⟩
abbrev S4096x4096 : Shape := ⟨2, ![4096, 4096]⟩
abbrev S1x4096 : Shape := ⟨2, ![1, 4096]⟩
abbrev S1 : Shape := ⟨1, ![1]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S295 : S_.BroadcastsInDim S295 (![] : Fin 0 → Fin S295.rank)
  reducesTo_S295_S_d0 : S295.ReducesTo [0] S_
  bcast_S_S4096x2048 : S_.BroadcastsInDim S4096x2048 (![] : Fin 0 → Fin S4096x2048.rank)
  reducesTo_S4096x2048_S_d0_1 : S4096x2048.ReducesTo [0, 1] S_
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  reducesTo_S4096x4096_S_d0_1 : S4096x4096.ReducesTo [0, 1] S_
  bcast_S_S1x4096 : S_.BroadcastsInDim S1x4096 (![] : Fin 0 → Fin S1x4096.rank)
  reducesTo_S1x4096_S_d0_1 : S1x4096.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg14 : FVec F S1 .f32) (main_v63 : IVec S_ 1) (main_v67 : IVec S_ 1) : IVec S_ 1 :=
  let main_v68 : IVec S_ 1 := andi main_v63 main_v67
  let main_v69 : FVec F S1 .f32 := Host.absf main_arg14
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg11 : FVec F S4096x4096 .f32) (main_arg12 : FVec F S4096 .f32) (main_arg13 : FVec F S1x4096 .f32) (main_arg14 : FVec F S1 .f32) (main_v48 : IVec S_ 1) (main_v49 : FVec F S4096 .f32) (main_v50 : FVec F S4096 .f32) : IVec S_ 1 :=
  let main_v51 : IVec S4096 1 := cmpf .olt main_v49 main_v50
  let main_c_19 : IVec S_ 1 := constantI S_ 1 1#1
  let main_v52 : IVec S_ 1 := (fun x v => Host.reduce IntOp.andi x v reducesTo_S4096_S_d0 h_S_) main_v51 main_c_19
  let main_v53 : IVec S_ 1 := andi main_v48 main_v52
  let main_v54 : FVec F S4096x4096 .f32 := Host.absf main_arg11
  let main_cst_20 : FVec F S_ .f32 := constant S_ .f32 0x7F800000#32
  let main_v55 : FVec F S4096x4096 .f32 := broadcastInDim S4096x4096 ![] bcast_S_S4096x4096 main_cst_20
  let main_v56 : IVec S4096x4096 1 := cmpf .olt main_v54 main_v55
  let main_c_21 : IVec S_ 1 := constantI S_ 1 1#1
  let main_v57 : IVec S_ 1 := (fun x v => Host.reduce IntOp.andi x v reducesTo_S4096x4096_S_d0_1 h_S_) main_v56 main_c_21
  let main_v58 : IVec S_ 1 := andi main_v53 main_v57
  let main_v59 : FVec F S4096 .f32 := Host.absf main_arg12
  let main_cst_22 : FVec F S_ .f32 := constant S_ .f32 0x7F800000#32
  let main_v60 : FVec F S4096 .f32 := broadcastInDim S4096 ![] bcast_S_S4096 main_cst_22
  let main_v61 : IVec S4096 1 := cmpf .olt main_v59 main_v60
  let main_c_23 : IVec S_ 1 := constantI S_ 1 1#1
  let main_v62 : IVec S_ 1 := (fun x v => Host.reduce IntOp.andi x v reducesTo_S4096_S_d0 h_S_) main_v61 main_c_23
  let main_v63 : IVec S_ 1 := andi main_v58 main_v62
  let main_v64 : FVec F S1x4096 .f32 := Host.absf main_arg13
  let main_cst_24 : FVec F S_ .f32 := constant S_ .f32 0x7F800000#32
  let main_v65 : FVec F S1x4096 .f32 := broadcastInDim S1x4096 ![] bcast_S_S1x4096 main_cst_24
  let main_v66 : IVec S1x4096 1 := cmpf .olt main_v64 main_v65
  let main_c_25 : IVec S_ 1 := constantI S_ 1 1#1
  let main_v67 : IVec S_ 1 := (fun x v => Host.reduce IntOp.andi x v reducesTo_S1x4096_S_d0_1 h_S_) main_v66 main_c_25
  fn_part4 (F := F) main_arg14 main_v63 main_v67

def fn_part2 {F : FTy → Type} [FloatOps F] (main_arg7 : FVec F S4096x4096 .f32) (main_arg8 : FVec F S4096 .f32) (main_arg9 : FVec F S4096x4096 .f32) (main_arg10 : FVec F S4096 .f32) (main_arg11 : FVec F S4096x4096 .f32) (main_arg12 : FVec F S4096 .f32) (main_arg13 : FVec F S1x4096 .f32) (main_arg14 : FVec F S1 .f32) (main_v33 : IVec S_ 1) : IVec S_ 1 :=
  let main_v34 : FVec F S4096x4096 .f32 := Host.absf main_arg7
  let main_cst_12 : FVec F S_ .f32 := constant S_ .f32 0x7F800000#32
  let main_v35 : FVec F S4096x4096 .f32 := broadcastInDim S4096x4096 ![] bcast_S_S4096x4096 main_cst_12
  let main_v36 : IVec S4096x4096 1 := cmpf .olt main_v34 main_v35
  let main_c_13 : IVec S_ 1 := constantI S_ 1 1#1
  let main_v37 : IVec S_ 1 := (fun x v => Host.reduce IntOp.andi x v reducesTo_S4096x4096_S_d0_1 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  let main_v44 : FVec F S4096x4096 .f32 := Host.absf main_arg9
  let main_cst_16 : FVec F S_ .f32 := constant S_ .f32 0x7F800000#32
  let main_v45 : FVec F S4096x4096 .f32 := broadcastInDim S4096x4096 ![] bcast_S_S4096x4096 main_cst_16
  let main_v46 : IVec S4096x4096 1 := cmpf .olt main_v44 main_v45
  let main_c_17 : IVec S_ 1 := constantI S_ 1 1#1
  let main_v47 : IVec S_ 1 := (fun x v => Host.reduce IntOp.andi x v reducesTo_S4096x4096_S_d0_1 h_S_) main_v46 main_c_17
  let main_v48 : IVec S_ 1 := andi main_v43 main_v47
  let main_v49 : FVec F S4096 .f32 := Host.absf main_arg10
  let main_cst_18 : FVec F S_ .f32 := constant S_ .f32 0x7F800000#32
  let main_v50 : FVec F S4096 .f32 := broadcastInDim S4096 ![] bcast_S_S4096 main_cst_18
  fn_part3 (F := F) main_arg11 main_arg12 main_arg13 main_arg14 main_v48 main_v49 main_v50

def fn_part1 {F : FTy → Type} [FloatOps F] (main_arg4 : FVec F S295 .f32) (main_arg5 : FVec F S4096x2048 .f32) (main_arg6 : FVec F S4096 .f32) (main_arg7 : FVec F S4096x4096 .f32) (main_arg8 : FVec F S4096 .f32) (main_arg9 : FVec F S4096x4096 .f32) (main_arg10 : FVec F S4096 .f32) (main_arg11 : FVec F S4096x4096 .f32) (main_arg12 : FVec F S4096 .f32) (main_arg13 : FVec F S1x4096 .f32) (main_arg14 : FVec F S1 .f32) (main_v13 : IVec S_ 1) (main_v16 : IVec S2048x512 1) : IVec S_ 1 :=
  let main_c_5 : IVec S_ 1 := constantI S_ 1 1#1
  let main_v17 : IVec S_ 1 := (fun x v => Host.reduce IntOp.andi x v reducesTo_S2048x512_S_d0_1 h_S_) main_v16 main_c_5
  let main_v18 : IVec S_ 1 := andi main_v13 main_v17
  let main_v19 : FVec F S295 .f32 := Host.absf main_arg4
  let main_cst_6 : FVec F S_ .f32 := constant S_ .f32 0x7F800000#32
  let main_v20 : FVec F S295 .f32 := broadcastInDim S295 ![] bcast_S_S295 main_cst_6
  let main_v21 : IVec S295 1 := cmpf .olt main_v19 main_v20
  let main_c_7 : IVec S_ 1 := constantI S_ 1 1#1
  let main_v22 : IVec S_ 1 := (fun x v => Host.reduce IntOp.andi x v reducesTo_S295_S_d0 h_S_) main_v21 main_c_7
  let main_v23 : IVec S_ 1 := andi main_v18 main_v22
  let main_v24 : FVec F S4096x2048 .f32 := Host.absf main_arg5
  let main_cst_8 : FVec F S_ .f32 := constant S_ .f32 0x7F800000#32
  let main_v25 : FVec F S4096x2048 .f32 := broadcastInDim S4096x2048 ![] bcast_S_S4096x2048 main_cst_8
  let main_v26 : IVec S4096x2048 1 := cmpf .olt main_v24 main_v25
  let main_c_9 : IVec S_ 1 := constantI S_ 1 1#1
  let main_v27 : IVec S_ 1 := (fun x v => Host.reduce IntOp.andi x v reducesTo_S4096x2048_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S8192x512 .f32) (main_arg1 : FVec F S2048x512 .f32) (main_arg2 : FVec F S2048x512 .f32) (main_arg3 : FVec F S2048x512 .f32) (main_arg4 : FVec F S295 .f32) (main_arg5 : FVec F S4096x2048 .f32) (main_arg6 : FVec F S4096 .f32) (main_arg7 : FVec F S4096x4096 .f32) (main_arg8 : FVec F S4096 .f32) (main_arg9 : FVec F S4096x4096 .f32) (main_arg10 : FVec F S4096 .f32) (main_arg11 : FVec F S4096x4096 .f32) (main_arg12 : FVec F S4096 .f32) (main_arg13 : FVec F S1x4096 .f32) (main_arg14 : FVec F S1 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S2048x512 .f32 := Host.absf main_arg2
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_c_3 : IVec S_ 1 := constantI S_ 1 1#1
  let main_v12 : IVec S_ 1 := (fun x v => Host.reduce IntOp.andi x v reducesTo_S2048x512_S_d0_1 h_S_) main_v11 main_c_3
  let main_v13 : IVec S_ 1 := andi main_v8 main_v12
  let main_v14 : FVec F S2048x512 .f32 := Host.absf main_arg3
  let main_cst_4 : FVec F S_ .f32 := constant S_ .f32 0x7F800000#32
  let main_v15 : FVec F S2048x512 .f32 := broadcastInDim S2048x512 ![] bcast_S_S2048x512 main_cst_4
  let main_v16 : IVec S2048x512 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S8192x512 : Shape := ⟨2, ![8192, 512]⟩
abbrev S2048x512 : Shape := ⟨2, ![2048, 512]⟩
abbrev S295 : Shape := ⟨1, ![295]⟩
abbrev S4096x2048 : Shape := ⟨2, ![4096, 2048]⟩
abbrev S4096 : Shape := ⟨1, ![4096]⟩
abbrev S4096x4096 : Shape := ⟨2, ![4096, 4096]⟩
abbrev S1x4096 : Shape := ⟨2, ![1, 4096]⟩
abbrev S1 : Shape := ⟨1, ![1]⟩
abbrev S8192x2048 : Shape := ⟨2, ![8192, 2048]⟩
abbrev S512x512 : Shape := ⟨2, ![512, 512]⟩
abbrev S512x2048 : Shape := ⟨2, ![512, 2048]⟩
abbrev S2048x2048 : Shape := ⟨2, ![2048, 2048]⟩
abbrev S128x2048 : Shape := ⟨2, ![128, 2048]⟩
abbrev S_ : Shape := ⟨0, ![]⟩
abbrev S2048 : Shape := ⟨1, ![2048]⟩
abbrev S1x2048 : Shape := ⟨2, ![1, 2048]⟩
abbrev S1024x2048 : Shape := ⟨2, ![1024, 2048]⟩
abbrev S8192x4096 : Shape := ⟨2, ![8192, 4096]⟩
abbrev S1024 : Shape := ⟨1, ![1024]⟩
abbrev S512x1024 : Shape := ⟨2, ![512, 1024]⟩
abbrev S1x1024 : Shape := ⟨2, ![1, 1024]⟩
abbrev S512x4096 : Shape := ⟨2, ![512, 4096]⟩
abbrev S1024x4096 : Shape := ⟨2, ![1024, 4096]⟩
abbrev S8192x295 : Shape := ⟨2, ![8192, 295]⟩
abbrev S1024x295 : Shape := ⟨2, ![1024, 295]⟩
abbrev S1024x1 : Shape := ⟨2, ![1024, 1]⟩
abbrev S1x295 : Shape := ⟨2, ![1, 295]⟩

abbrev nBuf : Space → Nat
  | .hbm => 48
  | .vmem => 60
  | .smem => 0
  | _ => 0

abbrev bufTy : (tb : Table) → Fin (tcTables nBuf tb) → BufTy
  | .hbm, ⟨0, _⟩ => ⟨S8192x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S295, .f32⟩
  | .hbm, ⟨5, _⟩ => ⟨S4096x2048, .f32⟩
  | .hbm, ⟨6, _⟩ => ⟨S4096, .f32⟩
  | .hbm, ⟨7, _⟩ => ⟨S4096x4096, .f32⟩
  | .hbm, ⟨8, _⟩ => ⟨S4096, .f32⟩
  | .hbm, ⟨9, _⟩ => ⟨S4096x4096, .f32⟩
  | .hbm, ⟨10, _⟩ => ⟨S4096, .f32⟩
  | .hbm, ⟨11, _⟩ => ⟨S4096x4096, .f32⟩
  | .hbm, ⟨12, _⟩ => ⟨S4096, .f32⟩
  | .hbm, ⟨13, _⟩ => ⟨S1x4096, .f32⟩
  | .hbm, ⟨14, _⟩ => ⟨S1, .f32⟩
  | .hbm, ⟨15, _⟩ => ⟨S8192x512, .bf16⟩
  | .hbm, ⟨16, _⟩ => ⟨S2048x512, .bf16⟩
  | .hbm, ⟨17, _⟩ => ⟨S2048x512, .bf16⟩
  | .hbm, ⟨18, _⟩ => ⟨S2048x512, .bf16⟩
  | .hbm, ⟨19, _⟩ => ⟨S8192x2048, .f32⟩
  | .hbm, ⟨20, _⟩ => ⟨S8192x2048, .f32⟩
  | .hbm, ⟨21, _⟩ => ⟨S8192x2048, .bf16⟩
  | .hbm, ⟨22, _⟩ => ⟨S2048x2048, .f32⟩
  | .hbm, ⟨23, _⟩ => ⟨S_, .f32⟩
  | .hbm, ⟨24, _⟩ => ⟨S2048, .f32⟩
  | .hbm, ⟨25, _⟩ => ⟨S_, .f32⟩
  | .hbm, ⟨26, _⟩ => ⟨S2048, .f32⟩
  | .hbm, ⟨27, _⟩ => ⟨S2048, .f32⟩
  | .hbm, ⟨28, _⟩ => ⟨S1x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S_, .f32⟩
  | .hbm, ⟨33, _⟩ => ⟨S2048, .f32⟩
  | .hbm, ⟨34, _⟩ => ⟨S1x2048, .f32⟩
  | .hbm, ⟨35, _⟩ => ⟨S2048x2048, .f32⟩
  | .hbm, ⟨36, _⟩ => ⟨S2048x2048, .f32⟩
  | .hbm, ⟨37, _⟩ => ⟨S2048x2048, .bf16⟩
  | .hbm, ⟨38, _⟩ => ⟨S8192x2048, .bf16⟩
  | .hbm, ⟨39, _⟩ => ⟨S4096x2048, .bf16⟩
  | .hbm, ⟨40, _⟩ => ⟨S8192x4096, .bf16⟩
  | .hbm, ⟨41, _⟩ => ⟨S4096x4096, .bf16⟩
  | .hbm, ⟨42, _⟩ => ⟨S8192x4096, .bf16⟩
  | .hbm, ⟨43, _⟩ => ⟨S4096x4096, .bf16⟩
  | .hbm, ⟨44, _⟩ => ⟨S8192x4096, .bf16⟩
  | .hbm, ⟨45, _⟩ => ⟨S4096x4096, .bf16⟩
  | .hbm, ⟨46, _⟩ => ⟨S8192x4096, .bf16⟩
  | .hbm, ⟨47, _⟩ => ⟨S8192x295, .f32⟩
  | .local _ .vmem, ⟨0, _⟩ => ⟨S512x512, .bf16⟩
  | .local _ .vmem, ⟨1, _⟩ => ⟨S512x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S2048x2048, .f32⟩
  | .local _ .vmem, ⟨16, _⟩ => ⟨S1024x2048, .bf16⟩
  | .local _ .vmem, ⟨17, _⟩ => ⟨S1024x2048, .bf16⟩
  | .local _ .vmem, ⟨18, _⟩ => ⟨S2048x2048, .bf16⟩
  | .local _ .vmem, ⟨19, _⟩ => ⟨S1024x2048, .bf16⟩
  | .local _ .vmem, ⟨20, _⟩ => ⟨S1024x2048, .bf16⟩
  | .local _ .vmem, ⟨21, _⟩ => ⟨S512x2048, .bf16⟩
  | .local _ .vmem, ⟨22, _⟩ => ⟨S512x2048, .bf16⟩
  | .local _ .vmem, ⟨23, _⟩ => ⟨S1024x2048, .bf16⟩
  | .local _ .vmem, ⟨24, _⟩ => ⟨S1024x2048, .bf16⟩
  | .local _ .vmem, ⟨25, _⟩ => ⟨S1024, .f32⟩
  | .local _ .vmem, ⟨26, _⟩ => ⟨S1024, .f32⟩
  | .local _ .vmem, ⟨27, _⟩ => ⟨S512x1024, .bf16⟩
  | .local _ .vmem, ⟨28, _⟩ => ⟨S512x1024, .bf16⟩
  | .local _ .vmem, ⟨29, _⟩ => ⟨S512x4096, .bf16⟩
  | .local _ .vmem, ⟨30, _⟩ => ⟨S512x4096, .bf16⟩
  | .local _ .vmem, ⟨31, _⟩ => ⟨S1024x4096, .bf16⟩
  | .local _ .vmem, ⟨32, _⟩ => ⟨S1024x4096, .bf16⟩
  | .local _ .vmem, ⟨33, _⟩ => ⟨S1024, .f32⟩
  | .local _ .vmem, ⟨34, _⟩ => ⟨S1024, .f32⟩
  | .local _ .vmem, ⟨35, _⟩ => ⟨S512x1024, .bf16⟩
  | .local _ .vmem, ⟨36, _⟩ => ⟨S512x1024, .bf16⟩
  | .local _ .vmem, ⟨37, _⟩ => ⟨S512x4096, .bf16⟩
  | .local _ .vmem, ⟨38, _⟩ => ⟨S512x4096, .bf16⟩
  | .local _ .vmem, ⟨39, _⟩ => ⟨S1024x4096, .bf16⟩
  | .local _ .vmem, ⟨40, _⟩ => ⟨S1024x4096, .bf16⟩
  | .local _ .vmem, ⟨41, _⟩ => ⟨S1024, .f32⟩
  | .local _ .vmem, ⟨42, _⟩ => ⟨S1024, .f32⟩
  | .local _ .vmem, ⟨43, _⟩ => ⟨S512x1024, .bf16⟩
  | .local _ .vmem, ⟨44, _⟩ => ⟨S512x1024, .bf16⟩
  | .local _ .vmem, ⟨45, _⟩ => ⟨S512x4096, .bf16⟩
  | .local _ .vmem, ⟨46, _⟩ => ⟨S512x4096, .bf16⟩
  | .local _ .vmem, ⟨47, _⟩ => ⟨S1024x4096, .bf16⟩
  | .local _ .vmem, ⟨48, _⟩ => ⟨S1024x4096, .bf16⟩
  | .local _ .vmem, ⟨49, _⟩ => ⟨S1024, .f32⟩
  | .local _ .vmem, ⟨50, _⟩ => ⟨S1024, .f32⟩
  | .local _ .vmem, ⟨51, _⟩ => ⟨S512x1024, .bf16⟩
  | .local _ .vmem, ⟨52, _⟩ => ⟨S512x1024, .bf16⟩
  | .local _ .vmem, ⟨53, _⟩ => ⟨S1024x4096, .bf16⟩
  | .local _ .vmem, ⟨54, _⟩ => ⟨S1024x4096, .bf16⟩
  | .local _ .vmem, ⟨55, _⟩ => ⟨S1x4096, .f32⟩
  | .local _ .vmem, ⟨56, _⟩ => ⟨S1, .f32⟩
  | .local _ .vmem, ⟨57, _⟩ => ⟨S295, .f32⟩
  | .local _ .vmem, ⟨58, _⟩ => ⟨S1024x295, .f32⟩
  | .local _ .vmem, ⟨59, _⟩ => ⟨S1024x295, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4_0 : Ref sig .tc := ⟨.hbm, 19, rfl⟩
abbrev main_v4_1 : Ref sig .tc := ⟨.hbm, 20, rfl⟩
abbrev main_v4_2 : Ref sig .tc := ⟨.hbm, 21, rfl⟩
abbrev main_v5 : Ref sig .tc := ⟨.hbm, 22, rfl⟩
abbrev main_cst : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_1 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg3_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg2_1 : Ref sig .tc := ⟨.vmem, 34, rfl⟩
abbrev cc4_stg3_0 : Ref sig .tc := ⟨.vmem, 35, rfl⟩
abbrev cc4_stg3_1 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg1_1 : Ref sig .tc := ⟨.vmem, 40, rfl⟩
abbrev cc5_stg2_0 : Ref sig .tc := ⟨.vmem, 41, rfl⟩
abbrev cc5_stg2_1 : Ref sig .tc := ⟨.vmem, 42, rfl⟩
abbrev cc5_stg3_0 : Ref sig .tc := ⟨.vmem, 43, rfl⟩
abbrev cc5_stg3_1 : Ref sig .tc := ⟨.vmem, 44, rfl⟩
abbrev cc6_stg0_0 : Ref sig .tc := ⟨.vmem, 45, rfl⟩
abbrev cc6_stg0_1 : Ref sig .tc := ⟨.vmem, 46, rfl⟩
abbrev cc6_stg1_0 : Ref sig .tc := ⟨.vmem, 47, rfl⟩
abbrev cc6_stg1_1 : Ref sig .tc := ⟨.vmem, 48, rfl⟩
abbrev cc6_stg2_0 : Ref sig .tc := ⟨.vmem, 49, rfl⟩
abbrev cc6_stg2_1 : Ref sig .tc := ⟨.vmem, 50, rfl⟩
abbrev cc6_stg3_0 : Ref sig .tc := ⟨.vmem, 51, rfl⟩
abbrev cc6_stg3_1 : Ref sig .tc := ⟨.vmem, 52, rfl⟩
abbrev cc7_stg0_0 : Ref sig .tc := ⟨.vmem, 53, rfl⟩
abbrev cc7_stg0_1 : Ref sig .tc := ⟨.vmem, 54, rfl⟩
abbrev cc7_stg1_0 : Ref sig .tc := ⟨.vmem, 55, rfl⟩
abbrev cc7_stg2_0 : Ref sig .tc := ⟨.vmem, 56, rfl⟩
abbrev cc7_stg3_0 : Ref sig .tc := ⟨.vmem, 57, rfl⟩
abbrev cc7_stg4_0 : Ref sig .tc := ⟨.vmem, 58, rfl⟩
abbrev cc7_stg4_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem3_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem2_1 : DmaSem sig := 34
abbrev cc4_sem3_0 : DmaSem sig := 35
abbrev cc4_sem3_1 : DmaSem sig := 36
abbrev cc5_sem0_0 : DmaSem sig := 37
abbrev cc5_sem0_1 : DmaSem sig := 38
abbrev cc5_sem1_0 : DmaSem sig := 39
abbrev cc5_sem1_1 : DmaSem sig := 40
abbrev cc5_sem2_0 : DmaSem sig := 41
abbrev cc5_sem2_1 : DmaSem sig := 42
abbrev cc5_sem3_0 : DmaSem sig := 43
abbrev cc5_sem3_1 : DmaSem sig := 44
abbrev cc6_sem0_0 : DmaSem sig := 45
abbrev cc6_sem0_1 : DmaSem sig := 46
abbrev cc6_sem1_0 : DmaSem sig := 47
abbrev cc6_sem1_1 : DmaSem sig := 48
abbrev cc6_sem2_0 : DmaSem sig := 49
abbrev cc6_sem2_1 : DmaSem sig := 50
abbrev cc6_sem3_0 : DmaSem sig := 51
abbrev cc6_sem3_1 : DmaSem sig := 52
abbrev cc7_sem0_0 : DmaSem sig := 53
abbrev cc7_sem0_1 : DmaSem sig := 54
abbrev cc7_sem1_0 : DmaSem sig := 55
abbrev cc7_sem2_0 : DmaSem sig := 56
abbrev cc7_sem3_0 : DmaSem sig := 57
abbrev cc7_sem4_0 : DmaSem sig := 58
abbrev cc7_sem4_1 : DmaSem sig := 59

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S128x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2048x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x2048 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![16, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 1 → Nat :=
  let arg0 : BitVec 32 := BitVec.ofNat 32 (i 0).val
  let arg1 : BitVec 32 := BitVec.ofNat 32 (i 1).val
  let c0_i32 : BitVec 32 := 0#32
  ![arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S512x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1024x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S512x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨2, ![16, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 1 → Nat :=
  let arg0 : BitVec 32 := BitVec.ofNat 32 (i 0).val
  let arg1 : BitVec 32 := BitVec.ofNat 32 (i 1).val
  let c0_i32 : BitVec 32 := 0#32
  ![arg1.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S512x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S1024x4096 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S512x1024 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev grid5 : Pipeline.Grid := ⟨2, ![16, 4], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 1 → Nat :=
  let arg0 : BitVec 32 := BitVec.ofNat 32 (i 0).val
  let arg1 : BitVec 32 := BitVec.ofNat 32 (i 1).val
  let c0_i32 : BitVec 32 := 0#32
  ![arg1.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S512x4096 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S1024x4096 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![false, true]

abbrev stage5_3 : Fin 2 → Memref sig .tc .vmem S512x1024 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]

abbrev grid6 : Pipeline.Grid := ⟨2, ![16, 4], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_2 (i : grid6.Coords) : Fin 1 → Nat :=
  let arg0 : BitVec 32 := BitVec.ofNat 32 (i 0).val
  let arg1 : BitVec 32 := BitVec.ofNat 32 (i 1).val
  let c0_i32 : BitVec 32 := 0#32
  ![arg1.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 2 → Memref sig .tc .vmem S512x4096 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 2 → Memref sig .tc .vmem S1024x4096 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![false, true]

abbrev stage6_3 : Fin 2 → Memref sig .tc .vmem S512x1024 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true]

abbrev grid7 : Pipeline.Grid := ⟨1, ![8], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_3 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S1024x4096 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x4096 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S295 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S1024x295 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

class Facts₀ : Prop where
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x2048_S512x2048_0_0 : ∀ a, (![0, 0] : Fin 2 → Nat) a + S512x2048.size a ≤ S512x2048.size a
  h_S512x2048 : 0 < S512x2048.numel
  packedbf16_S512x2048_S512x2048_0_0 : (Rect.unit (s := S512x2048) ![0, 0] S512x2048.size inb_S512x2048_S512x2048_0_0).PackedRows (EltTy.packing .bf16)
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  reducesTo_S2048x2048_S2048_d0 : S2048x2048.ReducesTo [0] S2048
  h_S_ : 0 < S_.numel
  bcast_S_S2048 : S_.BroadcastsInDim S2048 (![] : Fin 0 → Fin S2048.rank)
  bcast_S2048_S1x2048_1 : S2048.BroadcastsInDim S1x2048 (![1] : Fin 1 → Fin S1x2048.rank)
  bcast_S1x2048_S2048x2048_0_1 : S1x2048.BroadcastsInDim S2048x2048 (![0, 1] : Fin 2 → Fin S2048x2048.rank)
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  packedbf16_S1024x2048_S1024x2048_0_0 : (Rect.unit (s := S1024x2048) ![0, 0] S1024x2048.size inb_S1024x2048_S1024x2048_0_0).PackedRows (EltTy.packing .bf16)
  shapeCasts_S512x2048_S512x2048 : S512x2048.ShapeCasts S512x2048
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  packedbf16_S512x1024_S512x1024_0_0 : (Rect.unit (s := S512x1024) ![0, 0] S512x1024.size inb_S512x1024_S512x1024_0_0).PackedRows (EltTy.packing .bf16)
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  broadcasts_S1x4096_S1024x4096 : S1x4096.Broadcasts S1024x4096
  reduces_S1024x4096_S1024 : S1024x4096.Reduces [1] S1024
  shapeCasts_S1024_S1024x1 : S1024.ShapeCasts S1024x1
  inb_S1_S1_0 : ∀ a, (![0] : Fin 1 → Nat) a + S1.size a ≤ S1.size a
  h_S1 : 0 < S1.numel
  inpos_S1_p0 : ∀ a, (![0] : Fin 1 → Nat) a < S1.size a
  inb_S295_S295_0 : ∀ a, (![0] : Fin 1 → Nat) a + S295.size a ≤ S295.size a
  h_S295 : 0 < S295.numel
  shapeCasts_S295_S1x295 : S295.ShapeCasts S1x295
  broadcasts_S1024x1_S1024x295 : S1024x1.Broadcasts S1024x295
  broadcasts_S1x295_S1024x295 : S1x295.Broadcasts S1024x295
  inb_S1024x295_S1024x295_0_0 : ∀ a, (![0, 0] : Fin 2 → Nat) a + S1024x295.size a ≤ S1024x295.size a
  h_S1024x295 : 0 < S1024x295.numel
  dot_S512x512_S2048x512_S512x2048_1_1_0_0_n_n_wf : DotDims.WF S512x512 S2048x512 S512x2048 [1] [1] [0] [0] [] []
  dot_S128x2048_S128x2048_S2048x2048_0_0_1_1_n_n_wf : DotDims.WF S128x2048 S128x2048 S2048x2048 [0] [0] [1] [1] [] []
  dot_S1024x2048_S2048x2048_S1024x2048_1_1_0_0_n_n_wf : DotDims.WF S1024x2048 S2048x2048 S1024x2048 [1] [1] [0] [0] [] []
  dot_S512x2048_S1024x2048_S512x1024_1_1_0_0_n_n_wf : DotDims.WF S512x2048 S1024x2048 S512x1024 [1] [1] [0] [0] [] []
  dot_S512x4096_S1024x4096_S512x1024_1_1_0_0_n_n_wf : DotDims.WF S512x4096 S1024x4096 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x512.size a
  hwx0_0 : ∀ i : grid0.Coords, EltTy.bits .bf16 = 32 ∨ (Rect.block (s := S8192x512) S512x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x512.size a
  hwx0_1 : ∀ i : grid0.Coords, EltTy.bits .bf16 = 32 ∨ (Rect.block (s := S2048x512) S2048x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S2048x512.size a
  hwx0_2 : ∀ i : grid0.Coords, EltTy.bits .bf16 = 32 ∨ (Rect.block (s := S2048x512) S2048x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S2048x512.size a
  hwx0_3 : ∀ i : grid0.Coords, EltTy.bits .bf16 = 32 ∨ (Rect.block (s := S2048x512) S2048x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S8192x2048.size a
  hwx0_4 : ∀ i : grid0.Coords, EltTy.bits .f32 = 32 ∨ (Rect.block (s := S8192x2048) S512x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S8192x2048.size a
  hwx0_5 : ∀ i : grid0.Coords, EltTy.bits .f32 = 32 ∨ (Rect.block (s := S8192x2048) S512x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x2048.size a ≤ S8192x2048.size a
  hwx0_6 : ∀ i : grid0.Coords, EltTy.bits .bf16 = 32 ∨ (Rect.block (s := S8192x2048) S512x2048.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x2048.size a ≤ S8192x2048.size a
  hwx1_0 : ∀ i : grid1.Coords, EltTy.bits .f32 = 32 ∨ (Rect.block (s := S8192x2048) S128x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x2048.size a ≤ S8192x2048.size a
  hwx1_1 : ∀ i : grid1.Coords, EltTy.bits .f32 = 32 ∨ (Rect.block (s := S8192x2048) S128x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048x2048.size a ≤ S2048x2048.size a
  hwx1_2 : ∀ i : grid1.Coords, EltTy.bits .f32 = 32 ∨ (Rect.block (s := S2048x2048) S2048x2048.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S8192x2048.size a
  hwx2_0 : ∀ i : grid2.Coords, EltTy.bits .bf16 = 32 ∨ (Rect.block (s := S8192x2048) S1024x2048.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2048x2048.size a ≤ S2048x2048.size a
  hwx2_1 : ∀ i : grid2.Coords, EltTy.bits .bf16 = 32 ∨ (Rect.block (s := S2048x2048) S2048x2048.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x2048.size a ≤ S8192x2048.size a
  hwx2_2 : ∀ i : grid2.Coords, EltTy.bits .bf16 = 32 ∨ (Rect.block (s := S8192x2048) S1024x2048.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x2048.size a ≤ S8192x2048.size a
  hwx3_0 : ∀ i : grid3.Coords, EltTy.bits .bf16 = 32 ∨ (Rect.block (s := S8192x2048) S512x2048.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x2048.size a ≤ S4096x2048.size a
  hwx3_1 : ∀ i : grid3.Coords, EltTy.bits .bf16 = 32 ∨ (Rect.block (s := S4096x2048) S1024x2048.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024.size a ≤ S4096.size a
  hwx3_2 : ∀ i : grid3.Coords, EltTy.bits .f32 = 32 ∨ (Rect.block (s := S4096) S1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x1024.size a ≤ S8192x4096.size a
  hwx3_3 : ∀ i : grid3.Coords, EltTy.bits .bf16 = 32 ∨ (Rect.block (s := S8192x4096) S512x1024.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x4096.size a ≤ S8192x4096.size a
  hwx4_0 : ∀ i : grid4.Coords, EltTy.bits .bf16 = 32 ∨ (Rect.block (s := S8192x4096) S512x4096.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x4096.size a ≤ S4096x4096.size a
  hwx4_1 : ∀ i : grid4.Coords, EltTy.bits .bf16 = 32 ∨ (Rect.block (s := S4096x4096) S1024x4096.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024.size a ≤ S4096.size a
  hwx4_2 : ∀ i : grid4.Coords, EltTy.bits .f32 = 32 ∨ (Rect.block (s := S4096) S1024.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x1024.size a ≤ S8192x4096.size a
  hwx4_3 : ∀ i : grid4.Coords, EltTy.bits .bf16 = 32 ∨ (Rect.block (s := S8192x4096) S512x1024.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S512x4096.size a ≤ S8192x4096.size a
  hwx5_0 : ∀ i : grid5.Coords, EltTy.bits .bf16 = 32 ∨ (Rect.block (s := S8192x4096) S512x4096.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1024x4096.size a ≤ S4096x4096.size a
  hwx5_1 : ∀ i : grid5.Coords, EltTy.bits .bf16 = 32 ∨ (Rect.block (s := S4096x4096) S1024x4096.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1024.size a ≤ S4096.size a
  hwx5_2 : ∀ i : grid5.Coords, EltTy.bits .f32 = 32 ∨ (Rect.block (s := S4096) S1024.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S512x1024.size a ≤ S8192x4096.size a
  hwx5_3 : ∀ i : grid5.Coords, EltTy.bits .bf16 = 32 ∨ (Rect.block (s := S8192x4096) S512x1024.size (cc5_transform_3 i) (hinb5_3 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S512x4096.size a ≤ S8192x4096.size a
  hwx6_0 : ∀ i : grid6.Coords, EltTy.bits .bf16 = 32 ∨ (Rect.block (s := S8192x4096) S512x4096.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1024x4096.size a ≤ S4096x4096.size a
  hwx6_1 : ∀ i : grid6.Coords, EltTy.bits .bf16 = 32 ∨ (Rect.block (s := S4096x4096) S1024x4096.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1024.size a ≤ S4096.size a
  hwx6_2 : ∀ i : grid6.Coords, EltTy.bits .f32 = 32 ∨ (Rect.block (s := S4096) S1024.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S512x1024.size a ≤ S8192x4096.size a
  hwx6_3 : ∀ i : grid6.Coords, EltTy.bits .bf16 = 32 ∨ (Rect.block (s := S8192x4096) S512x1024.size (cc6_transform_3 i) (hinb6_3 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1024x4096.size a ≤ S8192x4096.size a
  hwx7_0 : ∀ i : grid7.Coords, EltTy.bits .bf16 = 32 ∨ (Rect.block (s := S8192x4096) S1024x4096.size (cc7_transform_0 i) (hinb7_0 i)).WholeWords (EltTy.packing .bf16)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x4096.size a ≤ S1x4096.size a
  hwx7_1 : ∀ i : grid7.Coords, EltTy.bits .f32 = 32 ∨ (Rect.block (s := S1x4096) S1x4096.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1.size a ≤ S1.size a
  hwx7_2 : ∀ i : grid7.Coords, EltTy.bits .f32 = 32 ∨ (Rect.block (s := S1) S1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S295.size a ≤ S295.size a
  hwx7_3 : ∀ i : grid7.Coords, EltTy.bits .f32 = 32 ∨ (Rect.block (s := S295) S295.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S1024x295.size a ≤ S8192x295.size a
  hwx7_4 : ∀ i : grid7.Coords, EltTy.bits .f32 = 32 ∨ (Rect.block (s := S8192x295) S1024x295.size (cc7_transform_4 i) (hinb7_4 i)).WholeWords (EltTy.packing .f32)

variable [Facts₀]

def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf
def dot_S128x2048_S128x2048_S2048x2048_0_0_1_1_n_n : DotDims S128x2048 S128x2048 S2048x2048 where
  lhsContracting := [0]
  rhsContracting := [0]
  lhsNonContracting := [1]
  rhsNonContracting := [1]
  lhsBatch := []
  rhsBatch := []
  wf := dot_S128x2048_S128x2048_S2048x2048_0_0_1_1_n_n_wf
def dot_S1024x2048_S2048x2048_S1024x2048_1_1_0_0_n_n : DotDims S1024x2048 S2048x2048 S1024x2048 where
  lhsContracting := [1]
  rhsContracting := [1]
  lhsNonContracting := [0]
  rhsNonContracting := [0]
  lhsBatch := []
  rhsBatch := []
  wf := dot_S1024x2048_S2048x2048_S1024x2048_1_1_0_0_n_n_wf
def dot_S512x2048_S1024x2048_S512x1024_1_1_0_0_n_n : DotDims S512x2048 S1024x2048 S512x1024 where
  lhsContracting := [1]
  rhsContracting := [1]
  lhsNonContracting := [0]
  rhsNonContracting := [0]
  lhsBatch := []
  rhsBatch := []
  wf := dot_S512x2048_S1024x2048_S512x1024_1_1_0_0_n_n_wf
def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_v0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S512x2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S512x2048.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_2) S512x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v4_0) S128x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_1) S128x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S2048x2048.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v4_2) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S2048x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v18) S1024x2048.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v18) S512x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v19) S1024x2048.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg6) S1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v20) S512x1024.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v20) S512x4096.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v21) S1024x4096.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg8) S1024.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v22) S512x1024.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v22) S512x4096.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v23) S1024x4096.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg10) S1024.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v24) S512x1024.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v24) S512x4096.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v25) S1024x4096.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg12) S1024.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v26) S512x1024.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v26) S1024x4096.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg13) S1x4096.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_arg14) S1.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg4) S295.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v27) S1024x295.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

class Facts : Prop extends Facts₀ where

variable [Facts]
-- ==== ReferenceIdeal.lean ====
abbrev S8192x512 : Shape := ⟨2, ![8192, 512]⟩
abbrev S2048x512 : Shape := ⟨2, ![2048, 512]⟩
abbrev S295 : Shape := ⟨1, ![295]⟩
abbrev S4096x2048 : Shape := ⟨2, ![4096, 2048]⟩
abbrev S4096 : Shape := ⟨1, ![4096]⟩
abbrev S4096x4096 : Shape := ⟨2, ![4096, 4096]⟩
abbrev S1x4096 : Shape := ⟨2, ![1, 4096]⟩
abbrev S1 : Shape := ⟨1, ![1]⟩
abbrev S2048x8192 : Shape := ⟨2, ![2048, 8192]⟩
abbrev S2048x2048 : Shape := ⟨2, ![2048, 2048]⟩
abbrev S_ : Shape := ⟨0, ![]⟩
abbrev S2048 : Shape := ⟨1, ![2048]⟩
abbrev S1x2048 : Shape := ⟨2, ![1, 2048]⟩
abbrev S8192x2048 : Shape := ⟨2, ![8192, 2048]⟩
abbrev S2048x4096 : Shape := ⟨2, ![2048, 4096]⟩
abbrev S8192x4096 : Shape := ⟨2, ![8192, 4096]⟩
abbrev S4096x1 : Shape := ⟨2, ![4096, 1]⟩
abbrev S8192x1 : Shape := ⟨2, ![8192, 1]⟩
abbrev S1x1 : Shape := ⟨2, ![1, 1]⟩
abbrev S1x295 : Shape := ⟨2, ![1, 295]⟩
abbrev S8192x295 : Shape := ⟨2, ![8192, 295]⟩

abbrev nBuf : Space → Nat
  | .hbm => 83
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S295, .f32⟩
  | .hbm, ⟨5, _⟩ => ⟨S4096x2048, .f32⟩
  | .hbm, ⟨6, _⟩ => ⟨S4096, .f32⟩
  | .hbm, ⟨7, _⟩ => ⟨S4096x4096, .f32⟩
  | .hbm, ⟨8, _⟩ => ⟨S4096, .f32⟩
  | .hbm, ⟨9, _⟩ => ⟨S4096x4096, .f32⟩
  | .hbm, ⟨10, _⟩ => ⟨S4096, .f32⟩
  | .hbm, ⟨11, _⟩ => ⟨S4096x4096, .f32⟩
  | .hbm, ⟨12, _⟩ => ⟨S4096, .f32⟩
  | .hbm, ⟨13, _⟩ => ⟨S1x4096, .f32⟩
  | .hbm, ⟨14, _⟩ => ⟨S1, .f32⟩
  | .hbm, ⟨15, _⟩ => ⟨S2048x8192, .f32⟩
  | .hbm, ⟨16, _⟩ => ⟨S2048x8192, .f32⟩
  | .hbm, ⟨17, _⟩ => ⟨S2048x8192, .f32⟩
  | .hbm, ⟨18, _⟩ => ⟨S2048x2048, .f32⟩
  | .hbm, ⟨19, _⟩ => ⟨S_, .f32⟩
  | .hbm, ⟨20, _⟩ => ⟨S2048, .f32⟩
  | .hbm, ⟨21, _⟩ => ⟨S_, .f32⟩
  | .hbm, ⟨22, _⟩ => ⟨S2048, .f32⟩
  | .hbm, ⟨23, _⟩ => ⟨S2048, .f32⟩
  | .hbm, ⟨24, _⟩ => ⟨S1x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048, .f32⟩
  | .hbm, ⟨30, _⟩ => ⟨S1x2048, .f32⟩
  | .hbm, ⟨31, _⟩ => ⟨S2048x2048, .f32⟩
  | .hbm, ⟨32, _⟩ => ⟨S2048x2048, .f32⟩
  | .hbm, ⟨33, _⟩ => ⟨S8192x2048, .f32⟩
  | .hbm, ⟨34, _⟩ => ⟨S2048x4096, .f32⟩
  | .hbm, ⟨35, _⟩ => ⟨S8192x4096, .f32⟩
  | .hbm, ⟨36, _⟩ => ⟨S1x4096, .f32⟩
  | .hbm, ⟨37, _⟩ => ⟨S8192x4096, .f32⟩
  | .hbm, ⟨38, _⟩ => ⟨S8192x4096, .f32⟩
  | .hbm, ⟨39, _⟩ => ⟨S_, .f32⟩
  | .hbm, ⟨40, _⟩ => ⟨S8192x4096, .f32⟩
  | .hbm, ⟨41, _⟩ => ⟨S8192x4096, .f32⟩
  | .hbm, ⟨42, _⟩ => ⟨S4096x4096, .f32⟩
  | .hbm, ⟨43, _⟩ => ⟨S8192x4096, .f32⟩
  | .hbm, ⟨44, _⟩ => ⟨S1x4096, .f32⟩
  | .hbm, ⟨45, _⟩ => ⟨S8192x4096, .f32⟩
  | .hbm, ⟨46, _⟩ => ⟨S8192x4096, .f32⟩
  | .hbm, ⟨47, _⟩ => ⟨S_, .f32⟩
  | .hbm, ⟨48, _⟩ => ⟨S8192x4096, .f32⟩
  | .hbm, ⟨49, _⟩ => ⟨S8192x4096, .f32⟩
  | .hbm, ⟨50, _⟩ => ⟨S4096x4096, .f32⟩
  | .hbm, ⟨51, _⟩ => ⟨S8192x4096, .f32⟩
  | .hbm, ⟨52, _⟩ => ⟨S1x4096, .f32⟩
  | .hbm, ⟨53, _⟩ => ⟨S8192x4096, .f32⟩
  | .hbm, ⟨54, _⟩ => ⟨S8192x4096, .f32⟩
  | .hbm, ⟨55, _⟩ => ⟨S_, .f32⟩
  | .hbm, ⟨56, _⟩ => ⟨S8192x4096, .f32⟩
  | .hbm, ⟨57, _⟩ => ⟨S8192x4096, .f32⟩
  | .hbm, ⟨58, _⟩ => ⟨S4096x4096, .f32⟩
  | .hbm, ⟨59, _⟩ => ⟨S8192x4096, .f32⟩
  | .hbm, ⟨60, _⟩ => ⟨S1x4096, .f32⟩
  | .hbm, ⟨61, _⟩ => ⟨S8192x4096, .f32⟩
  | .hbm, ⟨62, _⟩ => ⟨S8192x4096, .f32⟩
  | .hbm, ⟨63, _⟩ => ⟨S_, .f32⟩
  | .hbm, ⟨64, _⟩ => ⟨S8192x4096, .f32⟩
  | .hbm, ⟨65, _⟩ => ⟨S8192x4096, .f32⟩
  | .hbm, ⟨66, _⟩ => ⟨S4096x1, .f32⟩
  | .hbm, ⟨67, _⟩ => ⟨S8192x1, .f32⟩
  | .hbm, ⟨68, _⟩ => ⟨S1x1, .f32⟩
  | .hbm, ⟨69, _⟩ => ⟨S8192x1, .f32⟩
  | .hbm, ⟨70, _⟩ => ⟨S8192x1, .f32⟩
  | .hbm, ⟨71, _⟩ => ⟨S1x295, .f32⟩
  | .hbm, ⟨72, _⟩ => ⟨S8192x295, .f32⟩
  | .hbm, ⟨73, _⟩ => ⟨S8192x295, .f32⟩
  | .hbm, ⟨74, _⟩ => ⟨S8192x295, .f32⟩
  | .hbm, ⟨75, _⟩ => ⟨S8192x295, .f32⟩
  | .hbm, ⟨76, _⟩ => ⟨S8192x295, .f32⟩
  | .hbm, ⟨77, _⟩ => ⟨S_, .f32⟩
  | .hbm, ⟨78, _⟩ => ⟨S8192x295, .f32⟩
  | .hbm, ⟨79, _⟩ => ⟨S8192x295, .f32⟩
  | .hbm, ⟨80, _⟩ => ⟨S_, .f32⟩
  | .hbm, ⟨81, _⟩ => ⟨S8192x295, .f32⟩
  | .hbm, ⟨82, _⟩ => ⟨S8192x295, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_call0_cst : Ref sig .tc := ⟨.hbm, 39, rfl⟩
abbrev main_call0_v0 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_call1_cst : Ref sig .tc := ⟨.hbm, 47, rfl⟩
abbrev main_call1_v0 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_call2_cst : Ref sig .tc := ⟨.hbm, 55, rfl⟩
abbrev main_call2_v0 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_call3_cst : Ref sig .tc := ⟨.hbm, 63, rfl⟩
abbrev main_call3_v0 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_2 : Ref sig .tc := ⟨.hbm, 77, rfl⟩
abbrev main_v51 : Ref sig .tc := ⟨.hbm, 78, rfl⟩
abbrev main_v52 : Ref sig .tc := ⟨.hbm, 79, rfl⟩
abbrev main_cst_3 : Ref sig .tc := ⟨.hbm, 80, rfl⟩
abbrev main_v53 : Ref sig .tc := ⟨.hbm, 81, rfl⟩
abbrev main_v54 : Ref sig .tc := ⟨.hbm, 82, rfl⟩

abbrev nD : Nat := 1
abbrev τ : Topo := Topo.v7x

variable {F : FTy → Type} [FloatOps F]

class Facts₀ : Prop where
  reducesTo_S2048x2048_S2048_d0 : S2048x2048.ReducesTo [0] S2048
  h_S_ : 0 < S_.numel
  bcast_S_S2048 : S_.BroadcastsInDim S2048 (![] : Fin 0 → Fin S2048.rank)
  bcast_S2048_S1x2048_1 : S2048.BroadcastsInDim S1x2048 (![1] : Fin 1 → Fin S1x2048.rank)
  bcast_S1x2048_S2048x2048_0_1 : S1x2048.BroadcastsInDim S2048x2048 (![0, 1] : Fin 2 → Fin S2048x2048.rank)
  transposes_S4096x2048_S2048x4096_1_0 : S4096x2048.Transposes [1, 0] S2048x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  transposes_S4096x4096_S4096x4096_1_0 : S4096x4096.Transposes [1, 0] S4096x4096
  transposes_S1x4096_S4096x1_1_0 : S1x4096.Transposes [1, 0] S4096x1
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  bcast_S295_S1x295_1 : S295.BroadcastsInDim S1x295 (![1] : Fin 1 → Fin S1x295.rank)
  bcast_S8192x1_S8192x295_0_1 : S8192x1.BroadcastsInDim S8192x295 (![0, 1] : Fin 2 → Fin S8192x295.rank)
  bcast_S1x295_S8192x295_0_1 : S1x295.BroadcastsInDim S8192x295 (![0, 1] : Fin 2 → Fin S8192x295.rank)
  bcast_S_S8192x295 : S_.BroadcastsInDim S8192x295 (![] : Fin 0 → Fin S8192x295.rank)
  dot_S2048x512_S8192x512_S2048x8192_1_1_0_0_n_n_wf : DotDims.WF S2048x512 S8192x512 S2048x8192 [1] [1] [0] [0] [] []
  dot_S2048x8192_S2048x8192_S2048x2048_1_1_0_0_n_n_wf : DotDims.WF S2048x8192 S2048x8192 S2048x2048 [1] [1] [0] [0] [] []
  dot_S2048x8192_S2048x2048_S8192x2048_0_1_1_0_n_n_wf : DotDims.WF S2048x8192 S2048x2048 S8192x2048 [0] [1] [1] [0] [] []
  dot_S8192x2048_S2048x4096_S8192x4096_1_0_0_1_n_n_wf : DotDims.WF S8192x2048 S2048x4096 S8192x4096 [1] [0] [0] [1] [] []
  dot_S8192x4096_S4096x4096_S8192x4096_1_0_0_1_n_n_wf : DotDims.WF S8192x4096 S4096x4096 S8192x4096 [1] [0] [0] [1] [] []
  dot_S8192x4096_S4096x1_S8192x1_1_0_0_1_n_n_wf : DotDims.WF S8192x4096 S4096x1 S8192x1 [1] [0] [0] [1] [] []

variable [Facts₀]

def dot_S2048x512_S8192x512_S2048x8192_1_1_0_0_n_n : DotDims S2048x512 S8192x512 S2048x8192 where
  lhsContracting := [1]
  rhsContracting := [1]
  lhsNonContracting := [0]
  rhsNonContracting := [0]
  lhsBatch := []
  rhsBatch := []
  wf := dot_S2048x512_S8192x512_S2048x8192_1_1_0_0_n_n_wf
def dot_S2048x8192_S2048x8192_S2048x2048_1_1_0_0_n_n : DotDims S2048x8192 S2048x8192 S2048x2048 where
  lhsContracting := [1]
  rhsContracting := [1]
  lhsNonContracting := [0]
  rhsNonContracting := [0]
  lhsBatch := []
  rhsBatch := []
  wf := dot_S2048x8192_S2048x8192_S2048x2048_1_1_0_0_n_n_wf
def dot_S2048x8192_S2048x2048_S8192x2048_0_1_1_0_n_n : DotDims S2048x8192 S2048x2048 S8192x2048 where
  lhsContracting := [0]
  rhsContracting := [1]
  lhsNonContracting := [1]
  rhsNonContracting := [0]
  lhsBatch := []
  rhsBatch := []
  wf := dot_S2048x8192_S2048x2048_S8192x2048_0_1_1_0_n_n_wf
def dot_S8192x2048_S2048x4096_S8192x4096_1_0_0_1_n_n : DotDims S8192x2048 S2048x4096 S8192x4096 where
  lhsContracting := [1]
  rhsContracting := [0]
  lhsNonContracting := [0]
  rhsNonContracting := [1]
  lhsBatch := []
  rhsBatch := []
  wf := dot_S8192x2048_S2048x4096_S8192x4096_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf
def dot_S8192x4096_S4096x1_S8192x1_1_0_0_1_n_n : DotDims S8192x4096 S4096x1 S8192x1 where
  lhsContracting := [1]
  rhsContracting := [0]
  lhsNonContracting := [0]
  rhsNonContracting := [1]
  lhsBatch := []
  rhsBatch := []
  wf := dot_S8192x4096_S4096x1_S8192x1_1_0_0_1_n_n_wf

class Facts : Prop extends Facts₀ where

variable [Facts]
-- ==== Proof.KRun.lean ====
/-
  The idealized kernel's run with its result NAMED: every weakly fair execution of @main terminates, nothing
  faulting, the argument arrays as launched, and the result array at the contents the last segment boundary gives
  it (the fold of the host stretches and the eight regions' write-backs over the launch memory).
-/
import proofs.«124600_j13451837571471_2_alg».proof.Proof.Gen.KernelIdeal.Frame

set_option maxRecDepth 16384

noncomputable section

namespace Cert.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over the fourteen segments, its last thread state read against the final state: every unscoped
    buffer ends at the last boundary's contents; the result is one of them, and each argument reads back through
    the fold to its launch contents. -/
theorem run_named : θ_run defs (onTc (τ := τ) (main (F := F))) ⟨m, fun _ => 0, ρ⟩ (fun r => ∀ c : Dev nD,
      r.2.mem ((c.tc : Thread nD τ).loc main_v27) = W14 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v27 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c),
       (h c _ (mem_uc main_arg14 (by decide))).trans (W14_main_arg14 m ρ c)⟩)

end Cert.KRun

end
-- ==== Proof.Spec.lean ====
/-
  The function both programs compute, written once, index by index, on the extended reals.

  All arrays are functions from a literal shape's indices to the extended reals.  With x : S×E, three weight
  matrices W : A×E, four dense layers and a final projection, the network is

    xWᵀ (p, q)      = ∑ₖ x (p, k) · W (q, k)                         (`mulT`: both operands contracted on their second axis)
    att (a, b)      = ∑ₛ q (s, a) · k (s, b)                          (`tMul`: both contracted on their first axis)
    dense (p, q)    = max (∑ₖ x (p, k) · W (q, k) + b q) 0
    final (p, j)    = logistic ((∑ₖ h (p, k) · wout (0, k) + bout 0) + b j)

  between which a softmax over the first axis of `att` is applied; that stretch is the same list of host operations in
  both programs and is never opened here.
-/
import Idealize.ShloMosaic.Lib.ValueIdx
import Idealize.ShloMosaic.PureOps.Ideal

noncomputable section

namespace Cert.Spec

open Idealize.ShloMosaic Idealize.ShloMosaic.ValueIdx

/-- An M×N array of extended reals. -/
abbrev Mat (M N : ℕ) : Type := (⟨2, ![M, N]⟩ : Shape).Idx → EReal
/-- A length-N array of extended reals. -/
abbrev Row (N : ℕ) : Type := (⟨1, ![N]⟩ : Shape).Idx → EReal

variable {M K N : ℕ}

/-- x · wᵀ: entry (p, q) is ∑ₖ x (p, k) · w (q, k). -/
def mulT (x : Mat M K) (w : Mat N K) : Mat M N := fun j => ∑ k : Fin K, x (ix2 (j 0) k) * w (ix2 (j 1) k)
theorem mulT_apply (x : Mat M K) (w : Mat N K) (p : Fin M) (q : Fin N) :
    mulT x w (ix2 p q) = ∑ k : Fin K, x (ix2 p k) * w (ix2 q k) := rfl

/-- xᵀ · y: entry (a, b) is ∑ₛ x (s, a) · y (s, b). -/
def tMul (x : Mat K M) (y : Mat K N) : Mat M N := fun j => ∑ s : Fin K, x (ix2 s (j 0)) * y (ix2 s (j 1))
theorem tMul_apply (x : Mat K M) (y : Mat K N) (a : Fin M) (b : Fin N) :
    tMul x y (ix2 a b) = ∑ s : Fin K, x (ix2 s a) * y (ix2 s b) := rfl

/-- The transpose. -/
def tr (x : Mat M N) : Mat N M := fun j => x (ix2 (j 1) (j 0))
theorem tr_apply (x : Mat M N) (q : Fin N) (p : Fin M) : tr x (ix2 q p) = x (ix2 p q) := rfl

/-- A dense layer with bias and rectifier: entry (p, q) is max (∑ₖ x (p, k) · w (q, k) + b q) 0. -/
def dense (x : Mat M K) (w : Mat N K) (b : Row N) : Mat M N := fun j => max (mulT x w j + b (ix1 (j 1))) 0
theorem dense_apply (x : Mat M K) (w : Mat N K) (b : Row N) (p : Fin M) (q : Fin N) :
    dense x w b (ix2 p q) = max ((∑ k : Fin K, x (ix2 p k) * w (ix2 q k)) + b (ix1 q)) 0 := rfl

/-- The last layer: entry (p, j) is logistic ((∑ₖ h (p, k) · wout (0, k) + bout 0) + b j). -/
def final (h : Mat M K) (wout : Mat 1 K) (bout : Row 1) (b : Row N) : Mat M N :=
  fun j => Ideal.logistic (((∑ k : Fin K, h (ix2 (j 0) k) * wout (ix2 0 k)) + bout (ix1 0)) + b (ix1 (j 1)))
theorem final_apply (h : Mat M K) (wout : Mat 1 K) (bout : Row 1) (b : Row N) (p : Fin M) (j : Fin N) :
    final h wout bout b (ix2 p j)
      = Ideal.logistic (((∑ k : Fin K, h (ix2 p k) * wout (ix2 0 k)) + bout (ix1 0)) + b (ix1 j)) := rfl

/-- Multiplication of extended reals commutes, so w · xᵀ is the transpose of x · wᵀ. -/
theorem mulT_comm (x : Mat M K) (w : Mat N K) : mulT w x = tr (mulT x w) := by
  funext j
  obtain ⟨q, p, rfl⟩ : ∃ (q : Fin N) (p : Fin M), j = ix2 q p := ⟨j 0, j 1, eq_ix2 j⟩
  rw [tr_apply, mulT_apply, mulT_apply]
  exact Finset.sum_congr rfl fun k _ => mul_comm _ _

/-- A product of two transposes, contracted on their second axes, is the product of the originals contracted on
    their first axes. -/
theorem mulT_tr_tr (x : Mat K M) (y : Mat K N) : mulT (tr x) (tr y) = tMul x y := by
  funext j
  obtain ⟨a, b, rfl⟩ : ∃ (a : Fin M) (b : Fin N), j = ix2 a b := ⟨j 0, j 1, eq_ix2 j⟩
  rfl

/-- x · wᵀ with the left operand a transpose: ∑ₖ x (k, p) · w (q, k). -/
theorem mulT_tr_apply (x : Mat K M) (w : Mat N K) (p : Fin M) (q : Fin N) :
    mulT (tr x) w (ix2 p q) = ∑ k : Fin K, x (ix2 k p) * w (ix2 q k) := rfl

end Cert.Spec

end
-- ==== Proof.KKept.lean ====
/-
  What the kernel program's buffers hold at the places where they are read.

  The program is eight regions among stretches of host operations, and the contents of every buffer at each boundary
  between them is a fold from the launch memory: a stretch changes exactly the result buffers of its operations, and
  a region changes exactly its own arrays.  So a buffer that a stretch does not write, and that is not an array of a
  region, holds after it what it held before.  Walking back boundary by boundary gives (A) that an argument array read
  late in the program still holds its launch contents there, and (B) that a region's output read two boundaries later
  is unchanged.  (C) What the stretches write: a change of float format, which is the identity on the extended reals,
  of an argument array; and, between the second and the third region, a softmax over the first axis of the scores,
  kept as one function of the scores and never opened.
-/
import proofs.«124600_j13451837571471_2_alg».proof.Proof.Gen.KernelIdeal.Frame
import proofs.«124600_j13451837571471_2_alg».proof.Proof.Spec
import Idealize.ShloMosaic.Lib.StableHlo.Run

noncomputable section

namespace Cert.KKept

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-- A stretch of host operations leaves a buffer that none of them writes as it was: the buffer is compared with each
    operation's result buffer in turn. -/
local macro "kept_through " ops:ident " at " b:ident : tactic => `(tactic|
  exact StableHlo.after_of_forall_not_mem (b := Proc.devRef .tc $b) _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (by decide))))

/-! ## (A) Argument arrays hold their launch contents where they are read

No operation and no region before the reading place has the array as a result or as one of its arrays. -/

/-- The first layer's weight, where its change of format reads it (after the third region). -/
theorem W5_arg5 : W5 m ρ c (Proc.devRef .tc main_arg5) = m ((c : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := by kept_through hostOps2 at main_arg5
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := by kept_through hostOps0 at main_arg5
    _ = m ((c : Thread nD τ).loc main_arg5) := rfl

/-- The first layer's bias, at the fourth region's entry. -/
theorem W6_arg6 : W6 m ρ c (Proc.devRef .tc main_arg6) = m ((c : Thread nD τ).loc main_arg6) :=
  calc W6 m ρ c (Proc.devRef .tc main_arg6)
    _ = W5 m ρ c (Proc.devRef .tc main_arg6) := by kept_through hostOps3 at main_arg6
    _ = W4 m ρ c (Proc.devRef .tc main_arg6) := W5_of_ne m ρ c main_arg6 (by decide)
    _ = W3 m ρ c (Proc.devRef .tc main_arg6) := by kept_through hostOps2 at main_arg6
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := by kept_through hostOps0 at main_arg6
    _ = m ((c : Thread nD τ).loc main_arg6) := rfl

/-- The second layer's weight, where its change of format reads it. -/
theorem W7_arg7 : W7 m ρ c (Proc.devRef .tc main_arg7) = m ((c : Thread nD τ).loc main_arg7) :=
  calc W7 m ρ c (Proc.devRef .tc main_arg7)
    _ = W6 m ρ c (Proc.devRef .tc main_arg7) := W7_of_ne m ρ c main_arg7 (by decide)
    _ = W5 m ρ c (Proc.devRef .tc main_arg7) := by kept_through hostOps3 at main_arg7
    _ = W4 m ρ c (Proc.devRef .tc main_arg7) := W5_of_ne m ρ c main_arg7 (by decide)
    _ = W3 m ρ c (Proc.devRef .tc main_arg7) := by kept_through hostOps2 at main_arg7
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := by kept_through hostOps0 at main_arg7
    _ = m ((c : Thread nD τ).loc main_arg7) := rfl

/-- The second layer's bias, at the fifth region's entry. -/
theorem W8_arg8 : W8 m ρ c (Proc.devRef .tc main_arg8) = m ((c : Thread nD τ).loc main_arg8) :=
  calc W8 m ρ c (Proc.devRef .tc main_arg8)
    _ = W7 m ρ c (Proc.devRef .tc main_arg8) := by kept_through hostOps4 at main_arg8
    _ = W6 m ρ c (Proc.devRef .tc main_arg8) := W7_of_ne m ρ c main_arg8 (by decide)
    _ = W5 m ρ c (Proc.devRef .tc main_arg8) := by kept_through hostOps3 at main_arg8
    _ = W4 m ρ c (Proc.devRef .tc main_arg8) := W5_of_ne m ρ c main_arg8 (by decide)
    _ = W3 m ρ c (Proc.devRef .tc main_arg8) := by kept_through hostOps2 at main_arg8
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := by kept_through hostOps0 at main_arg8
    _ = m ((c : Thread nD τ).loc main_arg8) := rfl

/-- The third layer's weight, where its change of format reads it. -/
theorem W9_arg9 : W9 m ρ c (Proc.devRef .tc main_arg9) = m ((c : Thread nD τ).loc main_arg9) :=
  calc W9 m ρ c (Proc.devRef .tc main_arg9)
    _ = W8 m ρ c (Proc.devRef .tc main_arg9) := W9_of_ne m ρ c main_arg9 (by decide)
    _ = W7 m ρ c (Proc.devRef .tc main_arg9) := by kept_through hostOps4 at main_arg9
    _ = W6 m ρ c (Proc.devRef .tc main_arg9) := W7_of_ne m ρ c main_arg9 (by decide)
    _ = W5 m ρ c (Proc.devRef .tc main_arg9) := by kept_through hostOps3 at main_arg9
    _ = W4 m ρ c (Proc.devRef .tc main_arg9) := W5_of_ne m ρ c main_arg9 (by decide)
    _ = W3 m ρ c (Proc.devRef .tc main_arg9) := by kept_through hostOps2 at main_arg9
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := by kept_through hostOps0 at main_arg9
    _ = m ((c : Thread nD τ).loc main_arg9) := rfl

/-- The third layer's bias, at the sixth region's entry. -/
theorem W10_arg10 : W10 m ρ c (Proc.devRef .tc main_arg10) = m ((c : Thread nD τ).loc main_arg10) :=
  calc W10 m ρ c (Proc.devRef .tc main_arg10)
    _ = W9 m ρ c (Proc.devRef .tc main_arg10) := by kept_through hostOps5 at main_arg10
    _ = W8 m ρ c (Proc.devRef .tc main_arg10) := W9_of_ne m ρ c main_arg10 (by decide)
    _ = W7 m ρ c (Proc.devRef .tc main_arg10) := by kept_through hostOps4 at main_arg10
    _ = W6 m ρ c (Proc.devRef .tc main_arg10) := W7_of_ne m ρ c main_arg10 (by decide)
    _ = W5 m ρ c (Proc.devRef .tc main_arg10) := by kept_through hostOps3 at main_arg10
    _ = W4 m ρ c (Proc.devRef .tc main_arg10) := W5_of_ne m ρ c main_arg10 (by decide)
    _ = W3 m ρ c (Proc.devRef .tc main_arg10) := by kept_through hostOps2 at main_arg10
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := by kept_through hostOps0 at main_arg10
    _ = m ((c : Thread nD τ).loc main_arg10) := rfl

/-- The fourth layer's weight, where its change of format reads it. -/
theorem W11_arg11 : W11 m ρ c (Proc.devRef .tc main_arg11) = m ((c : Thread nD τ).loc main_arg11) :=
  calc W11 m ρ c (Proc.devRef .tc main_arg11)
    _ = W10 m ρ c (Proc.devRef .tc main_arg11) := W11_of_ne m ρ c main_arg11 (by decide)
    _ = W9 m ρ c (Proc.devRef .tc main_arg11) := by kept_through hostOps5 at main_arg11
    _ = W8 m ρ c (Proc.devRef .tc main_arg11) := W9_of_ne m ρ c main_arg11 (by decide)
    _ = W7 m ρ c (Proc.devRef .tc main_arg11) := by kept_through hostOps4 at main_arg11
    _ = W6 m ρ c (Proc.devRef .tc main_arg11) := W7_of_ne m ρ c main_arg11 (by decide)
    _ = W5 m ρ c (Proc.devRef .tc main_arg11) := by kept_through hostOps3 at main_arg11
    _ = W4 m ρ c (Proc.devRef .tc main_arg11) := W5_of_ne m ρ c main_arg11 (by decide)
    _ = W3 m ρ c (Proc.devRef .tc main_arg11) := by kept_through hostOps2 at main_arg11
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := by kept_through hostOps0 at main_arg11
    _ = m ((c : Thread nD τ).loc main_arg11) := rfl

/-- The fourth layer's bias, at the seventh region's entry. -/
theorem W12_arg12 : W12 m ρ c (Proc.devRef .tc main_arg12) = m ((c : Thread nD τ).loc main_arg12) :=
  calc W12 m ρ c (Proc.devRef .tc main_arg12)
    _ = W11 m ρ c (Proc.devRef .tc main_arg12) := by kept_through hostOps6 at main_arg12
    _ = W10 m ρ c (Proc.devRef .tc main_arg12) := W11_of_ne m ρ c main_arg12 (by decide)
    _ = W9 m ρ c (Proc.devRef .tc main_arg12) := by kept_through hostOps5 at main_arg12
    _ = W8 m ρ c (Proc.devRef .tc main_arg12) := W9_of_ne m ρ c main_arg12 (by decide)
    _ = W7 m ρ c (Proc.devRef .tc main_arg12) := by kept_through hostOps4 at main_arg12
    _ = W6 m ρ c (Proc.devRef .tc main_arg12) := W7_of_ne m ρ c main_arg12 (by decide)
    _ = W5 m ρ c (Proc.devRef .tc main_arg12) := by kept_through hostOps3 at main_arg12
    _ = W4 m ρ c (Proc.devRef .tc main_arg12) := W5_of_ne m ρ c main_arg12 (by decide)
    _ = W3 m ρ c (Proc.devRef .tc main_arg12) := by kept_through hostOps2 at main_arg12
    _ = W2 m ρ c (Proc.devRef .tc main_arg12) := W3_of_ne m ρ c main_arg12 (by decide)
    _ = W1 m ρ c (Proc.devRef .tc main_arg12) := W2_of_ne m ρ c main_arg12 (by decide)
    _ = W0 m ρ c (Proc.devRef .tc main_arg12) := by kept_through hostOps0 at main_arg12
    _ = m ((c : Thread nD τ).loc main_arg12) := rfl

/-- The output weight row, at the last region's entry. -/
theorem W13_arg13 : W13 m ρ c (Proc.devRef .tc main_arg13) = m ((c : Thread nD τ).loc main_arg13) :=
  calc W13 m ρ c (Proc.devRef .tc main_arg13)
    _ = W12 m ρ c (Proc.devRef .tc main_arg13) := W13_of_ne m ρ c main_arg13 (by decide)
    _ = W11 m ρ c (Proc.devRef .tc main_arg13) := by kept_through hostOps6 at main_arg13
    _ = W10 m ρ c (Proc.devRef .tc main_arg13) := W11_of_ne m ρ c main_arg13 (by decide)
    _ = W9 m ρ c (Proc.devRef .tc main_arg13) := by kept_through hostOps5 at main_arg13
    _ = W8 m ρ c (Proc.devRef .tc main_arg13) := W9_of_ne m ρ c main_arg13 (by decide)
    _ = W7 m ρ c (Proc.devRef .tc main_arg13) := by kept_through hostOps4 at main_arg13
    _ = W6 m ρ c (Proc.devRef .tc main_arg13) := W7_of_ne m ρ c main_arg13 (by decide)
    _ = W5 m ρ c (Proc.devRef .tc main_arg13) := by kept_through hostOps3 at main_arg13
    _ = W4 m ρ c (Proc.devRef .tc main_arg13) := W5_of_ne m ρ c main_arg13 (by decide)
    _ = W3 m ρ c (Proc.devRef .tc main_arg13) := by kept_through hostOps2 at main_arg13
    _ = W2 m ρ c (Proc.devRef .tc main_arg13) := W3_of_ne m ρ c main_arg13 (by decide)
    _ = W1 m ρ c (Proc.devRef .tc main_arg13) := W2_of_ne m ρ c main_arg13 (by decide)
    _ = W0 m ρ c (Proc.devRef .tc main_arg13) := by kept_through hostOps0 at main_arg13
    _ = m ((c : Thread nD τ).loc main_arg13) := rfl

/-- The output bias, at the last region's entry. -/
theorem W13_arg14 : W13 m ρ c (Proc.devRef .tc main_arg14) = m ((c : Thread nD τ).loc main_arg14) :=
  calc W13 m ρ c (Proc.devRef .tc main_arg14)
    _ = W12 m ρ c (Proc.devRef .tc main_arg14) := W13_of_ne m ρ c main_arg14 (by decide)
    _ = W11 m ρ c (Proc.devRef .tc main_arg14) := by kept_through hostOps6 at main_arg14
    _ = W10 m ρ c (Proc.devRef .tc main_arg14) := W11_of_ne m ρ c main_arg14 (by decide)
    _ = W9 m ρ c (Proc.devRef .tc main_arg14) := by kept_through hostOps5 at main_arg14
    _ = W8 m ρ c (Proc.devRef .tc main_arg14) := W9_of_ne m ρ c main_arg14 (by decide)
    _ = W7 m ρ c (Proc.devRef .tc main_arg14) := by kept_through hostOps4 at main_arg14
    _ = W6 m ρ c (Proc.devRef .tc main_arg14) := W7_of_ne m ρ c main_arg14 (by decide)
    _ = W5 m ρ c (Proc.devRef .tc main_arg14) := by kept_through hostOps3 at main_arg14
    _ = W4 m ρ c (Proc.devRef .tc main_arg14) := W5_of_ne m ρ c main_arg14 (by decide)
    _ = W3 m ρ c (Proc.devRef .tc main_arg14) := by kept_through hostOps2 at main_arg14
    _ = W2 m ρ c (Proc.devRef .tc main_arg14) := W3_of_ne m ρ c main_arg14 (by decide)
    _ = W1 m ρ c (Proc.devRef .tc main_arg14) := W2_of_ne m ρ c main_arg14 (by decide)
    _ = W0 m ρ c (Proc.devRef .tc main_arg14) := by kept_through hostOps0 at main_arg14
    _ = m ((c : Thread nD τ).loc main_arg14) := rfl

/-- The per-column bias, at the last region's entry. -/
theorem W13_arg4 : W13 m ρ c (Proc.devRef .tc main_arg4) = m ((c : Thread nD τ).loc main_arg4) :=
  calc W13 m ρ c (Proc.devRef .tc main_arg4)
    _ = W12 m ρ c (Proc.devRef .tc main_arg4) := W13_of_ne m ρ c main_arg4 (by decide)
    _ = W11 m ρ c (Proc.devRef .tc main_arg4) := by kept_through hostOps6 at main_arg4
    _ = W10 m ρ c (Proc.devRef .tc main_arg4) := W11_of_ne m ρ c main_arg4 (by decide)
    _ = W9 m ρ c (Proc.devRef .tc main_arg4) := by kept_through hostOps5 at main_arg4
    _ = W8 m ρ c (Proc.devRef .tc main_arg4) := W9_of_ne m ρ c main_arg4 (by decide)
    _ = W7 m ρ c (Proc.devRef .tc main_arg4) := by kept_through hostOps4 at main_arg4
    _ = W6 m ρ c (Proc.devRef .tc main_arg4) := W7_of_ne m ρ c main_arg4 (by decide)
    _ = W5 m ρ c (Proc.devRef .tc main_arg4) := by kept_through hostOps3 at main_arg4
    _ = W4 m ρ c (Proc.devRef .tc main_arg4) := W5_of_ne m ρ c main_arg4 (by decide)
    _ = W3 m ρ c (Proc.devRef .tc main_arg4) := by kept_through hostOps2 at main_arg4
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := by kept_through hostOps0 at main_arg4
    _ = m ((c : Thread nD τ).loc main_arg4) := rfl

/-! ## (B) Intermediate arrays carried unchanged to where they are read -/

/-- The value projection (the first region's third output) is read by the third region: the second region and the
    softmax stretch lie between and neither touches it. -/
theorem W4_v4_2 : W4 m ρ c (Proc.devRef .tc main_v4_2) = W2 m ρ c (Proc.devRef .tc main_v4_2) :=
  calc W4 m ρ c (Proc.devRef .tc main_v4_2)
    _ = W3 m ρ c (Proc.devRef .tc main_v4_2) := by kept_through hostOps2 at main_v4_2
    _ = W2 m ρ c (Proc.devRef .tc main_v4_2) := W3_of_ne m ρ c main_v4_2 (by decide)

/-- The context, through the first layer's change of format of its weight. -/
theorem W6_v18 : W6 m ρ c (Proc.devRef .tc main_v18) = W5 m ρ c (Proc.devRef .tc main_v18) := by kept_through hostOps3 at main_v18
/-- The first layer's output, through the second layer's change of format of its weight. -/
theorem W8_v20 : W8 m ρ c (Proc.devRef .tc main_v20) = W7 m ρ c (Proc.devRef .tc main_v20) := by kept_through hostOps4 at main_v20
/-- The second layer's output, likewise. -/
theorem W10_v22 : W10 m ρ c (Proc.devRef .tc main_v22) = W9 m ρ c (Proc.devRef .tc main_v22) := by kept_through hostOps5 at main_v22
/-- The third layer's output, likewise. -/
theorem W12_v24 : W12 m ρ c (Proc.devRef .tc main_v24) = W11 m ρ c (Proc.devRef .tc main_v24) := by kept_through hostOps6 at main_v24

/-! ## (C) What the host stretches write

A change of float format is the identity on the extended reals, so the converted copy of an array is the array. The two
sides are arrays of different float formats; both are functions to the extended reals, and the equations are stated
there. -/

/-- The converted input x. -/
theorem W1_v0 : (W1 m ρ c (Proc.devRef .tc main_v0) : Cert.Spec.Mat 8192 512) = (m ((c : Thread nD τ).loc main_arg0) : Cert.Spec.Mat 8192 512) := by
  show StableHlo.after hostOps0 (W0 m ρ c) (Proc.devRef .tc main_v0) = _
  dsimp only [hostOps0]; after_results; rfl

/-- The converted query weight. -/
theorem W1_v1 : (W1 m ρ c (Proc.devRef .tc main_v1) : Cert.Spec.Mat 2048 512) = (m ((c : Thread nD τ).loc main_arg1) : Cert.Spec.Mat 2048 512) := by
  show StableHlo.after hostOps0 (W0 m ρ c) (Proc.devRef .tc main_v1) = _
  dsimp only [hostOps0]; after_results; rfl

/-- The converted key weight. -/
theorem W1_v2 : (W1 m ρ c (Proc.devRef .tc main_v2) : Cert.Spec.Mat 2048 512) = (m ((c : Thread nD τ).loc main_arg2) : Cert.Spec.Mat 2048 512) := by
  show StableHlo.after hostOps0 (W0 m ρ c) (Proc.devRef .tc main_v2) = _
  dsimp only [hostOps0]; after_results; rfl

/-- The converted value weight. -/
theorem W1_v3 : (W1 m ρ c (Proc.devRef .tc main_v3) : Cert.Spec.Mat 2048 512) = (m ((c : Thread nD τ).loc main_arg3) : Cert.Spec.Mat 2048 512) := by
  show StableHlo.after hostOps0 (W0 m ρ c) (Proc.devRef .tc main_v3) = _
  dsimp only [hostOps0]; after_results; rfl

/-- The converted first-layer weight. -/
theorem W6_v19 : (W6 m ρ c (Proc.devRef .tc main_v19) : Cert.Spec.Mat 4096 2048) = (m ((c : Thread nD τ).loc main_arg5) : Cert.Spec.Mat 4096 2048) := by
  rw [← W5_arg5 m ρ c]
  show StableHlo.after hostOps3 (W5 m ρ c) (Proc.devRef .tc main_v19) = _
  dsimp only [hostOps3]; after_results; rfl

/-- The converted second-layer weight. -/
theorem W8_v21 : (W8 m ρ c (Proc.devRef .tc main_v21) : Cert.Spec.Mat 4096 4096) = (m ((c : Thread nD τ).loc main_arg7) : Cert.Spec.Mat 4096 4096) := by
  rw [← W7_arg7 m ρ c]
  show StableHlo.after hostOps4 (W7 m ρ c) (Proc.devRef .tc main_v21) = _
  dsimp only [hostOps4]; after_results; rfl

/-- The converted third-layer weight. -/
theorem W10_v23 : (W10 m ρ c (Proc.devRef .tc main_v23) : Cert.Spec.Mat 4096 4096) = (m ((c : Thread nD τ).loc main_arg9) : Cert.Spec.Mat 4096 4096) := by
  rw [← W9_arg9 m ρ c]
  show StableHlo.after hostOps5 (W9 m ρ c) (Proc.devRef .tc main_v23) = _
  dsimp only [hostOps5]; after_results; rfl

/-- The converted fourth-layer weight. -/
theorem W12_v25 : (W12 m ρ c (Proc.devRef .tc main_v25) : Cert.Spec.Mat 4096 4096) = (m ((c : Thread nD τ).loc main_arg11) : Cert.Spec.Mat 4096 4096) := by
  rw [← W11_arg11 m ρ c]
  show StableHlo.after hostOps6 (W11 m ρ c) (Proc.devRef .tc main_v25) = _
  dsimp only [hostOps6]; after_results; rfl

/-- exp (a − mx), where mx (b) is the maximum over the first axis of column b (from −∞, and once more against −∞),
    spread back over the rows. -/
def expShiftK (a : FVec Ideal S2048x2048 .f32) : FVec Ideal S2048x2048 .f32 :=
  Host.exp (F := Ideal) (subf a
    (broadcastInDim S2048x2048 ![0, 1] bcast_S1x2048_S2048x2048_0_1
      (broadcastInDim S1x2048 ![1] bcast_S2048_S1x2048_1
        (maximumf (broadcastInDim S2048 ![] bcast_S_S2048 (constant (F := Ideal) S_ .f32 0xFF800000#32))
          (Host.reduce FloatOps.maximumf a (constant (F := Ideal) S_ .f32 0xFF800000#32) reducesTo_S2048x2048_S2048_d0 h_S_)))))

/-- The softmax over the first axis: exp (a − mx) divided by its sum over the first axis (from 0), spread back over
    the rows: the operations the program applies to its scores between the second and the third region. -/
def softmaxK (a : FVec Ideal S2048x2048 .f32) : FVec Ideal S2048x2048 .f32 :=
  Host.divf (F := Ideal) (expShiftK a)
    (broadcastInDim S2048x2048 ![0, 1] bcast_S1x2048_S2048x2048_0_1
      (broadcastInDim S1x2048 ![1] bcast_S2048_S1x2048_1
        (Host.reduceAdd (F := Ideal) (expShiftK a) (constant (F := Ideal) S_ .f32 0x00000000#32) reducesTo_S2048x2048_S2048_d0 h_S_)))

/-- The third region's second operand is that function of the scores the second region left, after a change of
    format. -/
theorem W4_v17 : (W4 m ρ c (Proc.devRef .tc main_v17) : Cert.Spec.Mat 2048 2048) = softmaxK (W3 m ρ c (Proc.devRef .tc main_v5)) := by
  show StableHlo.after hostOps2 (W3 m ρ c) (Proc.devRef .tc main_v17) = _
  dsimp only [hostOps2]; after_results
  unfold softmaxK expShiftK
  rfl

end Cert.KKept

end
-- ==== Proof.LibMatT.lean ====
/-
  A matrix product with BOTH operands contracted on their second axis (x · wᵀ), read at an entry, at the exact
  instance: for the dimension numbers "contract the left operand's second axis with the right operand's second
  axis", entry (p, q) of the product of an M×K by an N×K array into a zero accumulator is ∑ₖ x (p, k) · w (q, k);
  the host's product of the same operands is the same sum.
-/
import Idealize.ShloMosaic.Lib.ValueIdx
import Idealize.ShloMosaic.PureOps.Ideal.Laws

noncomputable section

namespace Cert.LibMatT

open Idealize.ShloMosaic Idealize.ShloMosaic.ValueIdx

variable {M K N : ℕ} {φ₁ φ₂ : FTy}

/-- The left operand's index at output (p, q) and contraction coordinate k is (p, k). -/
theorem transposedRhs_lhsIdx (p : Fin M) (q : Fin N) (k : Fin K) :
    (DotDims.transposedRhs M K N).lhsIdx (ix2 p q) ((contrEquiv1 (DotDims.transposedRhs M K N) K rfl rfl).symm k) = ix2 p k := by
  have hk := contrEquiv1_symm_val (DotDims.transposedRhs M K N) K rfl rfl k
  funext a
  apply Fin.ext
  match a with
  | ⟨0, _⟩ => rfl
  | ⟨1, _⟩ => exact ((DotDims.transposedRhs M K N).lhsIdx_val_of_single rfl (ix2 p q) _).trans hk

/-- The right operand's index at output (p, q) and contraction coordinate k is (q, k). -/
theorem transposedRhs_rhsIdx (p : Fin M) (q : Fin N) (k : Fin K) :
    (DotDims.transposedRhs M K N).rhsIdx (ix2 p q) ((contrEquiv1 (DotDims.transposedRhs M K N) K rfl rfl).symm k) = ix2 q k := by
  have hk := contrEquiv1_symm_val (DotDims.transposedRhs M K N) K rfl rfl k
  funext a
  apply Fin.ext
  match a with
  | ⟨0, _⟩ => rfl
  | ⟨1, _⟩ => exact ((DotDims.transposedRhs M K N).rhsIdx_val_of_single rfl (ix2 p q) _).trans hk

/-- A kernel's product x · wᵀ into the zero accumulator, at (p, q). -/
theorem transposedRhs_matmul_apply (prec : Option ContractPrecision) (x : FVec Ideal ⟨2, ![M, K]⟩ φ₁) (w : FVec Ideal ⟨2, ![N, K]⟩ φ₂)
    (p : Fin M) (q : Fin N) :
    FloatOps.matmul (DotDims.transposedRhs M K N) prec x w (constant ⟨2, ![M, N]⟩ .f32 0x00000000#32) (ix2 p q)
      = ∑ k : Fin K, x (ix2 p k) * w (ix2 q k) := by
  rw [Ideal.matmul_constant_zero_apply, ← Equiv.sum_comp (contrEquiv1 (DotDims.transposedRhs M K N) K rfl rfl).symm]
  refine Finset.sum_congr rfl fun k _ => ?_
  rw [transposedRhs_lhsIdx, transposedRhs_rhsIdx]

/-- The host's product x · wᵀ of the same operands, at (p, q). -/
theorem transposedRhs_dotGeneral_apply (prec : Option ContractPrecision) (sched : HostSchedule) (x : FVec Ideal ⟨2, ![M, K]⟩ φ₁)
    (w : FVec Ideal ⟨2, ![N, K]⟩ φ₂) (p : Fin M) (q : Fin N) :
    FloatOps.dotGeneral (DotDims.transposedRhs M K N) prec sched x w (ix2 p q) = ∑ k : Fin K, x (ix2 p k) * w (ix2 q k) := by
  rw [Ideal.dotGeneral_apply, ← Equiv.sum_comp (contrEquiv1 (DotDims.transposedRhs M K N) K rfl rfl).symm]
  refine Finset.sum_congr rfl fun k _ => ?_
  rw [transposedRhs_lhsIdx, transposedRhs_rhsIdx]

end Cert.LibMatT

end
-- ==== Proof.KProj0.lean ====
/-
  The first region: per block of 512 rows, three products of a 512×512 block of x with the transposes of three
  2048×512 arrays, each written back to the same rows of its own result.  For any contents of the arrays at the
  region's entry, each result array after all sixteen grid points is x · wᵀ for its own w: entry (r, q) is
  ∑ₖ x (r, k) · w (q, k).

  The steps, for each of the three results: the body's stored value at an entry (p, q) of a block is
  ∑ₖ x₀ (p, k) · x₁ (q, k) of the two loaded blocks (a change of float format is the identity on extended reals); the
  block of x at point t is rows 512 t … 512 t + 511 and the block of each w is all of it; so what point t writes back
  is block t of x · wᵀ; the sixteen blocks cover the result.
-/
import proofs.«124600_j13451837571471_2_alg».proof.Proof.Gen.KernelIdeal.Frame
import proofs.«124600_j13451837571471_2_alg».proof.Proof.Spec
import proofs.«124600_j13451837571471_2_alg».proof.Proof.LibMatT
import Idealize.ShloMosaic.Lib.Pipeline.Value
import Idealize.ShloMosaic.Lib.Tactic

noncomputable section

namespace Cert.KProj0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's first stored value at entry (p, q). -/
theorem pay2_apply (x0 : FVec Ideal S512x512 .bf16) (x1 : FVec Ideal S2048x512 .bf16) (p : Fin 512) (q : Fin 2048) :
    k0_pay2 (F := Ideal) x0 x1 (ix2 p q) = ∑ k : Fin 512, x0 (ix2 p k) * x1 (ix2 q k) := by
  unfold k0_pay2 k0_pay1
  simp only [shapeCast_self]
  exact LibMatT.transposedRhs_matmul_apply none x0 x1 p q

/-- The body's second stored value at entry (p, q). -/
theorem pay3_apply (x0 : FVec Ideal S512x512 .bf16) (x1 : FVec Ideal S2048x512 .bf16) (p : Fin 512) (q : Fin 2048) :
    k0_pay3 (F := Ideal) x0 x1 (ix2 p q) = ∑ k : Fin 512, x0 (ix2 p k) * x1 (ix2 q k) := by
  unfold k0_pay3 k0_pay1
  simp only [shapeCast_self]
  exact LibMatT.transposedRhs_matmul_apply none x0 x1 p q

/-- The body's third stored value at entry (p, q). -/
theorem pay4_apply (x0 : FVec Ideal S512x512 .bf16) (x1 : FVec Ideal S2048x512 .bf16) (p : Fin 512) (q : Fin 2048) :
    k0_pay4 (F := Ideal) x0 x1 (ix2 p q) = ∑ k : Fin 512, x0 (ix2 p k) * x1 (ix2 q k) := by
  unfold k0_pay4 k0_pay1
  simp only [shapeCast_self]
  exact LibMatT.transposedRhs_matmul_apply none x0 x1 p q

/-- The printed index maps over the grid: the left operand's and the three results' blocks are the point's row block,
    each right operand is one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The left operand's block at point t is rows 512 t … 512 t + 511 of its array. -/
theorem iblk_x (c : Dev nD) (t : Fin cfg0.N) (p : Fin 512) (k : Fin 512) (hp : t.val * 512 + p.val < 8192) :
    (iblk0 V c 0 t : Vec Ideal S512x512 .bf16) (ix2 p k)
      = (V c (Pipeline.arrRef spec0 0) : S8192x512.Idx → EReal) (ix2 ⟨t.val * 512 + p.val, hp⟩ k) := by
  obtain ⟨e0, e1, -⟩ := idx_facts t
  unfold iblk0
  rw [View.read_apply]
  show V c (Pipeline.arrRef spec0 0) _ = V c (Pipeline.arrRef spec0 0) _
  refine congrArg (V c (Pipeline.arrRef spec0 0)) (funext fun a => Fin.ext ?_)
  match a with
  | ⟨0, _⟩ => show win0_0.index t (0 : Fin 2) * 512 + 1 * p.val = t.val * 512 + p.val; rw [e0]; omega
  | ⟨1, _⟩ => show win0_0.index t (1 : Fin 2) * 512 + 1 * k.val = k.val; rw [e1]; omega

/-- Right operand 1's block is its whole array. -/
theorem iblk_w1 (c : Dev nD) (t : Fin cfg0.N) (q : Fin 2048) (k : Fin 512) :
    (iblk0 V c 1 t : Vec Ideal S2048x512 .bf16) (ix2 q k)
      = (V c (Pipeline.arrRef spec0 1) : S2048x512.Idx → EReal) (ix2 q k) := by
  obtain ⟨-, -, ea, eb, -⟩ := idx_facts t
  unfold iblk0
  rw [View.read_apply]
  show V c (Pipeline.arrRef spec0 1) _ = V c (Pipeline.arrRef spec0 1) _
  refine congrArg (V c (Pipeline.arrRef spec0 1)) (funext fun a => Fin.ext ?_)
  match a with
  | ⟨0, _⟩ => show win0_1.index t (0 : Fin 2) * 2048 + 1 * q.val = q.val; rw [ea]; omega
  | ⟨1, _⟩ => show win0_1.index t (1 : Fin 2) * 512 + 1 * k.val = k.val; rw [eb]; omega

/-- Right operand 2's block is its whole array. -/
theorem iblk_w2 (c : Dev nD) (t : Fin cfg0.N) (q : Fin 2048) (k : Fin 512) :
    (iblk0 V c 2 t : Vec Ideal S2048x512 .bf16) (ix2 q k)
      = (V c (Pipeline.arrRef spec0 2) : S2048x512.Idx → EReal) (ix2 q k) := by
  obtain ⟨-, -, -, -, ea, eb, -⟩ := idx_facts t
  unfold iblk0
  rw [View.read_apply]
  show V c (Pipeline.arrRef spec0 2) _ = V c (Pipeline.arrRef spec0 2) _
  refine congrArg (V c (Pipeline.arrRef spec0 2)) (funext fun a => Fin.ext ?_)
  match a with
  | ⟨0, _⟩ => show win0_2.index t (0 : Fin 2) * 2048 + 1 * q.val = q.val; rw [ea]; omega
  | ⟨1, _⟩ => show win0_2.index t (1 : Fin 2) * 512 + 1 * k.val = k.val; rw [eb]; omega

/-- Right operand 3's block is its whole array. -/
theorem iblk_w3 (c : Dev nD) (t : Fin cfg0.N) (q : Fin 2048) (k : Fin 512) :
    (iblk0 V c 3 t : Vec Ideal S2048x512 .bf16) (ix2 q k)
      = (V c (Pipeline.arrRef spec0 3) : S2048x512.Idx → EReal) (ix2 q k) := by
  obtain ⟨-, -, -, -, -, -, ea, eb, -⟩ := idx_facts t
  unfold iblk0
  rw [View.read_apply]
  show V c (Pipeline.arrRef spec0 3) _ = V c (Pipeline.arrRef spec0 3) _
  refine congrArg (V c (Pipeline.arrRef spec0 3)) (funext fun a => Fin.ext ?_)
  match a with
  | ⟨0, _⟩ => show win0_3.index t (0 : Fin 2) * 2048 + 1 * q.val = q.val; rw [ea]; omega
  | ⟨1, _⟩ => show win0_3.index t (1 : Fin 2) * 512 + 1 * k.val = k.val; rw [eb]; omega

/-- An index of result 4's array is in point t's block iff each coordinate is in the block's range on its axis. -/
theorem mem_blk4 (t : Fin cfg0.N) (i : S8192x2048.Idx) :
    i ∈ ((cfg0.win 4).blk t).view.set ↔ ∀ a : Fin 2, win0_4.index t a * S512x2048.size a ≤ (i a).val ∧ (i a).val < win0_4.index t a * S512x2048.size a + S512x2048.size a := by
  show i ∈ ((View.whole main_v4_0).slice (win0_4.rect t)).set ↔ _
  rw [View.set_slice_whole, Rect.mem_set_unit]
  exact Iff.rfl

/-- What point t writes back to result 4 is block t of the product of x and right operand 1. -/
theorem flushed_eq4 (c : Dev nD) (t : Fin cfg0.N) :
    (dat0 (F := Ideal) V c).flushed 4 t = ((cfg0.win 4).blk t).view.read (Elt Ideal) (Spec.mulT (V c (Pipeline.arrRef spec0 0)) (V c (Pipeline.arrRef spec0 1))) := by
  show (cfg0.win 4).cut (grid0.coords t) ((dat0 V c).after 4 t) = _
  rw [after0_4]
  unfold out0_4
  rw [View.canon_unit_zero hz]
  simp only [View.ld_unit_zero (S := S512x512) hz, View.ld_unit_zero (S := S2048x512) hz]
  funext j
  obtain ⟨p, q, rfl⟩ : ∃ (p : Fin 512) (q : Fin 2048), j = ix2 p q := ⟨j 0, j 1, eq_ix2 j⟩
  have ht : t.val < 16 := Nat.lt_of_lt_of_eq t.isLt N_0
  obtain ⟨-, -, -, -, -, -, -, -, ea, eb, -⟩ := idx_facts t
  have hemb : ((cfg0.win 4).blk t).view.emb (ix2 p q) = (ix2 ⟨t.val * 512 + p.val, by omega⟩ q : S8192x2048.Idx) := by
    funext a; apply Fin.ext
    match a with
    | ⟨0, _⟩ => show win0_4.index t (0 : Fin 2) * 512 + 1 * p.val = t.val * 512 + p.val; rw [ea]; omega
    | ⟨1, _⟩ => show win0_4.index t (1 : Fin 2) * 2048 + 1 * q.val = q.val; rw [eb]; omega
  show k0_pay2 (iblk0 V c 0 t) (iblk0 V c 1 t) (ix2 p q) = Spec.mulT (V c (Pipeline.arrRef spec0 0)) (V c (Pipeline.arrRef spec0 1)) (((cfg0.win 4).blk t).view.emb (ix2 p q))
  rw [hemb, pay2_apply, Spec.mulT_apply]
  refine Finset.sum_congr rfl fun k _ => ?_
  rw [iblk_x V c t p k (by omega), iblk_w1 V c t q k]

/-- Every index of result 4's array is in the block of the point its row block names. -/
theorem cover4 (i : S8192x2048.Idx) : ∃ t : Fin cfg0.N, (cfg0.win 4).flush t = true ∧ i ∈ ((cfg0.win 4).blk t).view.set := by
  have hi0 : (i 0).val < 8192 := (i 0).isLt
  have hi1 : (i 1).val < 2048 := (i 1).isLt
  have hN : grid0.N = 16 := N_0
  have hlt : (i 0).val / 512 < grid0.N := by rw [hN]; omega
  obtain ⟨-, -, -, -, -, -, -, -, ea, eb, -⟩ := idx_facts ⟨(i 0).val / 512, hlt⟩
  refine ⟨⟨(i 0).val / 512, hlt⟩, flush0_4 _, ?_⟩
  rw [mem_blk4]
  intro a
  match a with
  | ⟨0, _⟩ =>
    show win0_4.index ⟨(i 0).val / 512, hlt⟩ (0 : Fin 2) * 512 ≤ (i 0).val ∧ (i 0).val < win0_4.index ⟨(i 0).val / 512, hlt⟩ (0 : Fin 2) * 512 + 512
    rw [ea]; show (i 0).val / 512 * 512 ≤ (i 0).val ∧ (i 0).val < (i 0).val / 512 * 512 + 512; omega
  | ⟨1, _⟩ =>
    show win0_4.index ⟨(i 0).val / 512, hlt⟩ (1 : Fin 2) * 2048 ≤ (i 1).val ∧ (i 1).val < win0_4.index ⟨(i 0).val / 512, hlt⟩ (1 : Fin 2) * 2048 + 2048
    rw [eb]; omega

/-- Result 4's array after all sixteen points is the product x · wᵀ with right operand 1. -/
theorem reg0_val4 (c : Dev nD) :
    (dat0 (F := Ideal) V c).arrAt 4 cfg0.N = Spec.mulT (V c (Pipeline.arrRef spec0 0)) (V c (Pipeline.arrRef spec0 1)) :=
  (dat0 (F := Ideal) V c).arrAt_eq_of_cover 4 _ (fun t _ => flushed_eq4 V c t) cover4

/-- An index of result 5's array is in point t's block iff each coordinate is in the block's range on its axis. -/
theorem mem_blk5 (t : Fin cfg0.N) (i : S8192x2048.Idx) :
    i ∈ ((cfg0.win 5).blk t).view.set ↔ ∀ a : Fin 2, win0_5.index t a * S512x2048.size a ≤ (i a).val ∧ (i a).val < win0_5.index t a * S512x2048.size a + S512x2048.size a := by
  show i ∈ ((View.whole main_v4_1).slice (win0_5.rect t)).set ↔ _
  rw [View.set_slice_whole, Rect.mem_set_unit]
  exact Iff.rfl

/-- What point t writes back to result 5 is block t of the product of x and right operand 2. -/
theorem flushed_eq5 (c : Dev nD) (t : Fin cfg0.N) :
    (dat0 (F := Ideal) V c).flushed 5 t = ((cfg0.win 5).blk t).view.read (Elt Ideal) (Spec.mulT (V c (Pipeline.arrRef spec0 0)) (V c (Pipeline.arrRef spec0 2))) := by
  show (cfg0.win 5).cut (grid0.coords t) ((dat0 V c).after 5 t) = _
  rw [after0_5]
  unfold out0_5
  rw [View.canon_unit_zero hz]
  simp only [View.ld_unit_zero (S := S512x512) hz, View.ld_unit_zero (S := S2048x512) hz]
  funext j
  obtain ⟨p, q, rfl⟩ : ∃ (p : Fin 512) (q : Fin 2048), j = ix2 p q := ⟨j 0, j 1, eq_ix2 j⟩
  have ht : t.val < 16 := Nat.lt_of_lt_of_eq t.isLt N_0
  obtain ⟨-, -, -, -, -, -, -, -, -, -, ea, eb, -⟩ := idx_facts t
  have hemb : ((cfg0.win 5).blk t).view.emb (ix2 p q) = (ix2 ⟨t.val * 512 + p.val, by omega⟩ q : S8192x2048.Idx) := by
    funext a; apply Fin.ext
    match a with
    | ⟨0, _⟩ => show win0_5.index t (0 : Fin 2) * 512 + 1 * p.val = t.val * 512 + p.val; rw [ea]; omega
    | ⟨1, _⟩ => show win0_5.index t (1 : Fin 2) * 2048 + 1 * q.val = q.val; rw [eb]; omega
  show k0_pay3 (iblk0 V c 0 t) (iblk0 V c 2 t) (ix2 p q) = Spec.mulT (V c (Pipeline.arrRef spec0 0)) (V c (Pipeline.arrRef spec0 2)) (((cfg0.win 5).blk t).view.emb (ix2 p q))
  rw [hemb, pay3_apply, Spec.mulT_apply]
  refine Finset.sum_congr rfl fun k _ => ?_
  rw [iblk_x V c t p k (by omega), iblk_w2 V c t q k]

/-- Every index of result 5's array is in the block of the point its row block names. -/
theorem cover5 (i : S8192x2048.Idx) : ∃ t : Fin cfg0.N, (cfg0.win 5).flush t = true ∧ i ∈ ((cfg0.win 5).blk t).view.set := by
  have hi0 : (i 0).val < 8192 := (i 0).isLt
  have hi1 : (i 1).val < 2048 := (i 1).isLt
  have hN : grid0.N = 16 := N_0
  have hlt : (i 0).val / 512 < grid0.N := by rw [hN]; omega
  obtain ⟨-, -, -, -, -, -, -, -, -, -, ea, eb, -⟩ := idx_facts ⟨(i 0).val / 512, hlt⟩
  refine ⟨⟨(i 0).val / 512, hlt⟩, flush0_5 _, ?_⟩
  rw [mem_blk5]
  intro a
  match a with
  | ⟨0, _⟩ =>
    show win0_5.index ⟨(i 0).val / 512, hlt⟩ (0 : Fin 2) * 512 ≤ (i 0).val ∧ (i 0).val < win0_5.index ⟨(i 0).val / 512, hlt⟩ (0 : Fin 2) * 512 + 512
    rw [ea]; show (i 0).val / 512 * 512 ≤ (i 0).val ∧ (i 0).val < (i 0).val / 512 * 512 + 512; omega
  | ⟨1, _⟩ =>
    show win0_5.index ⟨(i 0).val / 512, hlt⟩ (1 : Fin 2) * 2048 ≤ (i 1).val ∧ (i 1).val < win0_5.index ⟨(i 0).val / 512, hlt⟩ (1 : Fin 2) * 2048 + 2048
    rw [eb]; omega

/-- Result 5's array after all sixteen points is the product x · wᵀ with right operand 2. -/
theorem reg0_val5 (c : Dev nD) :
    (dat0 (F := Ideal) V c).arrAt 5 cfg0.N = Spec.mulT (V c (Pipeline.arrRef spec0 0)) (V c (Pipeline.arrRef spec0 2)) :=
  (dat0 (F := Ideal) V c).arrAt_eq_of_cover 5 _ (fun t _ => flushed_eq5 V c t) cover5

/-- An index of result 6's array is in point t's block iff each coordinate is in the block's range on its axis. -/
theorem mem_blk6 (t : Fin cfg0.N) (i : S8192x2048.Idx) :
    i ∈ ((cfg0.win 6).blk t).view.set ↔ ∀ a : Fin 2, win0_6.index t a * S512x2048.size a ≤ (i a).val ∧ (i a).val < win0_6.index t a * S512x2048.size a + S512x2048.size a := by
  show i ∈ ((View.whole main_v4_2).slice (win0_6.rect t)).set ↔ _
  rw [View.set_slice_whole, Rect.mem_set_unit]
  exact Iff.rfl

/-- What point t writes back to result 6 is block t of the product of x and right operand 3. -/
theorem flushed_eq6 (c : Dev nD) (t : Fin cfg0.N) :
    (dat0 (F := Ideal) V c).flushed 6 t = ((cfg0.win 6).blk t).view.read (Elt Ideal) (Spec.mulT (V c (Pipeline.arrRef spec0 0)) (V c (Pipeline.arrRef spec0 3))) := by
  show (cfg0.win 6).cut (grid0.coords t) ((dat0 V c).after 6 t) = _
  rw [after0_6]
  unfold out0_6
  rw [View.canon_unit_zero hz]
  simp only [View.ld_unit_zero (S := S512x512) hz, View.ld_unit_zero (S := S2048x512) hz]
  funext j
  obtain ⟨p, q, rfl⟩ : ∃ (p : Fin 512) (q : Fin 2048), j = ix2 p q := ⟨j 0, j 1, eq_ix2 j⟩
  have ht : t.val < 16 := Nat.lt_of_lt_of_eq t.isLt N_0
  obtain ⟨-, -, -, -, -, -, -, -, -, -, -, -, ea, eb⟩ := idx_facts t
  have hemb : ((cfg0.win 6).blk t).view.emb (ix2 p q) = (ix2 ⟨t.val * 512 + p.val, by omega⟩ q : S8192x2048.Idx) := by
    funext a; apply Fin.ext
    match a with
    | ⟨0, _⟩ => show win0_6.index t (0 : Fin 2) * 512 + 1 * p.val = t.val * 512 + p.val; rw [ea]; omega
    | ⟨1, _⟩ => show win0_6.index t (1 : Fin 2) * 2048 + 1 * q.val = q.val; rw [eb]; omega
  show k0_pay4 (iblk0 V c 0 t) (iblk0 V c 3 t) (ix2 p q) = Spec.mulT (V c (Pipeline.arrRef spec0 0)) (V c (Pipeline.arrRef spec0 3)) (((cfg0.win 6).blk t).view.emb (ix2 p q))
  rw [hemb, pay4_apply, Spec.mulT_apply]
  refine Finset.sum_congr rfl fun k _ => ?_
  rw [iblk_x V c t p k (by omega), iblk_w3 V c t q k]

/-- Every index of result 6's array is in the block of the point its row block names. -/
theorem cover6 (i : S8192x2048.Idx) : ∃ t : Fin cfg0.N, (cfg0.win 6).flush t = true ∧ i ∈ ((cfg0.win 6).blk t).view.set := by
  have hi0 : (i 0).val < 8192 := (i 0).isLt
  have hi1 : (i 1).val < 2048 := (i 1).isLt
  have hN : grid0.N = 16 := N_0
  have hlt : (i 0).val / 512 < grid0.N := by rw [hN]; omega
  obtain ⟨-, -, -, -, -, -, -, -, -, -, -, -, ea, eb⟩ := idx_facts ⟨(i 0).val / 512, hlt⟩
  refine ⟨⟨(i 0).val / 512, hlt⟩, flush0_6 _, ?_⟩
  rw [mem_blk6]
  intro a
  match a with
  | ⟨0, _⟩ =>
    show win0_6.index ⟨(i 0).val / 512, hlt⟩ (0 : Fin 2) * 512 ≤ (i 0).val ∧ (i 0).val < win0_6.index ⟨(i 0).val / 512, hlt⟩ (0 : Fin 2) * 512 + 512
    rw [ea]; show (i 0).val / 512 * 512 ≤ (i 0).val ∧ (i 0).val < (i 0).val / 512 * 512 + 512; omega
  | ⟨1, _⟩ =>
    show win0_6.index ⟨(i 0).val / 512, hlt⟩ (1 : Fin 2) * 2048 ≤ (i 1).val ∧ (i 1).val < win0_6.index ⟨(i 0).val / 512, hlt⟩ (1 : Fin 2) * 2048 + 2048
    rw [eb]; omega

/-- Result 6's array after all sixteen points is the product x · wᵀ with right operand 3. -/
theorem reg0_val6 (c : Dev nD) :
    (dat0 (F := Ideal) V c).arrAt 6 cfg0.N = Spec.mulT (V c (Pipeline.arrRef spec0 0)) (V c (Pipeline.arrRef spec0 3)) :=
  (dat0 (F := Ideal) V c).arrAt_eq_of_cover 6 _ (fun t _ => flushed_eq6 V c t) cover6

end Cert.KProj0

end
-- ==== Proof.LibSumSplit.lean ====
/-
  Three facts about finite sums in a commutative monoid, none of which needs more than commutativity and
  associativity of the addition (so they hold for the extended reals, infinities included).
-/
import Idealize.ShloMosaic.Lib.ValueIdx
import Mathlib.Algebra.BigOperators.Fin

noncomputable section

open scoped BigOperators

namespace Cert.Lib.SumSplit

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Position `b` of block `t`, among `N` consecutive blocks of `B` positions each: `B·t + b`. -/
def blockPos {N B : Nat} (t : Fin N) (b : Fin B) : Fin (N * B) := finProdFinEquiv (t, b)

theorem blockPos_val {N B : Nat} (t : Fin N) (b : Fin B) : (blockPos t b).val = b.val + B * t.val := rfl

/-- A sum over `N·B` consecutive positions is the sum, over the `N` blocks, of each block's `B` terms. -/
theorem sum_blocks {M : Type*} [AddCommMonoid M] (N B : Nat) (g : Fin (N * B) → M) :
    ∑ a, g a = ∑ t : Fin N, ∑ b : Fin B, g (blockPos t b) := by
  rw [← Equiv.sum_comp finProdFinEquiv g, Fintype.sum_prod_type]
  rfl

/-- A running total that starts at the first term and adds the next term at every step, for the first `K` steps, is at
    step `n` the sum of the terms `0 … n`. -/
theorem running_sum {M : Type*} [AddCommMonoid M] (K : Nat) (acc term : Nat → M) (h0 : acc 0 = term 0)
    (hs : ∀ n, n + 1 < K → acc (n + 1) = acc n + term (n + 1)) (n : Nat) (hn : n < K) :
    acc n = ∑ t ∈ Finset.range (n + 1), term t := by
  induction n with
  | zero => simp [h0]
  | succ n ih => rw [hs n hn, ih (Nat.lt_of_succ_lt hn), Finset.sum_range_succ _ (n + 1)]

end Cert.Lib.SumSplit

end
-- ==== Proof.KScores1.lean ====
/-
  The attention scores.  Region 1 walks the 8192 rows of qᵀ and kᵀ in 64 blocks of 128 rows; its one output block,
  the whole 2048×2048 array, is zeroed at the first point, and at every point the block's product
  (qᵀ-block)ᵀ · (kᵀ-block), entry (a, b) = ∑ₛ q (s, a) · k (s, b) over the block's 128 rows, is added to it; the
  block is written back after the last point.  So entry (a, b) of the array ends at the running total of the 64
  block sums, which is the sum over all 8192 rows: addition of extended reals is commutative and associative.
-/
import proofs.«124600_j13451837571471_2_alg».proof.Proof.Gen.KernelIdeal.Frame
import proofs.«124600_j13451837571471_2_alg».proof.Proof.Spec
import proofs.«124600_j13451837571471_2_alg».proof.Proof.LibSumSplit
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KScores1

open Cert.KernelIdeal Cert.KernelIdeal.Gen

theorem hz : (![0, 0] : Fin 2 → Nat) = fun _ => 0 := funext fun a => by fin_cases a <;> rfl

section AnyF
variable {F : FTy → Type} [FloatOps F]

/-- At a point other than the first the body leaves, in the output's staging buffer holding `xo`, the payload of
    its one covering store: `xo` plus the product of the two input blocks. -/
theorem out_B (c : Dev nD) (i : grid1.Coords) (a1 : Memref sig .tc .vmem S128x2048 .f32) (h1 : a1.IsWhole)
    (a2 : Memref sig .tc .vmem S128x2048 .f32) (h2 : a2.IsWhole) (a3 : Memref sig .tc .vmem S2048x2048 .f32) (h3 : a3.IsWhole)
    (hc : ¬cond1_0 i) (x0 x1 : Vec F S128x2048 .f32) (xo : Vec F S2048x2048 .f32) :
    out1_B_2 c i a1 h1 a2 h2 a3 h3 hc x0 x1 xo = k1_pay2 xo x0 x1 := by
  unfold out1_B_2
  rw [View.read_writes_eq_canon _ _ _ (cover1_B_2 c i a1 h1 a2 h2 a3 h3 hc x0 x1 xo)]
  unfold kernelRun1_B
  dsimp only
  rw [View.canon_unit_zero hz]
  simp only [View.readAt_eq_ld, h1.read_unread, h2.read_unread, h3.read_unread, View.ld_unit_zero (S := S128x2048) hz,
    View.ld_unit_zero (S := S2048x2048) hz]

/-- At the first point the body stores the zero block, reads it back and leaves the zero block plus the product of
    the two input blocks. -/
theorem out_A (c : Dev nD) (i : grid1.Coords) (a1 : Memref sig .tc .vmem S128x2048 .f32) (h1 : a1.IsWhole)
    (a2 : Memref sig .tc .vmem S128x2048 .f32) (h2 : a2.IsWhole) (a3 : Memref sig .tc .vmem S2048x2048 .f32) (h3 : a3.IsWhole)
    (hc : cond1_0 i) (x0 x1 : Vec F S128x2048 .f32) :
    out1_A_2 c i a1 h1 a2 h2 a3 h3 hc x0 x1 = k1_pay2 (k1_pay1 (F := F)) x0 x1 := by
  unfold out1_A_2
  rw [View.read_writes_eq_canon _ _ _ (cover1_A_2 c i a1 h1 a2 h2 a3 h3 hc x0 x1)]
  unfold kernelRun1_A
  dsimp only
  sl_unfold_words
  rw [View.canon_cons_unit_zero (S := S2048x2048) hz, View.readCov_unit_zero (S := S2048x2048) _ hz]
  simp only [View.readAt_eq_ld, h1.read_unread, h2.read_unread, View.ld_unit_zero (S := S128x2048) hz,
    View.ld_unit_zero (S := S2048x2048) hz]

end AnyF

/-! ## At the exact instance -/

/-- The block product's dimension numbers: both operands contracted on their FIRST axis (the block's 128 rows). -/
abbrev D1 : DotDims S128x2048 S128x2048 S2048x2048 := dot_S128x2048_S128x2048_S2048x2048_0_0_1_1_n_n

/-- The left operand's second coordinate is the output's first. -/
theorem D1_lhs_1 (j : S2048x2048.Idx) (q : D1.contr.Idx) : (D1.lhsIdx j q 1).val = (j 0).val := by
  unfold DotDims.lhsIdx
  rw [dif_neg (show ¬(1 : Fin S128x2048.rank) ∈ D1.lhsBatch by decide), dif_pos (show (1 : Fin S128x2048.rank) ∈ D1.lhsNonContracting by decide)]
  rfl
/-- The right operand's second coordinate is the output's second. -/
theorem D1_rhs_1 (j : S2048x2048.Idx) (q : D1.contr.Idx) : (D1.rhsIdx j q 1).val = (j 1).val := by
  unfold DotDims.rhsIdx
  rw [dif_neg (show ¬(1 : Fin S128x2048.rank) ∈ D1.rhsBatch by decide), dif_pos (show (1 : Fin S128x2048.rank) ∈ D1.rhsNonContracting by decide)]
  rfl

/-- At output (a, b) and row s of the block the left operand is read at (s, a). -/
theorem D1_lhsIdx (a b : Fin 2048) (s : Fin 128) :
    D1.lhsIdx (ix2 a b) ((contrEquiv1 D1 128 rfl rfl).symm s) = ix2 s a := by
  have hk := contrEquiv1_symm_val D1 128 rfl rfl s
  funext d
  apply Fin.ext
  match d with
  | ⟨0, _⟩ => exact (D1.lhsIdx_val_of_single rfl (ix2 a b) _).trans hk
  | ⟨1, _⟩ => exact D1_lhs_1 _ _

/-- … and the right operand at (s, b). -/
theorem D1_rhsIdx (a b : Fin 2048) (s : Fin 128) :
    D1.rhsIdx (ix2 a b) ((contrEquiv1 D1 128 rfl rfl).symm s) = ix2 s b := by
  have hk := contrEquiv1_symm_val D1 128 rfl rfl s
  funext d
  apply Fin.ext
  match d with
  | ⟨0, _⟩ => exact (D1.rhsIdx_val_of_single rfl (ix2 a b) _).trans hk
  | ⟨1, _⟩ => exact D1_rhs_1 _ _

/-- The covering store's payload at entry (a, b): what the buffer held plus the block's sum ∑ₛ x₀ (s, a) · x₁ (s, b). -/
theorem pay2_apply (xo : Vec Ideal S2048x2048 .f32) (x0 x1 : Vec Ideal S128x2048 .f32) (a b : Fin 2048) :
    k1_pay2 (F := Ideal) xo x0 x1 (ix2 a b) = xo (ix2 a b) + ∑ s : Fin 128, x0 (ix2 s a) * x1 (ix2 s b) := by
  unfold k1_pay2
  simp only [shapeCast_self]
  show (xo (ix2 a b) : EReal) + FloatOps.matmul (F := Ideal) D1 (some .fp32) x0 x1 (constant S2048x2048 .f32 0x00000000#32) (ix2 a b) = _
  rw [Ideal.matmul_constant_zero_apply, ← Equiv.sum_comp (contrEquiv1 D1 128 rfl rfl).symm]
  refine congrArg (xo (ix2 a b) + ·) (Finset.sum_congr rfl fun s _ => ?_)
  rw [D1_lhsIdx, D1_rhsIdx]

/-- The reset's payload is zero everywhere. -/
theorem pay1_apply (i : S2048x2048.Idx) : k1_pay1 (F := Ideal) i = 0 := Ideal.ofBits_zero_f32

variable (V : (c : Dev nD) → (b : Ref sig .tc) → Buf (Elt Ideal) ((c : Thread nD τ).loc b)) (c : Dev nD)

/-- The two input windows walk the rows: at point t both blocks start at row 128·t and column 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- Row s of point t's block of qᵀ is row 128·t + s of the array. -/
theorem iblk0_apply (t : Fin cfg1.N) (s : Fin 128) (a : Fin 2048) :
    iblk1 V c 0 t (ix2 s a) = (V c (Pipeline.arrRef spec1 0) : Spec.Mat 8192 2048) (ix2 (Lib.SumSplit.blockPos (N := 64) (B := 128) (t.cast N_1) s) a) := by
  unfold iblk1
  rw [View.read_apply]
  obtain ⟨e0, e1, -, -⟩ := idx_facts t
  refine congrArg (V c (Pipeline.arrRef spec1 0)) ?_
  funext d
  apply Fin.ext
  match d with
  | ⟨0, _⟩ => show win1_0.index t (0 : Fin 2) * 128 + 1 * s.val = s.val + 128 * t.val; rw [e0]; omega
  | ⟨1, _⟩ => show win1_0.index t (1 : Fin 2) * 2048 + 1 * a.val = a.val; rw [e1]; omega

/-- Row s of point t's block of kᵀ is row 128·t + s of the array. -/
theorem iblk1_apply (t : Fin cfg1.N) (s : Fin 128) (b : Fin 2048) :
    iblk1 V c 1 t (ix2 s b) = (V c (Pipeline.arrRef spec1 1) : Spec.Mat 8192 2048) (ix2 (Lib.SumSplit.blockPos (N := 64) (B := 128) (t.cast N_1) s) b) := by
  unfold iblk1
  rw [View.read_apply]
  obtain ⟨-, -, e0, e1⟩ := idx_facts t
  refine congrArg (V c (Pipeline.arrRef spec1 1)) ?_
  funext d
  apply Fin.ext
  match d with
  | ⟨0, _⟩ => show win1_1.index t (0 : Fin 2) * 128 + 1 * s.val = s.val + 128 * t.val; rw [e0]; omega
  | ⟨1, _⟩ => show win1_1.index t (1 : Fin 2) * 2048 + 1 * b.val = b.val; rw [e1]; omega

/-! ## The running total -/

/-- Point t's 128 rows of qᵀ and of kᵀ, as arrays of extended reals. -/
abbrev blkQ (t : Fin cfg1.N) : Spec.Mat 128 2048 := iblk1 V c 0 t
abbrev blkK (t : Fin cfg1.N) : Spec.Mat 128 2048 := iblk1 V c 1 t

/-- Block t's contribution to entry (a, b): the sum over its 128 rows. -/
def term (a b : Fin 2048) (t : ℕ) : EReal :=
  if h : t < cfg1.N then ∑ s : Fin 128, blkQ V c ⟨t, h⟩ (ix2 s a) * blkK V c ⟨t, h⟩ (ix2 s b) else 0

/-- The last point of the grid. -/
abbrev tLast : Fin cfg1.N := ⟨63, by rw [show cfg1.N = 64 from N_1]; decide⟩

/-- Entry (a, b) of what the output's buffer holds after point n. -/
def acc (a b : Fin 2048) (n : ℕ) : EReal := if h : n < cfg1.N then outsAt1 V c n h (ix2 a b) else 0

theorem acc_zero (a b : Fin 2048) : acc V c a b 0 = term V c a b 0 := by
  have h : 0 < cfg1.N := by rw [show cfg1.N = 64 from N_1]; decide
  unfold acc term
  rw [dif_pos h, dif_pos h, outsAt1_A V c ⟨0, h⟩ rfl, out_A, pay2_apply, pay1_apply, zero_add]

theorem acc_succ (a b : Fin 2048) (n : ℕ) (hn : n + 1 < 64) : acc V c a b (n + 1) = acc V c a b n + term V c a b (n + 1) := by
  have h1 : n + 1 < cfg1.N := by rw [show cfg1.N = 64 from N_1]; exact hn
  have h0 : n < cfg1.N := Nat.lt_of_succ_lt h1
  have hB : ¬(⟨n + 1, h1⟩ : Fin cfg1.N).val % 64 = 0 := by dsimp only; omega
  unfold acc term
  rw [dif_pos h1, dif_pos h0, dif_pos h1, outsAt1_B V c ⟨n + 1, h1⟩ hB, out_B, pay2_apply]
  rfl

/-- After the last point entry (a, b) is the sum over all 8192 rows: the 64 block sums, each over its 128 rows, are
    the one sum taken block by block. -/
theorem last_entry (a b : Fin 2048) (h : 63 < cfg1.N) :
    outsAt1 V c 63 h (ix2 a b)
      = Spec.tMul (V c (Pipeline.arrRef spec1 0) : Spec.Mat 8192 2048) (V c (Pipeline.arrRef spec1 1) : Spec.Mat 8192 2048) (ix2 a b) := by
  have hacc : acc V c a b 63 = outsAt1 V c 63 h (ix2 a b) := by unfold acc; rw [dif_pos h]
  rw [← hacc, Lib.SumSplit.running_sum 64 (acc V c a b) (term V c a b) (acc_zero V c a b) (acc_succ V c a b) 63 (by decide),
    Spec.tMul_apply]
  show ∑ t ∈ Finset.range 64, term V c a b t = ∑ r : Fin (64 * 128), _
  rw [Finset.sum_range, Lib.SumSplit.sum_blocks 64 128]
  refine Finset.sum_congr rfl fun t _ => ?_
  have ht : t.val < cfg1.N := by rw [show cfg1.N = 64 from N_1]; exact t.isLt
  unfold term
  rw [dif_pos ht]
  refine Finset.sum_congr rfl fun s _ => ?_
  exact congrArg₂ (· * ·) (iblk0_apply V c ⟨t.val, ht⟩ s a) (iblk1_apply V c ⟨t.val, ht⟩ s b)

/-! ## The write-back and the array -/

/-- The one write-back, after the last point, writes the whole array: the output's block is the array itself. -/
theorem flushed_eq (t : Fin cfg1.N) (hf : (cfg1.win 2).flush t = true) :
    (dat1 V c).flushed 2 t = ((cfg1.win 2).blk t).view.read (Elt Ideal)
      (Spec.tMul (V c (Pipeline.arrRef spec1 0) : Spec.Mat 8192 2048) (V c (Pipeline.arrRef spec1 1) : Spec.Mat 8192 2048)) := by
  have hN : cfg1.N = 64 := N_1
  have h63 : t.val = 63 := by have := (flush1_2 t).mp hf; have := t.isLt; omega
  obtain rfl : t = tLast := Fin.ext h63
  show (cfg1.win 2).cut (grid1.coords tLast) ((dat1 V c).after 2 tLast) = _
  rw [after1_2]
  have hres : outsAt1 V c 63 tLast.isLt = Spec.tMul (V c (Pipeline.arrRef spec1 0) : Spec.Mat 8192 2048) (V c (Pipeline.arrRef spec1 1) : Spec.Mat 8192 2048) :=
    funext fun j => by
      obtain ⟨a, b, rfl⟩ : ∃ (a b : Fin 2048), j = ix2 a b := ⟨j 0, j 1, eq_ix2 j⟩
      exact last_entry V c a b _
  dsimp only
  rw [hres]
  have hz' : (fun a => win1_2.index tLast a * main_v5.ty.shape.size a) = fun _ => 0 := funext fun a => by fin_cases a <;> decide
  exact (Memref.read_access_unit_zero (Elt Ideal) main_v5 hz' (fun a => by rw [congrFun hz' a]; simp) _).symm

/-- So the scores' array ends holding qᵀᵀ · kᵀ over all rows: entry (a, b) = ∑ₛ q (s, a) · k (s, b). -/
theorem reg1_val : (dat1 (F := Ideal) V c).arrAt 2 cfg1.N
    = Spec.tMul (V c (Pipeline.arrRef spec1 0) : Spec.Mat 8192 2048) (V c (Pipeline.arrRef spec1 1) : Spec.Mat 8192 2048) :=
  (dat1 V c).arrAt_eq_of_cover 2 _ (flushed_eq V c) fun i =>
    ⟨tLast, (flush1_2 tLast).mpr rfl, by
      show i ∈ ((View.whole main_v5).slice (win1_2.rect tLast)).set
      rw [View.set_slice_whole, Rect.mem_set_unit]
      intro a
      have h0 : (i 0 : Nat) < 2048 := (i 0).isLt
      have h1 : (i 1 : Nat) < 2048 := (i 1).isLt
      match a with
      | ⟨0, _⟩ => show win1_2.index tLast 0 * win1_2.size 0 ≤ (i 0 : Nat) ∧ (i 0 : Nat) < win1_2.index tLast 0 * win1_2.size 0 + win1_2.xsize (grid1.coords tLast) 0
                  rw [show win1_2.index tLast 0 * win1_2.size 0 = 0 from by decide +kernel, show win1_2.xsize (grid1.coords tLast) 0 = 2048 from by decide +kernel]; omega
      | ⟨1, _⟩ => show win1_2.index tLast 1 * win1_2.size 1 ≤ (i 1 : Nat) ∧ (i 1 : Nat) < win1_2.index tLast 1 * win1_2.size 1 + win1_2.xsize (grid1.coords tLast) 1
                  rw [show win1_2.index tLast 1 * win1_2.size 1 = 0 from by decide +kernel, show win1_2.xsize (grid1.coords tLast) 1 = 2048 from by decide +kernel]; omega⟩

end Cert.KScores1

end
-- ==== Proof.KCtx2.lean ====
/-
  The third region: per block of 1024 rows, the product of a 1024×2048 block of x with the transpose of a 2048×2048
  array w, written back to the same rows of the result.  For any contents of the arrays at the region's entry, the
  result array after all eight grid points is x · wᵀ: entry (r, q) is ∑ₖ x (r, k) · w (q, k).

  The steps: the body's stored value at an entry (p, q) of a block is ∑ₖ x₀ (p, k) · x₁ (q, k) of the two loaded blocks
  (a change of float format is the identity on extended reals); the block of x at point t is rows 1024 t … 1024 t + 1023
  and the block of w is all of w; so what point t writes back is block t of x · wᵀ; the eight blocks cover the result.
-/
import proofs.«124600_j13451837571471_2_alg».proof.Proof.Gen.KernelIdeal.Frame
import proofs.«124600_j13451837571471_2_alg».proof.Proof.Spec
import proofs.«124600_j13451837571471_2_alg».proof.Proof.LibMatT
import Idealize.ShloMosaic.Lib.Pipeline.Value
import Idealize.ShloMosaic.Lib.Tactic

noncomputable section

namespace Cert.KCtx2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The record of the kernel's product is "contract both second axes". -/
theorem dims_eq : dot_S1024x2048_S2048x2048_S1024x2048_1_1_0_0_n_n = DotDims.transposedRhs 1024 2048 2048 := rfl

/-- The body's payload at entry (p, q). -/
theorem pay_apply (x0 : FVec Ideal S1024x2048 .bf16) (x1 : FVec Ideal S2048x2048 .bf16) (p : Fin 1024) (q : Fin 2048) :
    k2_pay1 x0 x1 (ix2 p q) = ∑ k : Fin 2048, x0 (ix2 p k) * x1 (ix2 q k) := by
  unfold k2_pay1
  simp only [shapeCast_self]
  exact LibMatT.transposedRhs_matmul_apply none x0 x1 p q

/-- The printed index maps over the grid: the left operand's and the result's blocks are the point's row block, the
    right operand is one block. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left operand's block at point t is rows 1024 t … 1024 t + 1023 of its array. -/
theorem iblk_x (c : Dev nD) (t : Fin cfg2.N) (p : Fin 1024) (k : Fin 2048) (hp : t.val * 1024 + p.val < 8192) :
    (iblk2 V c 0 t : Vec Ideal S1024x2048 .bf16) (ix2 p k)
      = (V c (Pipeline.arrRef spec2 0) : S8192x2048.Idx → EReal) (ix2 ⟨t.val * 1024 + p.val, hp⟩ k) := by
  obtain ⟨e0, e1, -⟩ := idx_facts t
  unfold iblk2
  rw [View.read_apply]
  show V c (Pipeline.arrRef spec2 0) _ = V c (Pipeline.arrRef spec2 0) _
  refine congrArg (V c (Pipeline.arrRef spec2 0)) (funext fun a => Fin.ext ?_)
  match a with
  | ⟨0, _⟩ => show win2_0.index t (0 : Fin 2) * 1024 + 1 * p.val = t.val * 1024 + p.val; rw [e0]; omega
  | ⟨1, _⟩ => show win2_0.index t (1 : Fin 2) * 2048 + 1 * k.val = k.val; rw [e1]; omega

/-- The right operand's block is its whole array. -/
theorem iblk_w (c : Dev nD) (t : Fin cfg2.N) (q : Fin 2048) (k : Fin 2048) :
    (iblk2 V c 1 t : Vec Ideal S2048x2048 .bf16) (ix2 q k)
      = (V c (Pipeline.arrRef spec2 1) : S2048x2048.Idx → EReal) (ix2 q k) := by
  obtain ⟨-, -, e2, e3, -⟩ := idx_facts t
  unfold iblk2
  rw [View.read_apply]
  show V c (Pipeline.arrRef spec2 1) _ = V c (Pipeline.arrRef spec2 1) _
  refine congrArg (V c (Pipeline.arrRef spec2 1)) (funext fun a => Fin.ext ?_)
  match a with
  | ⟨0, _⟩ => show win2_1.index t (0 : Fin 2) * 2048 + 1 * q.val = q.val; rw [e2]; omega
  | ⟨1, _⟩ => show win2_1.index t (1 : Fin 2) * 2048 + 1 * k.val = k.val; rw [e3]; omega

/-- An index of the result array is in point t's block iff each coordinate is in the block's range on its axis. -/
theorem mem_blk (t : Fin cfg2.N) (i : S8192x2048.Idx) :
    i ∈ ((cfg2.win 2).blk t).view.set ↔ ∀ a : Fin 2, win2_2.index t a * S1024x2048.size a ≤ (i a).val ∧ (i a).val < win2_2.index t a * S1024x2048.size a + S1024x2048.size a := by
  show i ∈ ((View.whole main_v18).slice (win2_2.rect t)).set ↔ _
  rw [View.set_slice_whole, Rect.mem_set_unit]
  exact Iff.rfl

/-- What point t writes back is block t of the product of the two arrays. -/
theorem flushed_eq (c : Dev nD) (t : Fin cfg2.N) :
    (dat2 (F := Ideal) V c).flushed 2 t = ((cfg2.win 2).blk t).view.read (Elt Ideal) (Spec.mulT (V c (Pipeline.arrRef spec2 0)) (V c (Pipeline.arrRef spec2 1))) := by
  show (cfg2.win 2).cut (grid2.coords t) ((dat2 V c).after 2 t) = _
  rw [after2_2]
  unfold out2_2
  rw [View.canon_unit_zero hz]
  simp only [View.ld_unit_zero (S := S1024x2048) hz, View.ld_unit_zero (S := S2048x2048) hz]
  funext j
  obtain ⟨p, q, rfl⟩ : ∃ (p : Fin 1024) (q : Fin 2048), j = ix2 p q := ⟨j 0, j 1, eq_ix2 j⟩
  have ht : t.val < 8 := Nat.lt_of_lt_of_eq t.isLt N_2
  obtain ⟨-, -, -, -, e4, e5⟩ := idx_facts t
  have hemb : ((cfg2.win 2).blk t).view.emb (ix2 p q) = (ix2 ⟨t.val * 1024 + p.val, by omega⟩ q : S8192x2048.Idx) := by
    funext a; apply Fin.ext
    match a with
    | ⟨0, _⟩ => show win2_2.index t (0 : Fin 2) * 1024 + 1 * p.val = t.val * 1024 + p.val; rw [e4]; omega
    | ⟨1, _⟩ => show win2_2.index t (1 : Fin 2) * 2048 + 1 * q.val = q.val; rw [e5]; omega
  show k2_pay1 (iblk2 V c 0 t) (iblk2 V c 1 t) (ix2 p q) = Spec.mulT (V c (Pipeline.arrRef spec2 0)) (V c (Pipeline.arrRef spec2 1)) (((cfg2.win 2).blk t).view.emb (ix2 p q))
  rw [hemb, pay_apply, Spec.mulT_apply]
  refine Finset.sum_congr rfl fun k _ => ?_
  rw [iblk_x V c t p k (by omega), iblk_w V c t q k]

/-- Every index of the result array is in the block of the point its row block names. -/
theorem cover (i : S8192x2048.Idx) : ∃ t : Fin cfg2.N, (cfg2.win 2).flush t = true ∧ i ∈ ((cfg2.win 2).blk t).view.set := by
  have hi0 : (i 0).val < 8192 := (i 0).isLt
  have hi1 : (i 1).val < 2048 := (i 1).isLt
  have hN : grid2.N = 8 := N_2
  have hlt : (i 0).val / 1024 < grid2.N := by rw [hN]; omega
  obtain ⟨-, -, -, -, e4, e5⟩ := idx_facts ⟨(i 0).val / 1024, hlt⟩
  refine ⟨⟨(i 0).val / 1024, hlt⟩, flush2_2 _, ?_⟩
  rw [mem_blk]
  intro a
  match a with
  | ⟨0, _⟩ =>
    show win2_2.index ⟨(i 0).val / 1024, hlt⟩ (0 : Fin 2) * 1024 ≤ (i 0).val ∧ (i 0).val < win2_2.index ⟨(i 0).val / 1024, hlt⟩ (0 : Fin 2) * 1024 + 1024
    rw [e4]; show (i 0).val / 1024 * 1024 ≤ (i 0).val ∧ (i 0).val < (i 0).val / 1024 * 1024 + 1024; omega
  | ⟨1, _⟩ =>
    show win2_2.index ⟨(i 0).val / 1024, hlt⟩ (1 : Fin 2) * 2048 ≤ (i 1).val ∧ (i 1).val < win2_2.index ⟨(i 0).val / 1024, hlt⟩ (1 : Fin 2) * 2048 + 2048
    rw [e5]; omega

/-- The result array after all eight points is the product x · wᵀ of the region's two input arrays. -/
theorem reg2_val (c : Dev nD) :
    (dat2 (F := Ideal) V c).arrAt 2 cfg2.N = Spec.mulT (V c (Pipeline.arrRef spec2 0)) (V c (Pipeline.arrRef spec2 1)) :=
  (dat2 (F := Ideal) V c).arrAt_eq_of_cover 2 _ (fun t _ => flushed_eq V c t) cover

end Cert.KCtx2

end
-- ==== Proof.KDense3.lean ====
/-
  One dense layer of the network, as the kernel computes it: y = max (x · wᵀ + b, 0).

  The layer's output is an 8192×4096 array, written in 16 × 4 blocks of 512×1024.  The block at block-row r and
  block-column s is computed from rows 512·r … 512·r + 511 of x (all 2048 columns), rows 1024·s … 1024·s + 1023 of w
  (all 2048 columns) and entries 1024·s … 1024·s + 1023 of b: entry (p, q) of the block is

      max (∑ₖ x (512·r + p, k) · w (1024·s + q, k) + b (1024·s + q), 0),

  which is entry (512·r + p, 1024·s + q) of the dense layer of the whole arrays.  Every entry of the output lies in
  exactly the block (row / 512, column / 1024), so after all 64 blocks have been written the output array is the
  dense layer of the three input arrays, whatever those held when the layer started.
-/
import proofs.«124600_j13451837571471_2_alg».proof.Proof.Gen.KernelIdeal.Frame
import proofs.«124600_j13451837571471_2_alg».proof.Proof.Spec
import proofs.«124600_j13451837571471_2_alg».proof.Proof.LibMatT
import Idealize.ShloMosaic.Lib.Pipeline.Value
import Idealize.ShloMosaic.Lib.ValueLayout
import Idealize.ShloMosaic.Lib.ValueIdx

set_option maxRecDepth 16384

noncomputable section

namespace Cert.KDense3

open Idealize.ShloMosaic Idealize.ShloMosaic.TcCoe Idealize.ShloMosaic.ValueIdx Idealize.SL.Sem
open Idealize.ShloMosaic.Pipeline (Dat)
open Cert.KernelIdeal Cert.KernelIdeal.Gen

/-! ## One block's arithmetic -/

/-- Entry (p, q) of what the body computes from a 512×2048 block of x, a 1024×2048 block of w and a 1024-entry block
    of b: the product contracts both operands' second axes, the bias row is repeated down the 512 rows, the
    rectifier is the maximum with zero, and the final change of float format is the identity on extended reals. -/
theorem payload_apply (x0 : Vec Ideal S512x2048 .bf16) (x1 : Vec Ideal S1024x2048 .bf16) (x2 : Vec Ideal S1024 .f32)
    (p : Fin 512) (q : Fin 1024) :
    k3_pay1 x0 x1 x2 (ix2 p q) = max ((∑ k : Fin 2048, x0 (ix2 p k) * x1 (ix2 q k)) + x2 (ix1 q)) 0 := by
  unfold k3_pay1
  rw [shapeCast_self, shapeCast_self, truncf_apply, maximumf_apply, addf_apply, broadcast_apply]
  rw [broadcastTo_1b_ab_apply, shapeCast_a_1a_apply, Ideal.ofBits_def, Ideal.ofBits_zero_f32]
  have hm : (matmul (φ₁ := .bf16) (φ₂ := .bf16) dot_S512x2048_S1024x2048_S512x1024_1_1_0_0_n_n none x0 x1 (constant S512x1024 FTy.f32 0#32) : FVec Ideal S512x1024 .f32) (ix2 p q)
        = ∑ k : Fin 2048, x0 (ix2 p k) * x1 (ix2 q k) := LibMatT.transposedRhs_matmul_apply (φ₁ := .bf16) (φ₂ := .bf16) none x0 x1 p q
  rw [hm]

/-- If the three blocks are the rows r·512 …, the rows s·1024 … and the entries s·1024 … of whole arrays A0, A1, A2,
    then entry j of what the body computes is entry (r·512 + j₀, s·1024 + j₁) of the dense layer of A0, A1, A2. -/
theorem block_dense (x0 : Vec Ideal S512x2048 .bf16) (x1 : Vec Ideal S1024x2048 .bf16) (x2 : Vec Ideal S1024 .f32)
    (A0 : Spec.Mat 8192 2048) (A1 : Spec.Mat 4096 2048) (A2 : Spec.Row 4096) (r s : ℕ)
    (h0 : ∀ (y : S512x2048.Idx) (i : S8192x2048.Idx), (i 0).val = r * 512 + (y 0).val → (i 1).val = (y 1).val → x0 y = A0 i)
    (h1 : ∀ (y : S1024x2048.Idx) (i : S4096x2048.Idx), (i 0).val = s * 1024 + (y 0).val → (i 1).val = (y 1).val → x1 y = A1 i)
    (h2 : ∀ (y : S1024.Idx) (i : S4096.Idx), (i 0).val = s * 1024 + (y 0).val → x2 y = A2 i)
    (j : S512x1024.Idx) (i : S8192x4096.Idx) (hi0 : (i 0).val = r * 512 + (j 0).val) (hi1 : (i 1).val = s * 1024 + (j 1).val) :
    k3_pay1 x0 x1 x2 j = Spec.dense A0 A1 A2 i := by
  obtain ⟨p, q, rfl⟩ : ∃ (p : Fin 512) (q : Fin 1024), j = ix2 p q := ⟨j 0, j 1, eq_ix2 j⟩
  obtain ⟨P, Q, rfl⟩ : ∃ (P : Fin 8192) (Q : Fin 4096), i = ix2 P Q := ⟨i 0, i 1, eq_ix2 i⟩
  rw [payload_apply, Spec.dense_apply, h2 (ix1 q) (ix1 Q) hi1]
  congr 2
  exact Finset.sum_congr rfl fun k _ => by rw [h0 (ix2 p k) (ix2 P k) hi0 rfl, h1 (ix2 q k) (ix2 Q k) hi1 rfl]

/-! ## Which rows and columns each block is -/

variable (V : (c : Dev nD) → (b : Ref sig .tc) → Buf (Elt Ideal) ((c : Thread nD τ).loc b))

theorem zero_offsets2 : (![0, 0] : Fin 2 → Nat) = fun _ => 0 := funext fun a => by fin_cases a <;> rfl
theorem zero_offsets1 : (![0] : Fin 1 → Nat) = fun _ => 0 := funext fun a => by fin_cases a <;> rfl

/-- At every one of the 64 steps: the block of x is the output block's block-row and spans all columns; the blocks of w
    and of b are the output block's block-column (w spanning all its columns); block-rows run to 15 and block-columns
    to 3. -/
theorem block_indices : ∀ t : Fin cfg3.N, win3_0.index t (0 : Fin 2) = win3_3.index t (0 : Fin 2)
    ∧ win3_0.index t (1 : Fin 2) = 0
    ∧ win3_1.index t (0 : Fin 2) = win3_3.index t (1 : Fin 2)
    ∧ win3_1.index t (1 : Fin 2) = 0
    ∧ win3_2.index t (0 : Fin 1) = win3_3.index t (1 : Fin 2)
    ∧ win3_3.index t (0 : Fin 2) ≤ 15 ∧ win3_3.index t (1 : Fin 2) ≤ 3 :=
  (by decide +kernel : ∀ t : Fin grid3.N, _)

/-- Every pair (block-row, block-column) is the output block of some step. -/
theorem every_block_written : ∀ (q0 : Fin 16) (q1 : Fin 4), ∃ t : Fin cfg3.N, win3_3.index t = ![q0.val, q1.val] :=
  (by decide +kernel : ∀ (q0 : Fin 16) (q1 : Fin 4), ∃ t : Fin grid3.N, win3_3.index t = ![q0.val, q1.val])

/-- The block of x at step t, whose block index there is (i₀, i₁): entry y is x at (i₀ · 512 + y₀, i₁ · 2048 + y₁). -/
theorem x_block_apply (c : Dev nD) (t : Fin cfg3.N) (y : S512x2048.Idx) (i : S8192x2048.Idx)
    (h0 : (i 0).val = win3_0.index t (0 : Fin 2) * 512 + (y 0).val) (h1 : (i 1).val = win3_0.index t (1 : Fin 2) * 2048 + (y 1).val) :
    (iblk3 V c 0 t : Vec Ideal S512x2048 .bf16) y = (V c (Pipeline.arrRef spec3 0) : S8192x2048.Idx → EReal) i := by
  unfold iblk3
  rw [View.read_apply]
  refine congrArg (V c (Pipeline.arrRef spec3 0) : S8192x2048.Idx → EReal) ?_
  funext a; apply Fin.ext
  match a with
  | ⟨0, _⟩ => show win3_0.index t (0 : Fin 2) * 512 + 1 * (y 0).val = (i 0).val; omega
  | ⟨1, _⟩ => show win3_0.index t (1 : Fin 2) * 2048 + 1 * (y 1).val = (i 1).val; omega

/-- The block of w at step t, whose block index there is (i₀, i₁): entry y is w at (i₀ · 1024 + y₀, i₁ · 2048 + y₁). -/
theorem w_block_apply (c : Dev nD) (t : Fin cfg3.N) (y : S1024x2048.Idx) (i : S4096x2048.Idx)
    (h0 : (i 0).val = win3_1.index t (0 : Fin 2) * 1024 + (y 0).val) (h1 : (i 1).val = win3_1.index t (1 : Fin 2) * 2048 + (y 1).val) :
    (iblk3 V c 1 t : Vec Ideal S1024x2048 .bf16) y = (V c (Pipeline.arrRef spec3 1) : S4096x2048.Idx → EReal) i := by
  unfold iblk3
  rw [View.read_apply]
  refine congrArg (V c (Pipeline.arrRef spec3 1) : S4096x2048.Idx → EReal) ?_
  funext a; apply Fin.ext
  match a with
  | ⟨0, _⟩ => show win3_1.index t (0 : Fin 2) * 1024 + 1 * (y 0).val = (i 0).val; omega
  | ⟨1, _⟩ => show win3_1.index t (1 : Fin 2) * 2048 + 1 * (y 1).val = (i 1).val; omega

/-- The block of b at step t, whose block index there is i₀: entry y is b at i₀ · 1024 + y₀. -/
theorem b_block_apply (c : Dev nD) (t : Fin cfg3.N) (y : S1024.Idx) (i : S4096.Idx)
    (h0 : (i 0).val = win3_2.index t (0 : Fin 1) * 1024 + (y 0).val) :
    (iblk3 V c 2 t : Vec Ideal S1024 .f32) y = (V c (Pipeline.arrRef spec3 2) : S4096.Idx → EReal) i := by
  unfold iblk3
  rw [View.read_apply]
  refine congrArg (V c (Pipeline.arrRef spec3 2) : S4096.Idx → EReal) ?_
  funext a; apply Fin.ext
  match a with
  | ⟨0, _⟩ => show win3_2.index t (0 : Fin 1) * 1024 + 1 * (y 0).val = (i 0).val; omega

/-! ## From the blocks to the whole array -/

/-- The dense layer of the three input arrays as the layer finds them. -/
abbrev layer (c : Dev nD) : S8192x4096.Idx → EReal :=
  Spec.dense (M := 8192) (K := 2048) (N := 4096) (V c (Pipeline.arrRef spec3 0)) (V c (Pipeline.arrRef spec3 1)) (V c (Pipeline.arrRef spec3 2))

/-- What step t writes to the output array is its own block of the dense layer of the whole input arrays. -/
theorem written_block_eq (c : Dev nD) (t : Fin cfg3.N) :
    (dat3 V c).flushed 3 t = ((cfg3.win 3).blk t).view.read (Elt Ideal) (layer V c) := by
  show (cfg3.win 3).cut (grid3.coords t) ((dat3 V c).after 3 t) = _
  rw [after3_3]
  unfold out3_3
  rw [View.canon_unit_zero zero_offsets2]
  simp only [View.ld_unit_zero (S := S512x2048) zero_offsets2, View.ld_unit_zero (S := S1024x2048) zero_offsets2, View.ld_unit_zero (S := S1024) zero_offsets1]
  obtain ⟨e0, e1, e2, e3, e4, -, -⟩ := block_indices t
  funext j
  show k3_pay1 (iblk3 V c 0 t) (iblk3 V c 1 t) (iblk3 V c 2 t) j = layer V c (((cfg3.win 3).blk t).view.emb j)
  refine block_dense (iblk3 V c 0 t) (iblk3 V c 1 t) (iblk3 V c 2 t) _ _ _ (win3_3.index t (0 : Fin 2)) (win3_3.index t (1 : Fin 2))
    (fun y i h0 h1 => x_block_apply V c t y i (by omega) (by omega))
    (fun y i h0 h1 => w_block_apply V c t y i (by omega) (by omega))
    (fun y i h0 => b_block_apply V c t y i (by omega)) j _ ?_ ?_
  · show win3_3.index t (0 : Fin 2) * 512 + 1 * (j 0).val = _; omega
  · show win3_3.index t (1 : Fin 2) * 1024 + 1 * (j 1).val = _; omega

/-- An entry of the output array is in step t's block exactly when each coordinate is in the block's range. -/
theorem mem_out_block (t : Fin cfg3.N) (i : S8192x4096.Idx) :
    i ∈ ((cfg3.win 3).blk t).view.set ↔ ∀ a : Fin 2, win3_3.index t a * S512x1024.size a ≤ (i a).val ∧ (i a).val < win3_3.index t a * S512x1024.size a + S512x1024.size a := by
  show i ∈ ((View.whole main_v20).slice (win3_3.rect t)).set ↔ _
  rw [View.set_slice_whole, Rect.mem_set_unit]
  exact Iff.rfl

/-- Every entry (P, Q) of the output array is in the block (P / 512, Q / 1024), which some step writes. -/
theorem out_blocks_cover (i : S8192x4096.Idx) : ∃ t : Fin cfg3.N, (cfg3.win 3).flush t = true ∧ i ∈ ((cfg3.win 3).blk t).view.set := by
  have hi0 : (i 0).val < 8192 := (i 0).isLt
  have hi1 : (i 1).val < 4096 := (i 1).isLt
  obtain ⟨t, ht⟩ := every_block_written ⟨(i 0).val / 512, by omega⟩ ⟨(i 1).val / 1024, by omega⟩
  have q0 : win3_3.index t (0 : Fin 2) = (i 0).val / 512 := congrFun ht 0
  have q1 : win3_3.index t (1 : Fin 2) = (i 1).val / 1024 := congrFun ht 1
  refine ⟨t, flush3_3 t, ?_⟩
  rw [mem_out_block]
  intro a
  match a with
  | ⟨0, _⟩ => show win3_3.index t (0 : Fin 2) * 512 ≤ (i 0).val ∧ (i 0).val < win3_3.index t (0 : Fin 2) * 512 + 512; omega
  | ⟨1, _⟩ => show win3_3.index t (1 : Fin 2) * 1024 ≤ (i 1).val ∧ (i 1).val < win3_3.index t (1 : Fin 2) * 1024 + 1024; omega

/-- After all 64 steps the output array is the dense layer of the three input arrays as the layer found them. -/
theorem reg3_val (c : Dev nD) : (dat3 (F := Ideal) V c).arrAt 3 cfg3.N
    = Spec.dense (V c (Pipeline.arrRef spec3 0)) (V c (Pipeline.arrRef spec3 1)) (V c (Pipeline.arrRef spec3 2)) :=
  (dat3 V c).arrAt_eq_of_cover 3 (layer V c) (fun t _ => written_block_eq V c t) (out_blocks_cover)

end Cert.KDense3

end
-- ==== Proof.KDense4.lean ====
/-
  One dense layer of the network, as the kernel computes it: y = max (x · wᵀ + b, 0).

  The layer's output is an 8192×4096 array, written in 16 × 4 blocks of 512×1024.  The block at block-row r and
  block-column s is computed from rows 512·r … 512·r + 511 of x (all 4096 columns), rows 1024·s … 1024·s + 1023 of w
  (all 4096 columns) and entries 1024·s … 1024·s + 1023 of b: entry (p, q) of the block is

      max (∑ₖ x (512·r + p, k) · w (1024·s + q, k) + b (1024·s + q), 0),

  which is entry (512·r + p, 1024·s + q) of the dense layer of the whole arrays.  Every entry of the output lies in
  exactly the block (row / 512, column / 1024), so after all 64 blocks have been written the output array is the
  dense layer of the three input arrays, whatever those held when the layer started.
-/
import proofs.«124600_j13451837571471_2_alg».proof.Proof.Gen.KernelIdeal.Frame
import proofs.«124600_j13451837571471_2_alg».proof.Proof.Spec
import proofs.«124600_j13451837571471_2_alg».proof.Proof.LibMatT
import Idealize.ShloMosaic.Lib.Pipeline.Value
import Idealize.ShloMosaic.Lib.ValueLayout
import Idealize.ShloMosaic.Lib.ValueIdx

set_option maxRecDepth 16384

noncomputable section

namespace Cert.KDense4

open Idealize.ShloMosaic Idealize.ShloMosaic.TcCoe Idealize.ShloMosaic.ValueIdx Idealize.SL.Sem
open Idealize.ShloMosaic.Pipeline (Dat)
open Cert.KernelIdeal Cert.KernelIdeal.Gen

/-! ## One block's arithmetic -/

/-- Entry (p, q) of what the body computes from a 512×4096 block of x, a 1024×4096 block of w and a 1024-entry block
    of b: the product contracts both operands' second axes, the bias row is repeated down the 512 rows, the
    rectifier is the maximum with zero, and the final change of float format is the identity on extended reals. -/
theorem payload_apply (x0 : Vec Ideal S512x4096 .bf16) (x1 : Vec Ideal S1024x4096 .bf16) (x2 : Vec Ideal S1024 .f32)
    (p : Fin 512) (q : Fin 1024) :
    k4_pay1 x0 x1 x2 (ix2 p q) = max ((∑ k : Fin 4096, x0 (ix2 p k) * x1 (ix2 q k)) + x2 (ix1 q)) 0 := by
  unfold k4_pay1
  rw [shapeCast_self, shapeCast_self, truncf_apply, maximumf_apply, addf_apply, broadcast_apply]
  rw [broadcastTo_1b_ab_apply, shapeCast_a_1a_apply, Ideal.ofBits_def, Ideal.ofBits_zero_f32]
  have hm : (matmul (φ₁ := .bf16) (φ₂ := .bf16) dot_S512x4096_S1024x4096_S512x1024_1_1_0_0_n_n none x0 x1 (constant S512x1024 FTy.f32 0#32) : FVec Ideal S512x1024 .f32) (ix2 p q)
        = ∑ k : Fin 4096, x0 (ix2 p k) * x1 (ix2 q k) := LibMatT.transposedRhs_matmul_apply (φ₁ := .bf16) (φ₂ := .bf16) none x0 x1 p q
  rw [hm]

/-- If the three blocks are the rows r·512 …, the rows s·1024 … and the entries s·1024 … of whole arrays A0, A1, A2,
    then entry j of what the body computes is entry (r·512 + j₀, s·1024 + j₁) of the dense layer of A0, A1, A2. -/
theorem block_dense (x0 : Vec Ideal S512x4096 .bf16) (x1 : Vec Ideal S1024x4096 .bf16) (x2 : Vec Ideal S1024 .f32)
    (A0 : Spec.Mat 8192 4096) (A1 : Spec.Mat 4096 4096) (A2 : Spec.Row 4096) (r s : ℕ)
    (h0 : ∀ (y : S512x4096.Idx) (i : S8192x4096.Idx), (i 0).val = r * 512 + (y 0).val → (i 1).val = (y 1).val → x0 y = A0 i)
    (h1 : ∀ (y : S1024x4096.Idx) (i : S4096x4096.Idx), (i 0).val = s * 1024 + (y 0).val → (i 1).val = (y 1).val → x1 y = A1 i)
    (h2 : ∀ (y : S1024.Idx) (i : S4096.Idx), (i 0).val = s * 1024 + (y 0).val → x2 y = A2 i)
    (j : S512x1024.Idx) (i : S8192x4096.Idx) (hi0 : (i 0).val = r * 512 + (j 0).val) (hi1 : (i 1).val = s * 1024 + (j 1).val) :
    k4_pay1 x0 x1 x2 j = Spec.dense A0 A1 A2 i := by
  obtain ⟨p, q, rfl⟩ : ∃ (p : Fin 512) (q : Fin 1024), j = ix2 p q := ⟨j 0, j 1, eq_ix2 j⟩
  obtain ⟨P, Q, rfl⟩ : ∃ (P : Fin 8192) (Q : Fin 4096), i = ix2 P Q := ⟨i 0, i 1, eq_ix2 i⟩
  rw [payload_apply, Spec.dense_apply, h2 (ix1 q) (ix1 Q) hi1]
  congr 2
  exact Finset.sum_congr rfl fun k _ => by rw [h0 (ix2 p k) (ix2 P k) hi0 rfl, h1 (ix2 q k) (ix2 Q k) hi1 rfl]

/-! ## Which rows and columns each block is -/

variable (V : (c : Dev nD) → (b : Ref sig .tc) → Buf (Elt Ideal) ((c : Thread nD τ).loc b))

theorem zero_offsets2 : (![0, 0] : Fin 2 → Nat) = fun _ => 0 := funext fun a => by fin_cases a <;> rfl
theorem zero_offsets1 : (![0] : Fin 1 → Nat) = fun _ => 0 := funext fun a => by fin_cases a <;> rfl

/-- At every one of the 64 steps: the block of x is the output block's block-row and spans all columns; the blocks of w
    and of b are the output block's block-column (w spanning all its columns); block-rows run to 15 and block-columns
    to 3. -/
theorem block_indices : ∀ t : Fin cfg4.N, win4_0.index t (0 : Fin 2) = win4_3.index t (0 : Fin 2)
    ∧ win4_0.index t (1 : Fin 2) = 0
    ∧ win4_1.index t (0 : Fin 2) = win4_3.index t (1 : Fin 2)
    ∧ win4_1.index t (1 : Fin 2) = 0
    ∧ win4_2.index t (0 : Fin 1) = win4_3.index t (1 : Fin 2)
    ∧ win4_3.index t (0 : Fin 2) ≤ 15 ∧ win4_3.index t (1 : Fin 2) ≤ 3 :=
  (by decide +kernel : ∀ t : Fin grid4.N, _)

/-- Every pair (block-row, block-column) is the output block of some step. -/
theorem every_block_written : ∀ (q0 : Fin 16) (q1 : Fin 4), ∃ t : Fin cfg4.N, win4_3.index t = ![q0.val, q1.val] :=
  (by decide +kernel : ∀ (q0 : Fin 16) (q1 : Fin 4), ∃ t : Fin grid4.N, win4_3.index t = ![q0.val, q1.val])

/-- The block of x at step t, whose block index there is (i₀, i₁): entry y is x at (i₀ · 512 + y₀, i₁ · 4096 + y₁). -/
theorem x_block_apply (c : Dev nD) (t : Fin cfg4.N) (y : S512x4096.Idx) (i : S8192x4096.Idx)
    (h0 : (i 0).val = win4_0.index t (0 : Fin 2) * 512 + (y 0).val) (h1 : (i 1).val = win4_0.index t (1 : Fin 2) * 4096 + (y 1).val) :
    (iblk4 V c 0 t : Vec Ideal S512x4096 .bf16) y = (V c (Pipeline.arrRef spec4 0) : S8192x4096.Idx → EReal) i := by
  unfold iblk4
  rw [View.read_apply]
  refine congrArg (V c (Pipeline.arrRef spec4 0) : S8192x4096.Idx → EReal) ?_
  funext a; apply Fin.ext
  match a with
  | ⟨0, _⟩ => show win4_0.index t (0 : Fin 2) * 512 + 1 * (y 0).val = (i 0).val; omega
  | ⟨1, _⟩ => show win4_0.index t (1 : Fin 2) * 4096 + 1 * (y 1).val = (i 1).val; omega

/-- The block of w at step t, whose block index there is (i₀, i₁): entry y is w at (i₀ · 1024 + y₀, i₁ · 4096 + y₁). -/
theorem w_block_apply (c : Dev nD) (t : Fin cfg4.N) (y : S1024x4096.Idx) (i : S4096x4096.Idx)
    (h0 : (i 0).val = win4_1.index t (0 : Fin 2) * 1024 + (y 0).val) (h1 : (i 1).val = win4_1.index t (1 : Fin 2) * 4096 + (y 1).val) :
    (iblk4 V c 1 t : Vec Ideal S1024x4096 .bf16) y = (V c (Pipeline.arrRef spec4 1) : S4096x4096.Idx → EReal) i := by
  unfold iblk4
  rw [View.read_apply]
  refine congrArg (V c (Pipeline.arrRef spec4 1) : S4096x4096.Idx → EReal) ?_
  funext a; apply Fin.ext
  match a with
  | ⟨0, _⟩ => show win4_1.index t (0 : Fin 2) * 1024 + 1 * (y 0).val = (i 0).val; omega
  | ⟨1, _⟩ => show win4_1.index t (1 : Fin 2) * 4096 + 1 * (y 1).val = (i 1).val; omega

/-- The block of b at step t, whose block index there is i₀: entry y is b at i₀ · 1024 + y₀. -/
theorem b_block_apply (c : Dev nD) (t : Fin cfg4.N) (y : S1024.Idx) (i : S4096.Idx)
    (h0 : (i 0).val = win4_2.index t (0 : Fin 1) * 1024 + (y 0).val) :
    (iblk4 V c 2 t : Vec Ideal S1024 .f32) y = (V c (Pipeline.arrRef spec4 2) : S4096.Idx → EReal) i := by
  unfold iblk4
  rw [View.read_apply]
  refine congrArg (V c (Pipeline.arrRef spec4 2) : S4096.Idx → EReal) ?_
  funext a; apply Fin.ext
  match a with
  | ⟨0, _⟩ => show win4_2.index t (0 : Fin 1) * 1024 + 1 * (y 0).val = (i 0).val; omega

/-! ## From the blocks to the whole array -/

/-- The dense layer of the three input arrays as the layer finds them. -/
abbrev layer (c : Dev nD) : S8192x4096.Idx → EReal :=
  Spec.dense (M := 8192) (K := 4096) (N := 4096) (V c (Pipeline.arrRef spec4 0)) (V c (Pipeline.arrRef spec4 1)) (V c (Pipeline.arrRef spec4 2))

/-- What step t writes to the output array is its own block of the dense layer of the whole input arrays. -/
theorem written_block_eq (c : Dev nD) (t : Fin cfg4.N) :
    (dat4 V c).flushed 3 t = ((cfg4.win 3).blk t).view.read (Elt Ideal) (layer V c) := by
  show (cfg4.win 3).cut (grid4.coords t) ((dat4 V c).after 3 t) = _
  rw [after4_3]
  unfold out4_3
  rw [View.canon_unit_zero zero_offsets2]
  simp only [View.ld_unit_zero (S := S512x4096) zero_offsets2, View.ld_unit_zero (S := S1024x4096) zero_offsets2, View.ld_unit_zero (S := S1024) zero_offsets1]
  obtain ⟨e0, e1, e2, e3, e4, -, -⟩ := block_indices t
  funext j
  show k4_pay1 (iblk4 V c 0 t) (iblk4 V c 1 t) (iblk4 V c 2 t) j = layer V c (((cfg4.win 3).blk t).view.emb j)
  refine block_dense (iblk4 V c 0 t) (iblk4 V c 1 t) (iblk4 V c 2 t) _ _ _ (win4_3.index t (0 : Fin 2)) (win4_3.index t (1 : Fin 2))
    (fun y i h0 h1 => x_block_apply V c t y i (by omega) (by omega))
    (fun y i h0 h1 => w_block_apply V c t y i (by omega) (by omega))
    (fun y i h0 => b_block_apply V c t y i (by omega)) j _ ?_ ?_
  · show win4_3.index t (0 : Fin 2) * 512 + 1 * (j 0).val = _; omega
  · show win4_3.index t (1 : Fin 2) * 1024 + 1 * (j 1).val = _; omega

/-- An entry of the output array is in step t's block exactly when each coordinate is in the block's range. -/
theorem mem_out_block (t : Fin cfg4.N) (i : S8192x4096.Idx) :
    i ∈ ((cfg4.win 3).blk t).view.set ↔ ∀ a : Fin 2, win4_3.index t a * S512x1024.size a ≤ (i a).val ∧ (i a).val < win4_3.index t a * S512x1024.size a + S512x1024.size a := by
  show i ∈ ((View.whole main_v22).slice (win4_3.rect t)).set ↔ _
  rw [View.set_slice_whole, Rect.mem_set_unit]
  exact Iff.rfl

/-- Every entry (P, Q) of the output array is in the block (P / 512, Q / 1024), which some step writes. -/
theorem out_blocks_cover (i : S8192x4096.Idx) : ∃ t : Fin cfg4.N, (cfg4.win 3).flush t = true ∧ i ∈ ((cfg4.win 3).blk t).view.set := by
  have hi0 : (i 0).val < 8192 := (i 0).isLt
  have hi1 : (i 1).val < 4096 := (i 1).isLt
  obtain ⟨t, ht⟩ := every_block_written ⟨(i 0).val / 512, by omega⟩ ⟨(i 1).val / 1024, by omega⟩
  have q0 : win4_3.index t (0 : Fin 2) = (i 0).val / 512 := congrFun ht 0
  have q1 : win4_3.index t (1 : Fin 2) = (i 1).val / 1024 := congrFun ht 1
  refine ⟨t, flush4_3 t, ?_⟩
  rw [mem_out_block]
  intro a
  match a with
  | ⟨0, _⟩ => show win4_3.index t (0 : Fin 2) * 512 ≤ (i 0).val ∧ (i 0).val < win4_3.index t (0 : Fin 2) * 512 + 512; omega
  | ⟨1, _⟩ => show win4_3.index t (1 : Fin 2) * 1024 ≤ (i 1).val ∧ (i 1).val < win4_3.index t (1 : Fin 2) * 1024 + 1024; omega

/-- After all 64 steps the output array is the dense layer of the three input arrays as the layer found them. -/
theorem reg4_val (c : Dev nD) : (dat4 (F := Ideal) V c).arrAt 3 cfg4.N
    = Spec.dense (V c (Pipeline.arrRef spec4 0)) (V c (Pipeline.arrRef spec4 1)) (V c (Pipeline.arrRef spec4 2)) :=
  (dat4 V c).arrAt_eq_of_cover 3 (layer V c) (fun t _ => written_block_eq V c t) (out_blocks_cover)

end Cert.KDense4

end
-- ==== Proof.KDense5.lean ====
/-
  One dense layer of the network, as the kernel computes it: y = max (x · wᵀ + b, 0).

  The layer's output is an 8192×4096 array, written in 16 × 4 blocks of 512×1024.  The block at block-row r and
  block-column s is computed from rows 512·r … 512·r + 511 of x (all 4096 columns), rows 1024·s … 1024·s + 1023 of w
  (all 4096 columns) and entries 1024·s … 1024·s + 1023 of b: entry (p, q) of the block is

      max (∑ₖ x (512·r + p, k) · w (1024·s + q, k) + b (1024·s + q), 0),

  which is entry (512·r + p, 1024·s + q) of the dense layer of the whole arrays.  Every entry of the output lies in
  exactly the block (row / 512, column / 1024), so after all 64 blocks have been written the output array is the
  dense layer of the three input arrays, whatever those held when the layer started.
-/
import proofs.«124600_j13451837571471_2_alg».proof.Proof.Gen.KernelIdeal.Frame
import proofs.«124600_j13451837571471_2_alg».proof.Proof.Spec
import proofs.«124600_j13451837571471_2_alg».proof.Proof.LibMatT
import Idealize.ShloMosaic.Lib.Pipeline.Value
import Idealize.ShloMosaic.Lib.ValueLayout
import Idealize.ShloMosaic.Lib.ValueIdx

set_option maxRecDepth 16384

noncomputable section

namespace Cert.KDense5

open Idealize.ShloMosaic Idealize.ShloMosaic.TcCoe Idealize.ShloMosaic.ValueIdx Idealize.SL.Sem
open Idealize.ShloMosaic.Pipeline (Dat)
open Cert.KernelIdeal Cert.KernelIdeal.Gen

/-! ## One block's arithmetic -/

/-- Entry (p, q) of what the body computes from a 512×4096 block of x, a 1024×4096 block of w and a 1024-entry block
    of b: the product contracts both operands' second axes, the bias row is repeated down the 512 rows, the
    rectifier is the maximum with zero, and the final change of float format is the identity on extended reals. -/
theorem payload_apply (x0 : Vec Ideal S512x4096 .bf16) (x1 : Vec Ideal S1024x4096 .bf16) (x2 : Vec Ideal S1024 .f32)
    (p : Fin 512) (q : Fin 1024) :
    k5_pay1 x0 x1 x2 (ix2 p q) = max ((∑ k : Fin 4096, x0 (ix2 p k) * x1 (ix2 q k)) + x2 (ix1 q)) 0 := by
  unfold k5_pay1
  rw [shapeCast_self, shapeCast_self, truncf_apply, maximumf_apply, addf_apply, broadcast_apply]
  rw [broadcastTo_1b_ab_apply, shapeCast_a_1a_apply, Ideal.ofBits_def, Ideal.ofBits_zero_f32]
  have hm : (matmul (φ₁ := .bf16) (φ₂ := .bf16) dot_S512x4096_S1024x4096_S512x1024_1_1_0_0_n_n none x0 x1 (constant S512x1024 FTy.f32 0#32) : FVec Ideal S512x1024 .f32) (ix2 p q)
        = ∑ k : Fin 4096, x0 (ix2 p k) * x1 (ix2 q k) := LibMatT.transposedRhs_matmul_apply (φ₁ := .bf16) (φ₂ := .bf16) none x0 x1 p q
  rw [hm]

/-- If the three blocks are the rows r·512 …, the rows s·1024 … and the entries s·1024 … of whole arrays A0, A1, A2,
    then entry j of what the body computes is entry (r·512 + j₀, s·1024 + j₁) of the dense layer of A0, A1, A2. -/
theorem block_dense (x0 : Vec Ideal S512x4096 .bf16) (x1 : Vec Ideal S1024x4096 .bf16) (x2 : Vec Ideal S1024 .f32)
    (A0 : Spec.Mat 8192 4096) (A1 : Spec.Mat 4096 4096) (A2 : Spec.Row 4096) (r s : ℕ)
    (h0 : ∀ (y : S512x4096.Idx) (i : S8192x4096.Idx), (i 0).val = r * 512 + (y 0).val → (i 1).val = (y 1).val → x0 y = A0 i)
    (h1 : ∀ (y : S1024x4096.Idx) (i : S4096x4096.Idx), (i 0).val = s * 1024 + (y 0).val → (i 1).val = (y 1).val → x1 y = A1 i)
    (h2 : ∀ (y : S1024.Idx) (i : S4096.Idx), (i 0).val = s * 1024 + (y 0).val → x2 y = A2 i)
    (j : S512x1024.Idx) (i : S8192x4096.Idx) (hi0 : (i 0).val = r * 512 + (j 0).val) (hi1 : (i 1).val = s * 1024 + (j 1).val) :
    k5_pay1 x0 x1 x2 j = Spec.dense A0 A1 A2 i := by
  obtain ⟨p, q, rfl⟩ : ∃ (p : Fin 512) (q : Fin 1024), j = ix2 p q := ⟨j 0, j 1, eq_ix2 j⟩
  obtain ⟨P, Q, rfl⟩ : ∃ (P : Fin 8192) (Q : Fin 4096), i = ix2 P Q := ⟨i 0, i 1, eq_ix2 i⟩
  rw [payload_apply, Spec.dense_apply, h2 (ix1 q) (ix1 Q) hi1]
  congr 2
  exact Finset.sum_congr rfl fun k _ => by rw [h0 (ix2 p k) (ix2 P k) hi0 rfl, h1 (ix2 q k) (ix2 Q k) hi1 rfl]

/-! ## Which rows and columns each block is -/

variable (V : (c : Dev nD) → (b : Ref sig .tc) → Buf (Elt Ideal) ((c : Thread nD τ).loc b))

theorem zero_offsets2 : (![0, 0] : Fin 2 → Nat) = fun _ => 0 := funext fun a => by fin_cases a <;> rfl
theorem zero_offsets1 : (![0] : Fin 1 → Nat) = fun _ => 0 := funext fun a => by fin_cases a <;> rfl

/-- At every one of the 64 steps: the block of x is the output block's block-row and spans all columns; the blocks of w
    and of b are the output block's block-column (w spanning all its columns); block-rows run to 15 and block-columns
    to 3. -/
theorem block_indices : ∀ t : Fin cfg5.N, win5_0.index t (0 : Fin 2) = win5_3.index t (0 : Fin 2)
    ∧ win5_0.index t (1 : Fin 2) = 0
    ∧ win5_1.index t (0 : Fin 2) = win5_3.index t (1 : Fin 2)
    ∧ win5_1.index t (1 : Fin 2) = 0
    ∧ win5_2.index t (0 : Fin 1) = win5_3.index t (1 : Fin 2)
    ∧ win5_3.index t (0 : Fin 2) ≤ 15 ∧ win5_3.index t (1 : Fin 2) ≤ 3 :=
  (by decide +kernel : ∀ t : Fin grid5.N, _)

/-- Every pair (block-row, block-column) is the output block of some step. -/
theorem every_block_written : ∀ (q0 : Fin 16) (q1 : Fin 4), ∃ t : Fin cfg5.N, win5_3.index t = ![q0.val, q1.val] :=
  (by decide +kernel : ∀ (q0 : Fin 16) (q1 : Fin 4), ∃ t : Fin grid5.N, win5_3.index t = ![q0.val, q1.val])

/-- The block of x at step t, whose block index there is (i₀, i₁): entry y is x at (i₀ · 512 + y₀, i₁ · 4096 + y₁). -/
theorem x_block_apply (c : Dev nD) (t : Fin cfg5.N) (y : S512x4096.Idx) (i : S8192x4096.Idx)
    (h0 : (i 0).val = win5_0.index t (0 : Fin 2) * 512 + (y 0).val) (h1 : (i 1).val = win5_0.index t (1 : Fin 2) * 4096 + (y 1).val) :
    (iblk5 V c 0 t : Vec Ideal S512x4096 .bf16) y = (V c (Pipeline.arrRef spec5 0) : S8192x4096.Idx → EReal) i := by
  unfold iblk5
  rw [View.read_apply]
  refine congrArg (V c (Pipeline.arrRef spec5 0) : S8192x4096.Idx → EReal) ?_
  funext a; apply Fin.ext
  match a with
  | ⟨0, _⟩ => show win5_0.index t (0 : Fin 2) * 512 + 1 * (y 0).val = (i 0).val; omega
  | ⟨1, _⟩ => show win5_0.index t (1 : Fin 2) * 4096 + 1 * (y 1).val = (i 1).val; omega

/-- The block of w at step t, whose block index there is (i₀, i₁): entry y is w at (i₀ · 1024 + y₀, i₁ · 4096 + y₁). -/
theorem w_block_apply (c : Dev nD) (t : Fin cfg5.N) (y : S1024x4096.Idx) (i : S4096x4096.Idx)
    (h0 : (i 0).val = win5_1.index t (0 : Fin 2) * 1024 + (y 0).val) (h1 : (i 1).val = win5_1.index t (1 : Fin 2) * 4096 + (y 1).val) :
    (iblk5 V c 1 t : Vec Ideal S1024x4096 .bf16) y = (V c (Pipeline.arrRef spec5 1) : S4096x4096.Idx → EReal) i := by
  unfold iblk5
  rw [View.read_apply]
  refine congrArg (V c (Pipeline.arrRef spec5 1) : S4096x4096.Idx → EReal) ?_
  funext a; apply Fin.ext
  match a with
  | ⟨0, _⟩ => show win5_1.index t (0 : Fin 2) * 1024 + 1 * (y 0).val = (i 0).val; omega
  | ⟨1, _⟩ => show win5_1.index t (1 : Fin 2) * 4096 + 1 * (y 1).val = (i 1).val; omega

/-- The block of b at step t, whose block index there is i₀: entry y is b at i₀ · 1024 + y₀. -/
theorem b_block_apply (c : Dev nD) (t : Fin cfg5.N) (y : S1024.Idx) (i : S4096.Idx)
    (h0 : (i 0).val = win5_2.index t (0 : Fin 1) * 1024 + (y 0).val) :
    (iblk5 V c 2 t : Vec Ideal S1024 .f32) y = (V c (Pipeline.arrRef spec5 2) : S4096.Idx → EReal) i := by
  unfold iblk5
  rw [View.read_apply]
  refine congrArg (V c (Pipeline.arrRef spec5 2) : S4096.Idx → EReal) ?_
  funext a; apply Fin.ext
  match a with
  | ⟨0, _⟩ => show win5_2.index t (0 : Fin 1) * 1024 + 1 * (y 0).val = (i 0).val; omega

/-! ## From the blocks to the whole array -/

/-- The dense layer of the three input arrays as the layer finds them. -/
abbrev layer (c : Dev nD) : S8192x4096.Idx → EReal :=
  Spec.dense (M := 8192) (K := 4096) (N := 4096) (V c (Pipeline.arrRef spec5 0)) (V c (Pipeline.arrRef spec5 1)) (V c (Pipeline.arrRef spec5 2))

/-- What step t writes to the output array is its own block of the dense layer of the whole input arrays. -/
theorem written_block_eq (c : Dev nD) (t : Fin cfg5.N) :
    (dat5 V c).flushed 3 t = ((cfg5.win 3).blk t).view.read (Elt Ideal) (layer V c) := by
  show (cfg5.win 3).cut (grid5.coords t) ((dat5 V c).after 3 t) = _
  rw [after5_3]
  unfold out5_3
  rw [View.canon_unit_zero zero_offsets2]
  simp only [View.ld_unit_zero (S := S512x4096) zero_offsets2, View.ld_unit_zero (S := S1024x4096) zero_offsets2, View.ld_unit_zero (S := S1024) zero_offsets1]
  obtain ⟨e0, e1, e2, e3, e4, -, -⟩ := block_indices t
  funext j
  show k5_pay1 (iblk5 V c 0 t) (iblk5 V c 1 t) (iblk5 V c 2 t) j = layer V c (((cfg5.win 3).blk t).view.emb j)
  refine block_dense (iblk5 V c 0 t) (iblk5 V c 1 t) (iblk5 V c 2 t) _ _ _ (win5_3.index t (0 : Fin 2)) (win5_3.index t (1 : Fin 2))
    (fun y i h0 h1 => x_block_apply V c t y i (by omega) (by omega))
    (fun y i h0 h1 => w_block_apply V c t y i (by omega) (by omega))
    (fun y i h0 => b_block_apply V c t y i (by omega)) j _ ?_ ?_
  · show win5_3.index t (0 : Fin 2) * 512 + 1 * (j 0).val = _; omega
  · show win5_3.index t (1 : Fin 2) * 1024 + 1 * (j 1).val = _; omega

/-- An entry of the output array is in step t's block exactly when each coordinate is in the block's range. -/
theorem mem_out_block (t : Fin cfg5.N) (i : S8192x4096.Idx) :
    i ∈ ((cfg5.win 3).blk t).view.set ↔ ∀ a : Fin 2, win5_3.index t a * S512x1024.size a ≤ (i a).val ∧ (i a).val < win5_3.index t a * S512x1024.size a + S512x1024.size a := by
  show i ∈ ((View.whole main_v24).slice (win5_3.rect t)).set ↔ _
  rw [View.set_slice_whole, Rect.mem_set_unit]
  exact Iff.rfl

/-- Every entry (P, Q) of the output array is in the block (P / 512, Q / 1024), which some step writes. -/
theorem out_blocks_cover (i : S8192x4096.Idx) : ∃ t : Fin cfg5.N, (cfg5.win 3).flush t = true ∧ i ∈ ((cfg5.win 3).blk t).view.set := by
  have hi0 : (i 0).val < 8192 := (i 0).isLt
  have hi1 : (i 1).val < 4096 := (i 1).isLt
  obtain ⟨t, ht⟩ := every_block_written ⟨(i 0).val / 512, by omega⟩ ⟨(i 1).val / 1024, by omega⟩
  have q0 : win5_3.index t (0 : Fin 2) = (i 0).val / 512 := congrFun ht 0
  have q1 : win5_3.index t (1 : Fin 2) = (i 1).val / 1024 := congrFun ht 1
  refine ⟨t, flush5_3 t, ?_⟩
  rw [mem_out_block]
  intro a
  match a with
  | ⟨0, _⟩ => show win5_3.index t (0 : Fin 2) * 512 ≤ (i 0).val ∧ (i 0).val < win5_3.index t (0 : Fin 2) * 512 + 512; omega
  | ⟨1, _⟩ => show win5_3.index t (1 : Fin 2) * 1024 ≤ (i 1).val ∧ (i 1).val < win5_3.index t (1 : Fin 2) * 1024 + 1024; omega

/-- After all 64 steps the output array is the dense layer of the three input arrays as the layer found them. -/
theorem reg5_val (c : Dev nD) : (dat5 (F := Ideal) V c).arrAt 3 cfg5.N
    = Spec.dense (V c (Pipeline.arrRef spec5 0)) (V c (Pipeline.arrRef spec5 1)) (V c (Pipeline.arrRef spec5 2)) :=
  (dat5 V c).arrAt_eq_of_cover 3 (layer V c) (fun t _ => written_block_eq V c t) (out_blocks_cover)

end Cert.KDense5

end
-- ==== Proof.KDense6.lean ====
/-
  One dense layer of the network, as the kernel computes it: y = max (x · wᵀ + b, 0).

  The layer's output is an 8192×4096 array, written in 16 × 4 blocks of 512×1024.  The block at block-row r and
  block-column s is computed from rows 512·r … 512·r + 511 of x (all 4096 columns), rows 1024·s … 1024·s + 1023 of w
  (all 4096 columns) and entries 1024·s … 1024·s + 1023 of b: entry (p, q) of the block is

      max (∑ₖ x (512·r + p, k) · w (1024·s + q, k) + b (1024·s + q), 0),

  which is entry (512·r + p, 1024·s + q) of the dense layer of the whole arrays.  Every entry of the output lies in
  exactly the block (row / 512, column / 1024), so after all 64 blocks have been written the output array is the
  dense layer of the three input arrays, whatever those held when the layer started.
-/
import proofs.«124600_j13451837571471_2_alg».proof.Proof.Gen.KernelIdeal.Frame
import proofs.«124600_j13451837571471_2_alg».proof.Proof.Spec
import proofs.«124600_j13451837571471_2_alg».proof.Proof.LibMatT
import Idealize.ShloMosaic.Lib.Pipeline.Value
import Idealize.ShloMosaic.Lib.ValueLayout
import Idealize.ShloMosaic.Lib.ValueIdx

set_option maxRecDepth 16384

noncomputable section

namespace Cert.KDense6

open Idealize.ShloMosaic Idealize.ShloMosaic.TcCoe Idealize.ShloMosaic.ValueIdx Idealize.SL.Sem
open Idealize.ShloMosaic.Pipeline (Dat)
open Cert.KernelIdeal Cert.KernelIdeal.Gen

/-! ## One block's arithmetic -/

/-- Entry (p, q) of what the body computes from a 512×4096 block of x, a 1024×4096 block of w and a 1024-entry block
    of b: the product contracts both operands' second axes, the bias row is repeated down the 512 rows, the
    rectifier is the maximum with zero, and the final change of float format is the identity on extended reals. -/
theorem payload_apply (x0 : Vec Ideal S512x4096 .bf16) (x1 : Vec Ideal S1024x4096 .bf16) (x2 : Vec Ideal S1024 .f32)
    (p : Fin 512) (q : Fin 1024) :
    k6_pay1 x0 x1 x2 (ix2 p q) = max ((∑ k : Fin 4096, x0 (ix2 p k) * x1 (ix2 q k)) + x2 (ix1 q)) 0 := by
  unfold k6_pay1
  rw [shapeCast_self, shapeCast_self, truncf_apply, maximumf_apply, addf_apply, broadcast_apply]
  rw [broadcastTo_1b_ab_apply, shapeCast_a_1a_apply, Ideal.ofBits_def, Ideal.ofBits_zero_f32]
  have hm : (matmul (φ₁ := .bf16) (φ₂ := .bf16) dot_S512x4096_S1024x4096_S512x1024_1_1_0_0_n_n none x0 x1 (constant S512x1024 FTy.f32 0#32) : FVec Ideal S512x1024 .f32) (ix2 p q)
        = ∑ k : Fin 4096, x0 (ix2 p k) * x1 (ix2 q k) := LibMatT.transposedRhs_matmul_apply (φ₁ := .bf16) (φ₂ := .bf16) none x0 x1 p q
  rw [hm]

/-- If the three blocks are the rows r·512 …, the rows s·1024 … and the entries s·1024 … of whole arrays A0, A1, A2,
    then entry j of what the body computes is entry (r·512 + j₀, s·1024 + j₁) of the dense layer of A0, A1, A2. -/
theorem block_dense (x0 : Vec Ideal S512x4096 .bf16) (x1 : Vec Ideal S1024x4096 .bf16) (x2 : Vec Ideal S1024 .f32)
    (A0 : Spec.Mat 8192 4096) (A1 : Spec.Mat 4096 4096) (A2 : Spec.Row 4096) (r s : ℕ)
    (h0 : ∀ (y : S512x4096.Idx) (i : S8192x4096.Idx), (i 0).val = r * 512 + (y 0).val → (i 1).val = (y 1).val → x0 y = A0 i)
    (h1 : ∀ (y : S1024x4096.Idx) (i : S4096x4096.Idx), (i 0).val = s * 1024 + (y 0).val → (i 1).val = (y 1).val → x1 y = A1 i)
    (h2 : ∀ (y : S1024.Idx) (i : S4096.Idx), (i 0).val = s * 1024 + (y 0).val → x2 y = A2 i)
    (j : S512x1024.Idx) (i : S8192x4096.Idx) (hi0 : (i 0).val = r * 512 + (j 0).val) (hi1 : (i 1).val = s * 1024 + (j 1).val) :
    k6_pay1 x0 x1 x2 j = Spec.dense A0 A1 A2 i := by
  obtain ⟨p, q, rfl⟩ : ∃ (p : Fin 512) (q : Fin 1024), j = ix2 p q := ⟨j 0, j 1, eq_ix2 j⟩
  obtain ⟨P, Q, rfl⟩ : ∃ (P : Fin 8192) (Q : Fin 4096), i = ix2 P Q := ⟨i 0, i 1, eq_ix2 i⟩
  rw [payload_apply, Spec.dense_apply, h2 (ix1 q) (ix1 Q) hi1]
  congr 2
  exact Finset.sum_congr rfl fun k _ => by rw [h0 (ix2 p k) (ix2 P k) hi0 rfl, h1 (ix2 q k) (ix2 Q k) hi1 rfl]

/-! ## Which rows and columns each block is -/

variable (V : (c : Dev nD) → (b : Ref sig .tc) → Buf (Elt Ideal) ((c : Thread nD τ).loc b))

theorem zero_offsets2 : (![0, 0] : Fin 2 → Nat) = fun _ => 0 := funext fun a => by fin_cases a <;> rfl
theorem zero_offsets1 : (![0] : Fin 1 → Nat) = fun _ => 0 := funext fun a => by fin_cases a <;> rfl

/-- At every one of the 64 steps: the block of x is the output block's block-row and spans all columns; the blocks of w
    and of b are the output block's block-column (w spanning all its columns); block-rows run to 15 and block-columns
    to 3. -/
theorem block_indices : ∀ t : Fin cfg6.N, win6_0.index t (0 : Fin 2) = win6_3.index t (0 : Fin 2)
    ∧ win6_0.index t (1 : Fin 2) = 0
    ∧ win6_1.index t (0 : Fin 2) = win6_3.index t (1 : Fin 2)
    ∧ win6_1.index t (1 : Fin 2) = 0
    ∧ win6_2.index t (0 : Fin 1) = win6_3.index t (1 : Fin 2)
    ∧ win6_3.index t (0 : Fin 2) ≤ 15 ∧ win6_3.index t (1 : Fin 2) ≤ 3 :=
  (by decide +kernel : ∀ t : Fin grid6.N, _)

/-- Every pair (block-row, block-column) is the output block of some step. -/
theorem every_block_written : ∀ (q0 : Fin 16) (q1 : Fin 4), ∃ t : Fin cfg6.N, win6_3.index t = ![q0.val, q1.val] :=
  (by decide +kernel : ∀ (q0 : Fin 16) (q1 : Fin 4), ∃ t : Fin grid6.N, win6_3.index t = ![q0.val, q1.val])

/-- The block of x at step t, whose block index there is (i₀, i₁): entry y is x at (i₀ · 512 + y₀, i₁ · 4096 + y₁). -/
theorem x_block_apply (c : Dev nD) (t : Fin cfg6.N) (y : S512x4096.Idx) (i : S8192x4096.Idx)
    (h0 : (i 0).val = win6_0.index t (0 : Fin 2) * 512 + (y 0).val) (h1 : (i 1).val = win6_0.index t (1 : Fin 2) * 4096 + (y 1).val) :
    (iblk6 V c 0 t : Vec Ideal S512x4096 .bf16) y = (V c (Pipeline.arrRef spec6 0) : S8192x4096.Idx → EReal) i := by
  unfold iblk6
  rw [View.read_apply]
  refine congrArg (V c (Pipeline.arrRef spec6 0) : S8192x4096.Idx → EReal) ?_
  funext a; apply Fin.ext
  match a with
  | ⟨0, _⟩ => show win6_0.index t (0 : Fin 2) * 512 + 1 * (y 0).val = (i 0).val; omega
  | ⟨1, _⟩ => show win6_0.index t (1 : Fin 2) * 4096 + 1 * (y 1).val = (i 1).val; omega

/-- The block of w at step t, whose block index there is (i₀, i₁): entry y is w at (i₀ · 1024 + y₀, i₁ · 4096 + y₁). -/
theorem w_block_apply (c : Dev nD) (t : Fin cfg6.N) (y : S1024x4096.Idx) (i : S4096x4096.Idx)
    (h0 : (i 0).val = win6_1.index t (0 : Fin 2) * 1024 + (y 0).val) (h1 : (i 1).val = win6_1.index t (1 : Fin 2) * 4096 + (y 1).val) :
    (iblk6 V c 1 t : Vec Ideal S1024x4096 .bf16) y = (V c (Pipeline.arrRef spec6 1) : S4096x4096.Idx → EReal) i := by
  unfold iblk6
  rw [View.read_apply]
  refine congrArg (V c (Pipeline.arrRef spec6 1) : S4096x4096.Idx → EReal) ?_
  funext a; apply Fin.ext
  match a with
  | ⟨0, _⟩ => show win6_1.index t (0 : Fin 2) * 1024 + 1 * (y 0).val = (i 0).val; omega
  | ⟨1, _⟩ => show win6_1.index t (1 : Fin 2) * 4096 + 1 * (y 1).val = (i 1).val; omega

/-- The block of b at step t, whose block index there is i₀: entry y is b at i₀ · 1024 + y₀. -/
theorem b_block_apply (c : Dev nD) (t : Fin cfg6.N) (y : S1024.Idx) (i : S4096.Idx)
    (h0 : (i 0).val = win6_2.index t (0 : Fin 1) * 1024 + (y 0).val) :
    (iblk6 V c 2 t : Vec Ideal S1024 .f32) y = (V c (Pipeline.arrRef spec6 2) : S4096.Idx → EReal) i := by
  unfold iblk6
  rw [View.read_apply]
  refine congrArg (V c (Pipeline.arrRef spec6 2) : S4096.Idx → EReal) ?_
  funext a; apply Fin.ext
  match a with
  | ⟨0, _⟩ => show win6_2.index t (0 : Fin 1) * 1024 + 1 * (y 0).val = (i 0).val; omega

/-! ## From the blocks to the whole array -/

/-- The dense layer of the three input arrays as the layer finds them. -/
abbrev layer (c : Dev nD) : S8192x4096.Idx → EReal :=
  Spec.dense (M := 8192) (K := 4096) (N := 4096) (V c (Pipeline.arrRef spec6 0)) (V c (Pipeline.arrRef spec6 1)) (V c (Pipeline.arrRef spec6 2))

/-- What step t writes to the output array is its own block of the dense layer of the whole input arrays. -/
theorem written_block_eq (c : Dev nD) (t : Fin cfg6.N) :
    (dat6 V c).flushed 3 t = ((cfg6.win 3).blk t).view.read (Elt Ideal) (layer V c) := by
  show (cfg6.win 3).cut (grid6.coords t) ((dat6 V c).after 3 t) = _
  rw [after6_3]
  unfold out6_3
  rw [View.canon_unit_zero zero_offsets2]
  simp only [View.ld_unit_zero (S := S512x4096) zero_offsets2, View.ld_unit_zero (S := S1024x4096) zero_offsets2, View.ld_unit_zero (S := S1024) zero_offsets1]
  obtain ⟨e0, e1, e2, e3, e4, -, -⟩ := block_indices t
  funext j
  show k6_pay1 (iblk6 V c 0 t) (iblk6 V c 1 t) (iblk6 V c 2 t) j = layer V c (((cfg6.win 3).blk t).view.emb j)
  refine block_dense (iblk6 V c 0 t) (iblk6 V c 1 t) (iblk6 V c 2 t) _ _ _ (win6_3.index t (0 : Fin 2)) (win6_3.index t (1 : Fin 2))
    (fun y i h0 h1 => x_block_apply V c t y i (by omega) (by omega))
    (fun y i h0 h1 => w_block_apply V c t y i (by omega) (by omega))
    (fun y i h0 => b_block_apply V c t y i (by omega)) j _ ?_ ?_
  · show win6_3.index t (0 : Fin 2) * 512 + 1 * (j 0).val = _; omega
  · show win6_3.index t (1 : Fin 2) * 1024 + 1 * (j 1).val = _; omega

/-- An entry of the output array is in step t's block exactly when each coordinate is in the block's range. -/
theorem mem_out_block (t : Fin cfg6.N) (i : S8192x4096.Idx) :
    i ∈ ((cfg6.win 3).blk t).view.set ↔ ∀ a : Fin 2, win6_3.index t a * S512x1024.size a ≤ (i a).val ∧ (i a).val < win6_3.index t a * S512x1024.size a + S512x1024.size a := by
  show i ∈ ((View.whole main_v26).slice (win6_3.rect t)).set ↔ _
  rw [View.set_slice_whole, Rect.mem_set_unit]
  exact Iff.rfl

/-- Every entry (P, Q) of the output array is in the block (P / 512, Q / 1024), which some step writes. -/
theorem out_blocks_cover (i : S8192x4096.Idx) : ∃ t : Fin cfg6.N, (cfg6.win 3).flush t = true ∧ i ∈ ((cfg6.win 3).blk t).view.set := by
  have hi0 : (i 0).val < 8192 := (i 0).isLt
  have hi1 : (i 1).val < 4096 := (i 1).isLt
  obtain ⟨t, ht⟩ := every_block_written ⟨(i 0).val / 512, by omega⟩ ⟨(i 1).val / 1024, by omega⟩
  have q0 : win6_3.index t (0 : Fin 2) = (i 0).val / 512 := congrFun ht 0
  have q1 : win6_3.index t (1 : Fin 2) = (i 1).val / 1024 := congrFun ht 1
  refine ⟨t, flush6_3 t, ?_⟩
  rw [mem_out_block]
  intro a
  match a with
  | ⟨0, _⟩ => show win6_3.index t (0 : Fin 2) * 512 ≤ (i 0).val ∧ (i 0).val < win6_3.index t (0 : Fin 2) * 512 + 512; omega
  | ⟨1, _⟩ => show win6_3.index t (1 : Fin 2) * 1024 ≤ (i 1).val ∧ (i 1).val < win6_3.index t (1 : Fin 2) * 1024 + 1024; omega

/-- After all 64 steps the output array is the dense layer of the three input arrays as the layer found them. -/
theorem reg6_val (c : Dev nD) : (dat6 (F := Ideal) V c).arrAt 3 cfg6.N
    = Spec.dense (V c (Pipeline.arrRef spec6 0)) (V c (Pipeline.arrRef spec6 1)) (V c (Pipeline.arrRef spec6 2)) :=
  (dat6 V c).arrAt_eq_of_cover 3 (layer V c) (fun t _ => written_block_eq V c t) (out_blocks_cover)

end Cert.KDense6

end
-- ==== Proof.KFinal7.lean ====
/-
  The last region: per block of 1024 rows, the row sums of h · wout (the activations times one weight row, summed
  along the row), plus the scalar bias, spread over 295 columns, plus the column bias, through the logistic function.
  For any contents of the arrays at the region's entry, the result array after all eight grid points has at (r, j)
  the value logistic ((∑ₖ h (r, k) · wout (0, k) + bout 0) + b j).

  The steps: the body's stored value at an entry (p, j) of a block is that expression of the four loaded blocks (a
  change of float format is the identity on extended reals, a sum along an axis into the zero word is the plain sum, a
  column spread over the columns and a row spread over the rows read the column and the row); the activations' block at
  point t is rows 1024 t … 1024 t + 1023 and the other three blocks are their whole arrays; so what point t writes back is
  block t of the last layer; the eight blocks cover the result.
-/
import proofs.«124600_j13451837571471_2_alg».proof.Proof.Gen.KernelIdeal.Frame
import proofs.«124600_j13451837571471_2_alg».proof.Proof.Spec
import Idealize.ShloMosaic.Lib.Pipeline.Value
import Idealize.ShloMosaic.Lib.ValueLayout
import Idealize.ShloMosaic.PureOps.Ideal.Laws
import Idealize.ShloMosaic.Lib.Tactic

noncomputable section

namespace Cert.KFinal7

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- A length-a array viewed as an a×1 column reads, at (p, u), the array at p. -/
theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An a×1 column broadcast to a×b reads, at (p, c), the column at p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The vector logistic at an index is the logistic of the element. -/
theorem logistic_apply {s : Shape} {φ : FTy} (v : FVec Ideal s φ) (i : s.Idx) : logistic v i = Ideal.logistic (v i) := rfl

/-- A sum along the second axis of a 1024×4096 array into the zero word, at row p, is the sum of the row. -/
theorem rowsum_apply (src : FVec Ideal S1024x4096 .f32) (h : S1024x4096.Reduces [1] S1024) (hφ : FKind.Formats .f32)
    (hacc : (0x00000000#32 : BitVec 32) = FKind.add.neutral .f32 hφ) (p : Fin 1024) :
    multiReduction .add [1] S1024 src 0x00000000#32 h hφ hacc (ix1 p) = ∑ k : Fin 4096, src (ix2 p k) := by
  refine (Ideal.multiReduction_add_single src 0x00000000#32 h hφ hacc (ix1 p)).trans ?_
  refine Finset.sum_congr rfl fun k _ => congrArg src ?_
  funext a; apply Fin.ext
  match a with
  | ⟨0, _⟩ => rfl
  | ⟨1, _⟩ => rfl

/-- The body's stored value at entry (p, j). -/
theorem pay_apply (x0 : FVec Ideal S1024x4096 .bf16) (x1 : FVec Ideal S1x4096 .f32) (x2 : FVec Ideal S1 .f32) (x3 : FVec Ideal S295 .f32)
    (p : Fin 1024) (j : Fin 295) :
    k7_pay1 (F := Ideal) x0 x1 x2 x3 (ix2 p j)
      = Ideal.logistic (((∑ k : Fin 4096, x0 (ix2 p k) * x1 (ix2 0 k)) + x2 (ix1 0)) + x3 (ix1 j)) := by
  unfold k7_pay1
  simp only [shapeCast_self, logistic_apply, addf_apply, broadcastTo_a1_ab_apply, broadcastTo_1b_ab_apply, shapeCast_a_1a_apply,
    shapeCast_a_a1_apply, broadcast_apply, rowsum_apply, mulf_apply, extf_apply]
  refine congrArg Ideal.logistic (congrArg₂ (· + ·) (congrArg₂ (· + ·) ?_ ?_) rfl)
  · refine (rowsum_apply _ reduces_S1024x4096_S1024 _ _ p).trans ?_
    refine Finset.sum_congr rfl fun k _ => ?_
    rw [mulf_apply, extf_apply, broadcastTo_1b_ab_apply]
  · exact congrArg x2 (funext fun a => by match a with | ⟨0, _⟩ => rfl)

/-- The printed index maps over the grid: the activations' and the result's blocks are the point's row block, the
    weight row and the two biases are one block each. -/
theorem idx_facts : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 1) = 0 ∧ win7_3.index t (0 : Fin 1) = 0
    ∧ win7_4.index t (0 : Fin 2) = t.val ∧ win7_4.index t (1 : Fin 2) = 0 :=
  (by decide +kernel : ∀ t : Fin grid7.N, _)

/-- The activations' block at point t is rows 1024 t … 1024 t + 1023 of their array. -/
theorem iblk_h (c : Dev nD) (t : Fin cfg7.N) (p : Fin 1024) (k : Fin 4096) (hp : t.val * 1024 + p.val < 8192) :
    (iblk7 V c 0 t : Vec Ideal S1024x4096 .bf16) (ix2 p k)
      = (V c (Pipeline.arrRef spec7 0) : S8192x4096.Idx → EReal) (ix2 ⟨t.val * 1024 + p.val, hp⟩ k) := by
  obtain ⟨e0, e1, -⟩ := idx_facts t
  unfold iblk7
  rw [View.read_apply]
  show V c (Pipeline.arrRef spec7 0) _ = V c (Pipeline.arrRef spec7 0) _
  refine congrArg (V c (Pipeline.arrRef spec7 0)) (funext fun a => Fin.ext ?_)
  match a with
  | ⟨0, _⟩ => show win7_0.index t (0 : Fin 2) * 1024 + 1 * p.val = t.val * 1024 + p.val; rw [e0]; omega
  | ⟨1, _⟩ => show win7_0.index t (1 : Fin 2) * 4096 + 1 * k.val = k.val; rw [e1]; omega

/-- The weight row's block is its whole array. -/
theorem iblk_wout (c : Dev nD) (t : Fin cfg7.N) (u : Fin 1) (k : Fin 4096) :
    (iblk7 V c 1 t : Vec Ideal S1x4096 .f32) (ix2 u k)
      = (V c (Pipeline.arrRef spec7 1) : S1x4096.Idx → EReal) (ix2 u k) := by
  obtain ⟨-, -, e2, e3, -⟩ := idx_facts t
  unfold iblk7
  rw [View.read_apply]
  show V c (Pipeline.arrRef spec7 1) _ = V c (Pipeline.arrRef spec7 1) _
  refine congrArg (V c (Pipeline.arrRef spec7 1)) (funext fun a => Fin.ext ?_)
  match a with
  | ⟨0, _⟩ => show win7_1.index t (0 : Fin 2) * 1 + 1 * u.val = u.val; rw [e2]; omega
  | ⟨1, _⟩ => show win7_1.index t (1 : Fin 2) * 4096 + 1 * k.val = k.val; rw [e3]; omega

/-- The scalar bias's block is its whole array. -/
theorem iblk_bout (c : Dev nD) (t : Fin cfg7.N) (u : Fin 1) :
    (iblk7 V c 2 t : Vec Ideal S1 .f32) (ix1 u) = (V c (Pipeline.arrRef spec7 2) : S1.Idx → EReal) (ix1 u) := by
  obtain ⟨-, -, -, -, e4, -⟩ := idx_facts t
  unfold iblk7
  rw [View.read_apply]
  show V c (Pipeline.arrRef spec7 2) _ = V c (Pipeline.arrRef spec7 2) _
  refine congrArg (V c (Pipeline.arrRef spec7 2)) (funext fun a => Fin.ext ?_)
  match a with
  | ⟨0, _⟩ => show win7_2.index t (0 : Fin 1) * 1 + 1 * u.val = u.val; rw [e4]; omega

/-- The column bias's block is its whole array. -/
theorem iblk_b (c : Dev nD) (t : Fin cfg7.N) (j : Fin 295) :
    (iblk7 V c 3 t : Vec Ideal S295 .f32) (ix1 j) = (V c (Pipeline.arrRef spec7 3) : S295.Idx → EReal) (ix1 j) := by
  obtain ⟨-, -, -, -, -, e5, -⟩ := idx_facts t
  unfold iblk7
  rw [View.read_apply]
  show V c (Pipeline.arrRef spec7 3) _ = V c (Pipeline.arrRef spec7 3) _
  refine congrArg (V c (Pipeline.arrRef spec7 3)) (funext fun a => Fin.ext ?_)
  match a with
  | ⟨0, _⟩ => show win7_3.index t (0 : Fin 1) * 295 + 1 * j.val = j.val; rw [e5]; omega

/-- An index of the result array is in point t's block iff each coordinate is in the block's range on its axis. -/
theorem mem_blk (t : Fin cfg7.N) (i : S8192x295.Idx) :
    i ∈ ((cfg7.win 4).blk t).view.set ↔ ∀ a : Fin 2, win7_4.index t a * S1024x295.size a ≤ (i a).val ∧ (i a).val < win7_4.index t a * S1024x295.size a + S1024x295.size a := by
  show i ∈ ((View.whole main_v27).slice (win7_4.rect t)).set ↔ _
  rw [View.set_slice_whole, Rect.mem_set_unit]
  exact Iff.rfl

/-- What point t writes back is block t of the last layer of the region's four input arrays. -/
theorem flushed_eq (c : Dev nD) (t : Fin cfg7.N) :
    (dat7 (F := Ideal) V c).flushed 4 t = ((cfg7.win 4).blk t).view.read (Elt Ideal)
      (Spec.final (V c (Pipeline.arrRef spec7 0)) (V c (Pipeline.arrRef spec7 1)) (V c (Pipeline.arrRef spec7 2)) (V c (Pipeline.arrRef spec7 3))) := by
  show (cfg7.win 4).cut (grid7.coords t) ((dat7 V c).after 4 t) = _
  rw [after7_4]
  unfold out7_4
  rw [View.canon_unit_zero hz2]
  simp only [View.ld_unit_zero (S := S1024x4096) hz2, View.ld_unit_zero (S := S1x4096) hz2, View.ld_unit_zero (S := S1) hz1,
    View.ld_unit_zero (S := S295) hz1]
  funext y
  obtain ⟨p, j, rfl⟩ : ∃ (p : Fin 1024) (j : Fin 295), y = ix2 p j := ⟨y 0, y 1, eq_ix2 y⟩
  have ht : t.val < 8 := Nat.lt_of_lt_of_eq t.isLt N_7
  obtain ⟨-, -, -, -, -, -, e6, e7⟩ := idx_facts t
  have hemb : ((cfg7.win 4).blk t).view.emb (ix2 p j) = (ix2 ⟨t.val * 1024 + p.val, by omega⟩ j : S8192x295.Idx) := by
    funext a; apply Fin.ext
    match a with
    | ⟨0, _⟩ => show win7_4.index t (0 : Fin 2) * 1024 + 1 * p.val = t.val * 1024 + p.val; rw [e6]; omega
    | ⟨1, _⟩ => show win7_4.index t (1 : Fin 2) * 295 + 1 * j.val = j.val; rw [e7]; omega
  show k7_pay1 (iblk7 V c 0 t) (iblk7 V c 1 t) (iblk7 V c 2 t) (iblk7 V c 3 t) (ix2 p j)
    = Spec.final (V c (Pipeline.arrRef spec7 0)) (V c (Pipeline.arrRef spec7 1)) (V c (Pipeline.arrRef spec7 2)) (V c (Pipeline.arrRef spec7 3))
        (((cfg7.win 4).blk t).view.emb (ix2 p j))
  rw [hemb, pay_apply, Spec.final_apply]
  refine congrArg Ideal.logistic (congrArg₂ (· + ·) (congrArg₂ (· + ·) (Finset.sum_congr rfl fun k _ => ?_) (iblk_bout V c t 0)) (iblk_b V c t j))
  rw [iblk_h V c t p k (by omega), iblk_wout V c t 0 k]

/-- Every index of the result array is in the block of the point its row block names. -/
theorem cover (i : S8192x295.Idx) : ∃ t : Fin cfg7.N, (cfg7.win 4).flush t = true ∧ i ∈ ((cfg7.win 4).blk t).view.set := by
  have hi0 : (i 0).val < 8192 := (i 0).isLt
  have hi1 : (i 1).val < 295 := (i 1).isLt
  have hN : grid7.N = 8 := N_7
  have hlt : (i 0).val / 1024 < grid7.N := by rw [hN]; omega
  obtain ⟨-, -, -, -, -, -, e6, e7⟩ := idx_facts ⟨(i 0).val / 1024, hlt⟩
  refine ⟨⟨(i 0).val / 1024, hlt⟩, flush7_4 _, ?_⟩
  rw [mem_blk]
  intro a
  match a with
  | ⟨0, _⟩ =>
    show win7_4.index ⟨(i 0).val / 1024, hlt⟩ (0 : Fin 2) * 1024 ≤ (i 0).val ∧ (i 0).val < win7_4.index ⟨(i 0).val / 1024, hlt⟩ (0 : Fin 2) * 1024 + 1024
    rw [e6]; show (i 0).val / 1024 * 1024 ≤ (i 0).val ∧ (i 0).val < (i 0).val / 1024 * 1024 + 1024; omega
  | ⟨1, _⟩ =>
    show win7_4.index ⟨(i 0).val / 1024, hlt⟩ (1 : Fin 2) * 295 ≤ (i 1).val ∧ (i 1).val < win7_4.index ⟨(i 0).val / 1024, hlt⟩ (1 : Fin 2) * 295 + 295
    rw [e7]; omega

/-- The result array after all eight points is the last layer of the region's four input arrays. -/
theorem reg7_val (c : Dev nD) :
    (dat7 (F := Ideal) V c).arrAt 4 cfg7.N
      = Spec.final (V c (Pipeline.arrRef spec7 0)) (V c (Pipeline.arrRef spec7 1)) (V c (Pipeline.arrRef spec7 2)) (V c (Pipeline.arrRef spec7 3)) :=
  (dat7 (F := Ideal) V c).arrAt_eq_of_cover 4 _ (fun t _ => flushed_eq V c t) cover

end Cert.KFinal7

end
-- ==== Proof.Fold.lean ====
/-
  The kernel's result array as ONE function of the argument arrays.

  The generated frame gives the buffer contents at each of the fourteen segment boundaries of @main as a fold over
  the launch memory.  Read from the last boundary backwards: the result is the final region's function of the fourth
  dense layer's output and three arguments; each dense layer's output is that layer's function of the layer before
  and of its (converted) weights and bias; the first dense layer reads the context array, which is the product of
  vᵀ with the softmax stretch's result; the stretch reads the scores; the scores are qᵀᵀ·kᵀ; and q, k, v are the
  products of the (converted) x with the (converted) weights.  Converts between float formats are the identity on
  extended reals, and no host operation or region writes an argument.
-/
import proofs.«124600_j13451837571471_2_alg».proof.Proof.Gen.KernelIdeal.Frame
import proofs.«124600_j13451837571471_2_alg».proof.Proof.Spec
import proofs.«124600_j13451837571471_2_alg».proof.Proof.KKept
import proofs.«124600_j13451837571471_2_alg».proof.Proof.KProj0
import proofs.«124600_j13451837571471_2_alg».proof.Proof.KScores1
import proofs.«124600_j13451837571471_2_alg».proof.Proof.KCtx2
import proofs.«124600_j13451837571471_2_alg».proof.Proof.KDense3
import proofs.«124600_j13451837571471_2_alg».proof.Proof.KDense4
import proofs.«124600_j13451837571471_2_alg».proof.Proof.KDense5
import proofs.«124600_j13451837571471_2_alg».proof.Proof.KDense6
import proofs.«124600_j13451837571471_2_alg».proof.Proof.KFinal7

set_option maxRecDepth 16384

noncomputable section

open Idealize.ShloMosaic Idealize.ShloMosaic.TcCoe Idealize.SL.Sem

namespace Cert.Fold

open Cert.KernelIdeal Cert.KernelIdeal.Gen

/-- The whole network on extended reals, the softmax stretch a parameter `sm`. -/
def network (sm : Spec.Mat 2048 2048 → Spec.Mat 2048 2048) (x : Spec.Mat 8192 512) (wq wk wv : Spec.Mat 2048 512) (b : Spec.Row 295)
    (w1 : Spec.Mat 4096 2048) (b1 : Spec.Row 4096) (w2 : Spec.Mat 4096 4096) (b2 : Spec.Row 4096)
    (w3 : Spec.Mat 4096 4096) (b3 : Spec.Row 4096) (w4 : Spec.Mat 4096 4096) (b4 : Spec.Row 4096)
    (wout : Spec.Mat 1 4096) (bout : Spec.Row 1) : Spec.Mat 8192 295 :=
  Spec.final (Spec.dense (Spec.dense (Spec.dense (Spec.dense
    (Spec.mulT (Spec.mulT x wv) (sm (Spec.tMul (Spec.mulT x wq) (Spec.mulT x wk)))) w1 b1) w2 b2) w3 b3) w4 b4) wout bout b

variable (m : (ℓ : Loc nD τ sig) → Buf (Elt Ideal) ℓ) (ρ : Dev nD → PrngReg) (c : Dev nD)

/-- The argument arrays as launched, as arrays of extended reals. -/
abbrev a0 : Spec.Mat 8192 512 := m ((c : Thread nD τ).loc main_arg0)
abbrev a1 : Spec.Mat 2048 512 := m ((c : Thread nD τ).loc main_arg1)
abbrev a2 : Spec.Mat 2048 512 := m ((c : Thread nD τ).loc main_arg2)
abbrev a3 : Spec.Mat 2048 512 := m ((c : Thread nD τ).loc main_arg3)
abbrev a4 : Spec.Row 295 := m ((c : Thread nD τ).loc main_arg4)
abbrev a5 : Spec.Mat 4096 2048 := m ((c : Thread nD τ).loc main_arg5)
abbrev a6 : Spec.Row 4096 := m ((c : Thread nD τ).loc main_arg6)
abbrev a7 : Spec.Mat 4096 4096 := m ((c : Thread nD τ).loc main_arg7)
abbrev a8 : Spec.Row 4096 := m ((c : Thread nD τ).loc main_arg8)
abbrev a9 : Spec.Mat 4096 4096 := m ((c : Thread nD τ).loc main_arg9)
abbrev a10 : Spec.Row 4096 := m ((c : Thread nD τ).loc main_arg10)
abbrev a11 : Spec.Mat 4096 4096 := m ((c : Thread nD τ).loc main_arg11)
abbrev a12 : Spec.Row 4096 := m ((c : Thread nD τ).loc main_arg12)
abbrev a13 : Spec.Mat 1 4096 := m ((c : Thread nD τ).loc main_arg13)
abbrev a14 : Spec.Row 1 := m ((c : Thread nD τ).loc main_arg14)

/-- qᵀ, kᵀ, vᵀ at region 0's exit: x · W_Qᵀ, x · W_Kᵀ, x · W_Vᵀ. -/
theorem q_val : (W2 m ρ c (Proc.devRef .tc main_v4_0) : Spec.Mat 8192 2048) = Spec.mulT (a0 m c) (a1 m c) := by
  refine (W2_arr m ρ c 4).trans ((KProj0.reg0_val4 (V1 m ρ) c).trans ?_)
  show Spec.mulT (W1 m ρ c (Proc.devRef .tc main_v0)) (W1 m ρ c (Proc.devRef .tc main_v1)) = _
  rw [KKept.W1_v0, KKept.W1_v1]
theorem k_val : (W2 m ρ c (Proc.devRef .tc main_v4_1) : Spec.Mat 8192 2048) = Spec.mulT (a0 m c) (a2 m c) := by
  refine (W2_arr m ρ c 5).trans ((KProj0.reg0_val5 (V1 m ρ) c).trans ?_)
  show Spec.mulT (W1 m ρ c (Proc.devRef .tc main_v0)) (W1 m ρ c (Proc.devRef .tc main_v2)) = _
  rw [KKept.W1_v0, KKept.W1_v2]
theorem v_val : (W2 m ρ c (Proc.devRef .tc main_v4_2) : Spec.Mat 8192 2048) = Spec.mulT (a0 m c) (a3 m c) := by
  refine (W2_arr m ρ c 6).trans ((KProj0.reg0_val6 (V1 m ρ) c).trans ?_)
  show Spec.mulT (W1 m ρ c (Proc.devRef .tc main_v0)) (W1 m ρ c (Proc.devRef .tc main_v3)) = _
  rw [KKept.W1_v0, KKept.W1_v3]

/-- The scores at region 1's exit. -/
theorem att_val : (W3 m ρ c (Proc.devRef .tc main_v5) : Spec.Mat 2048 2048)
    = Spec.tMul (Spec.mulT (a0 m c) (a1 m c)) (Spec.mulT (a0 m c) (a2 m c)) := by
  refine (W3_arr m ρ c 2).trans ((KScores1.reg1_val (V2 m ρ) c).trans ?_)
  show Spec.tMul (W2 m ρ c (Proc.devRef .tc main_v4_0) : Spec.Mat 8192 2048) (W2 m ρ c (Proc.devRef .tc main_v4_1) : Spec.Mat 8192 2048) = _
  rw [q_val, k_val]

/-- The softmax stretch's result after the second host stretch. -/
theorem w_val : (W4 m ρ c (Proc.devRef .tc main_v17) : Spec.Mat 2048 2048)
    = KKept.softmaxK (Spec.tMul (Spec.mulT (a0 m c) (a1 m c)) (Spec.mulT (a0 m c) (a2 m c))) :=
  (KKept.W4_v17 m ρ c).trans (congrArg KKept.softmaxK (att_val m ρ c))

/-- The context array at region 2's exit. -/
theorem ctx_val : (W5 m ρ c (Proc.devRef .tc main_v18) : Spec.Mat 8192 2048)
    = Spec.mulT (Spec.mulT (a0 m c) (a3 m c)) (KKept.softmaxK (Spec.tMul (Spec.mulT (a0 m c) (a1 m c)) (Spec.mulT (a0 m c) (a2 m c)))) := by
  refine (W5_arr m ρ c 2).trans ((KCtx2.reg2_val (V4 m ρ) c).trans ?_)
  show Spec.mulT (W4 m ρ c (Proc.devRef .tc main_v4_2) : Spec.Mat 8192 2048) (W4 m ρ c (Proc.devRef .tc main_v17) : Spec.Mat 2048 2048) = _
  rw [KKept.W4_v4_2, v_val, w_val]

/-- The four dense layers' outputs at regions 3 to 6's exits. -/
theorem h1_val : (W7 m ρ c (Proc.devRef .tc main_v20) : Spec.Mat 8192 4096)
    = Spec.dense (Spec.mulT (Spec.mulT (a0 m c) (a3 m c)) (KKept.softmaxK (Spec.tMul (Spec.mulT (a0 m c) (a1 m c)) (Spec.mulT (a0 m c) (a2 m c))))) (a5 m c) (a6 m c) := by
  refine (W7_arr m ρ c 3).trans ((KDense3.reg3_val (V6 m ρ) c).trans ?_)
  show Spec.dense (W6 m ρ c (Proc.devRef .tc main_v18) : Spec.Mat 8192 2048) (W6 m ρ c (Proc.devRef .tc main_v19) : Spec.Mat 4096 2048) (W6 m ρ c (Proc.devRef .tc main_arg6) : Spec.Row 4096) = _
  rw [KKept.W6_v18, ctx_val, KKept.W6_v19, KKept.W6_arg6]
theorem h2_val : (W9 m ρ c (Proc.devRef .tc main_v22) : Spec.Mat 8192 4096)
    = Spec.dense (Spec.dense (Spec.mulT (Spec.mulT (a0 m c) (a3 m c)) (KKept.softmaxK (Spec.tMul (Spec.mulT (a0 m c) (a1 m c)) (Spec.mulT (a0 m c) (a2 m c))))) (a5 m c) (a6 m c)) (a7 m c) (a8 m c) := by
  refine (W9_arr m ρ c 3).trans ((KDense4.reg4_val (V8 m ρ) c).trans ?_)
  show Spec.dense (W8 m ρ c (Proc.devRef .tc main_v20) : Spec.Mat 8192 4096) (W8 m ρ c (Proc.devRef .tc main_v21) : Spec.Mat 4096 4096) (W8 m ρ c (Proc.devRef .tc main_arg8) : Spec.Row 4096) = _
  rw [KKept.W8_v20, h1_val, KKept.W8_v21, KKept.W8_arg8]
theorem h3_val : (W11 m ρ c (Proc.devRef .tc main_v24) : Spec.Mat 8192 4096)
    = Spec.dense (Spec.dense (Spec.dense (Spec.mulT (Spec.mulT (a0 m c) (a3 m c)) (KKept.softmaxK (Spec.tMul (Spec.mulT (a0 m c) (a1 m c)) (Spec.mulT (a0 m c) (a2 m c))))) (a5 m c) (a6 m c)) (a7 m c) (a8 m c)) (a9 m c) (a10 m c) := by
  refine (W11_arr m ρ c 3).trans ((KDense5.reg5_val (V10 m ρ) c).trans ?_)
  show Spec.dense (W10 m ρ c (Proc.devRef .tc main_v22) : Spec.Mat 8192 4096) (W10 m ρ c (Proc.devRef .tc main_v23) : Spec.Mat 4096 4096) (W10 m ρ c (Proc.devRef .tc main_arg10) : Spec.Row 4096) = _
  rw [KKept.W10_v22, h2_val, KKept.W10_v23, KKept.W10_arg10]
theorem h4_val : (W13 m ρ c (Proc.devRef .tc main_v26) : Spec.Mat 8192 4096)
    = Spec.dense (Spec.dense (Spec.dense (Spec.dense (Spec.mulT (Spec.mulT (a0 m c) (a3 m c)) (KKept.softmaxK (Spec.tMul (Spec.mulT (a0 m c) (a1 m c)) (Spec.mulT (a0 m c) (a2 m c))))) (a5 m c) (a6 m c)) (a7 m c) (a8 m c)) (a9 m c) (a10 m c)) (a11 m c) (a12 m c) := by
  refine (W13_arr m ρ c 3).trans ((KDense6.reg6_val (V12 m ρ) c).trans ?_)
  show Spec.dense (W12 m ρ c (Proc.devRef .tc main_v24) : Spec.Mat 8192 4096) (W12 m ρ c (Proc.devRef .tc main_v25) : Spec.Mat 4096 4096) (W12 m ρ c (Proc.devRef .tc main_arg12) : Spec.Row 4096) = _
  rw [KKept.W12_v24, h3_val, KKept.W12_v25, KKept.W12_arg12]

/-- THE RESULT: at the last boundary the result array holds the network's value of the argument arrays. -/
theorem kernel_value : (W14 m ρ c (Proc.devRef .tc main_v27) : Spec.Mat 8192 295)
    = network KKept.softmaxK (a0 m c) (a1 m c) (a2 m c) (a3 m c) (a4 m c) (a5 m c) (a6 m c) (a7 m c) (a8 m c) (a9 m c) (a10 m c)
        (a11 m c) (a12 m c) (a13 m c) (a14 m c) := by
  refine (W14_arr m ρ c 4).trans ((KFinal7.reg7_val (V13 m ρ) c).trans ?_)
  show Spec.final (W13 m ρ c (Proc.devRef .tc main_v26) : Spec.Mat 8192 4096) (W13 m ρ c (Proc.devRef .tc main_arg13) : Spec.Mat 1 4096)
      (W13 m ρ c (Proc.devRef .tc main_arg14) : Spec.Row 1) (W13 m ρ c (Proc.devRef .tc main_arg4) : Spec.Row 295) = _
  rw [h4_val, KKept.W13_arg13, KKept.W13_arg14, KKept.W13_arg4]
  rfl

end Cert.Fold

end
-- ==== Proof.RefSide.lean ====
/-
  The reference, read stage by stage, is the specification's composition.

  With x : 8192×512 and three weights W : 2048×512, the reference first forms the three projections W · xᵀ
  (2048×8192), which are the transposes of x · Wᵀ because multiplication of extended reals commutes.  The scores are
  the product of the first two projections contracted on their second axis: entry (a, b) is ∑ₛ (x·W_Qᵀ) (s, a) ·
  (x·W_Kᵀ) (s, b).  A softmax over the first axis of the scores follows; it is kept as one function of the scores and
  is never opened.  The context contracts the third projection's first axis with the softmax's second axis, which is
  (x·W_Vᵀ) · softmaxᵀ read with both operands contracted on their second axis.  Then four layers
  max (h · Wᵀ + b, 0), where the reference transposes W and contracts the transpose's first axis, and at last
  1 / (1 + exp (-t)) at t = (h · w_outᵀ + b_out) + b_j, which is the logistic function of t.

  Every step is a reading at one entry: split the index into its coordinates, read each operation there, and identify
  the operand indices with indices built from coordinates.
-/
import proofs.«124600_j13451837571471_2_alg».proof.Proof.Gen.ReferenceIdeal.Read
import proofs.«124600_j13451837571471_2_alg».proof.Proof.Spec
import Idealize.ShloMosaic.Lib.ValueIdx
import Idealize.ShloMosaic.Lib.Pipeline.Value
import Idealize.ShloMosaic.Lib.IdealHost
import Idealize.ShloMosaic.PureOps.Ideal.Laws

noncomputable section

namespace Cert.RefSide

open Idealize.ShloMosaic Idealize.ShloMosaic.TcCoe Idealize.SL.Sem Idealize.ShloMosaic.StableHlo
open Idealize.ShloMosaic.ValueIdx
open Cert.ReferenceIdeal Cert.ReferenceIdeal.Gen Cert.ReferenceIdeal.Read

/-- An array of the reference of shape `S`, at the exact instance: a function from the shape's indices to the
    extended reals. -/
abbrev Arr (S : Shape) : Type := (⟨S, .f32⟩ : BufTy).Contents (Elt Ideal)

/-- Two functions on a rank-2 index set agree when they agree at each axis. -/
local macro "axes2" : tactic => `(tactic| (funext d; match d with | ⟨0, _⟩ => rfl | ⟨1, _⟩ => rfl))
/-- The same for rank 1. -/
local macro "axes1" : tactic => `(tactic| (funext d; match d with | ⟨0, _⟩ => rfl))

/-! ## The three projections: W · xᵀ is the transpose of x · Wᵀ -/

theorem lidx_v0 (a : Fin 2048) (p : Fin 8192) (k : Fin 512) : lidx_main_v0 (ix2 a p) k = ix2 a k := by axes2
theorem ridx_v0 (a : Fin 2048) (p : Fin 8192) (k : Fin 512) : ridx_main_v0 (ix2 a p) k = ix2 p k := by axes2
theorem lidx_v1 (a : Fin 2048) (p : Fin 8192) (k : Fin 512) : lidx_main_v1 (ix2 a p) k = ix2 a k := by axes2
theorem ridx_v1 (a : Fin 2048) (p : Fin 8192) (k : Fin 512) : ridx_main_v1 (ix2 a p) k = ix2 p k := by axes2
theorem lidx_v2 (a : Fin 2048) (p : Fin 8192) (k : Fin 512) : lidx_main_v2 (ix2 a p) k = ix2 a k := by axes2
theorem ridx_v2 (a : Fin 2048) (p : Fin 8192) (k : Fin 512) : ridx_main_v2 (ix2 a p) k = ix2 p k := by axes2

/-- The first projection: entry (a, p) is ∑ₖ W (a, k) · x (p, k), the (p, a) entry of x · Wᵀ. -/
theorem ref_proj (x0 : Arr S8192x512) (x1 : Arr S2048x512) :
    val_main_v0 (F := Ideal) x0 x1 = Spec.tr (Spec.mulT x0 x1) := by
  funext i
  obtain ⟨a, p, rfl⟩ : ∃ (a : Fin 2048) (p : Fin 8192), i = ix2 a p := ⟨i 0, i 1, eq_ix2 i⟩
  rw [val_main_v0_apply, Spec.tr_apply, Spec.mulT_apply]
  refine Finset.sum_congr rfl fun k _ => ?_
  rw [lidx_v0, ridx_v0, mul_comm]

/-- The second projection, likewise. -/
theorem ref_proj1 (x0 : Arr S8192x512) (x2 : Arr S2048x512) :
    val_main_v1 (F := Ideal) x0 x2 = Spec.tr (Spec.mulT x0 x2) := by
  funext i
  obtain ⟨a, p, rfl⟩ : ∃ (a : Fin 2048) (p : Fin 8192), i = ix2 a p := ⟨i 0, i 1, eq_ix2 i⟩
  rw [val_main_v1_apply, Spec.tr_apply, Spec.mulT_apply]
  refine Finset.sum_congr rfl fun k _ => ?_
  rw [lidx_v1, ridx_v1, mul_comm]

/-- The third projection, likewise. -/
theorem ref_proj2 (x0 : Arr S8192x512) (x3 : Arr S2048x512) :
    val_main_v2 (F := Ideal) x0 x3 = Spec.tr (Spec.mulT x0 x3) := by
  funext i
  obtain ⟨a, p, rfl⟩ : ∃ (a : Fin 2048) (p : Fin 8192), i = ix2 a p := ⟨i 0, i 1, eq_ix2 i⟩
  rw [val_main_v2_apply, Spec.tr_apply, Spec.mulT_apply]
  refine Finset.sum_congr rfl fun k _ => ?_
  rw [lidx_v2, ridx_v2, mul_comm]

/-! ## The scores -/

theorem lidx_v3 (a b : Fin 2048) (k : Fin 8192) : lidx_main_v3 (ix2 a b) k = ix2 a k := by axes2
theorem ridx_v3 (a b : Fin 2048) (k : Fin 8192) : ridx_main_v3 (ix2 a b) k = ix2 b k := by axes2

/-- Entry (a, b) of the scores is ∑ₛ (x·W_Qᵀ) (s, a) · (x·W_Kᵀ) (s, b): the two projections are transposes, and the
    contraction runs over their second axis. -/
theorem ref_scores (x0 : Arr S8192x512) (x1 x2 : Arr S2048x512) :
    val_main_v3 (F := Ideal) x0 x1 x2 = Spec.tMul (Spec.mulT x0 x1) (Spec.mulT x0 x2) := by
  funext i
  obtain ⟨a, b, rfl⟩ : ∃ (a : Fin 2048) (b : Fin 2048), i = ix2 a b := ⟨i 0, i 1, eq_ix2 i⟩
  rw [val_main_v3_apply, Spec.tMul_apply, ref_proj, ref_proj1]
  refine Finset.sum_congr rfl fun k _ => ?_
  rw [lidx_v3, ridx_v3, Spec.tr_apply, Spec.tr_apply]

/-! ## The softmax over the first axis, as one function of the scores -/

/-- exp (a − m), where m (b) is the maximum over the first axis of column b (from −∞, and once more against −∞),
    spread back over the rows. -/
def expShift (a : Arr S2048x2048) : Arr S2048x2048 :=
  Host.exp (F := Ideal) (subf a
    (broadcastInDim S2048x2048 ![0, 1] bcast_S1x2048_S2048x2048_0_1
      (broadcastInDim S1x2048 ![1] bcast_S2048_S1x2048_1
        (maximumf (broadcastInDim S2048 ![] bcast_S_S2048 (constant (F := Ideal) S_ .f32 0xFF800000#32))
          (Host.reduce FloatOps.maximumf a (constant (F := Ideal) S_ .f32 0xFF800000#32) reducesTo_S2048x2048_S2048_d0 h_S_)))))

/-- The softmax over the first axis: exp (a − m) divided by its sum over the first axis (from 0), spread back over
    the rows.  It is the list of operations the reference applies to its scores, and nothing below looks inside. -/
def softmax0 (a : Arr S2048x2048) : Arr S2048x2048 :=
  Host.divf (F := Ideal) (expShift a)
    (broadcastInDim S2048x2048 ![0, 1] bcast_S1x2048_S2048x2048_0_1
      (broadcastInDim S1x2048 ![1] bcast_S2048_S1x2048_1
        (Host.reduceAdd (F := Ideal) (expShift a) (constant (F := Ideal) S_ .f32 0x00000000#32) reducesTo_S2048x2048_S2048_d0 h_S_)))

/-- The reference's normalized scores are that function of its scores. -/
theorem ref_softmax (x0 : Arr S8192x512) (x1 x2 : Arr S2048x512) :
    val_main_v14 (F := Ideal) x0 x1 x2 = softmax0 (val_main_v3 (F := Ideal) x0 x1 x2) := by
  unfold val_main_v14 val_main_v13 val_main_v12 val_main_v11 val_main_v10 val_main_v9 val_main_v8 val_main_v7
    val_main_v6 val_main_v5 val_main_v4 val_main_cst val_main_cst_0 val_main_cst_1 softmax0 expShift
  rfl

/-! ## The context -/

theorem lidx_v15 (p : Fin 8192) (b : Fin 2048) (k : Fin 2048) : lidx_main_v15 (ix2 p b) k = ix2 k p := by axes2
theorem ridx_v15 (p : Fin 8192) (b : Fin 2048) (k : Fin 2048) : ridx_main_v15 (ix2 p b) k = ix2 b k := by axes2

/-- Entry (p, b) of the context is ∑ₖ (x·W_Vᵀ) (p, k) · s (b, k), with s the normalized scores: the third projection
    is a transpose and is contracted on its first axis. -/
theorem ref_ctx (x0 : Arr S8192x512) (x1 x2 x3 : Arr S2048x512) :
    val_main_v15 (F := Ideal) x0 x1 x2 x3 = Spec.mulT (Spec.mulT x0 x3) (val_main_v14 (F := Ideal) x0 x1 x2) := by
  funext i
  obtain ⟨p, b, rfl⟩ : ∃ (p : Fin 8192) (b : Fin 2048), i = ix2 p b := ⟨i 0, i 1, eq_ix2 i⟩
  rw [val_main_v15_apply, Spec.mulT_apply, ref_proj2]
  refine Finset.sum_congr rfl fun k _ => ?_
  rw [lidx_v15, ridx_v15, Spec.tr_apply]

/-! ## The four layers max (h · Wᵀ + b, 0) -/

theorem lidx_v17 (p : Fin 8192) (q : Fin 4096) (k : Fin 2048) : lidx_main_v17 (ix2 p q) k = ix2 p k := by axes2
theorem ridx_v17 (p : Fin 8192) (q : Fin 4096) (k : Fin 2048) : ridx_main_v17 (ix2 p q) k = ix2 k q := by axes2
theorem idx_v16 (k : Fin 2048) (q : Fin 4096) : idx_main_v16 (ix2 k q) = ix2 q k := by axes2
theorem idx_v19 (p : Fin 8192) (q : Fin 4096) : idx_main_v19 (ix2 p q) = ix2 (0 : Fin 1) q := by axes2
theorem idx_v18 (z : Fin 1) (q : Fin 4096) : idx_main_v18 (ix2 z q) = ix1 q := by axes1

/-- The first layer: the reference transposes W (4096×2048) and contracts the transpose's first axis, so entry (p, q)
    of the product is ∑ₖ h (p, k) · W (q, k); the bias is spread over the rows, and the rectifier's zero is the zero
    word. -/
theorem ref_dense1 (x0 : Arr S8192x512) (x1 x2 x3 : Arr S2048x512) (x5 : Arr S4096x2048) (x6 : Arr S4096) :
    val_main_v21 (F := Ideal) x0 x1 x2 x3 x5 x6 = Spec.dense (val_main_v15 (F := Ideal) x0 x1 x2 x3) x5 x6 := by
  funext i
  obtain ⟨p, q, rfl⟩ : ∃ (p : Fin 8192) (q : Fin 4096), i = ix2 p q := ⟨i 0, i 1, eq_ix2 i⟩
  rw [val_main_v21_apply, val_main_v20_apply, val_main_v17_apply, val_main_v19_apply, val_main_v18_apply,
    val_main_call0_v0_apply, val_main_call0_cst_apply, Spec.dense_apply, idx_v19, idx_v18]
  simp only [lidx_v17, ridx_v17, val_main_v16_apply, idx_v16, Ideal.maximumf_def, Ideal.addf_def, Ideal.ofBits_def,
    Ideal.ofBits_zero_f32]

theorem lidx_v23 (p : Fin 8192) (q : Fin 4096) (k : Fin 4096) : lidx_main_v23 (ix2 p q) k = ix2 p k := by axes2
theorem ridx_v23 (p : Fin 8192) (q : Fin 4096) (k : Fin 4096) : ridx_main_v23 (ix2 p q) k = ix2 k q := by axes2
theorem idx_v22 (k : Fin 4096) (q : Fin 4096) : idx_main_v22 (ix2 k q) = ix2 q k := by axes2
theorem idx_v25 (p : Fin 8192) (q : Fin 4096) : idx_main_v25 (ix2 p q) = ix2 (0 : Fin 1) q := by axes2
theorem idx_v24 (z : Fin 1) (q : Fin 4096) : idx_main_v24 (ix2 z q) = ix1 q := by axes1

/-- The second layer, by the same reading with a 4096×4096 weight. -/
theorem ref_dense2 (x0 : Arr S8192x512) (x1 x2 x3 : Arr S2048x512) (x5 : Arr S4096x2048) (x6 : Arr S4096) (x7 : Arr S4096x4096) (x8 : Arr S4096) :
    val_main_v27 (F := Ideal) x0 x1 x2 x3 x5 x6 x7 x8
      = Spec.dense (val_main_v21 (F := Ideal) x0 x1 x2 x3 x5 x6) x7 x8 := by
  funext i
  obtain ⟨p, q, rfl⟩ : ∃ (p : Fin 8192) (q : Fin 4096), i = ix2 p q := ⟨i 0, i 1, eq_ix2 i⟩
  rw [val_main_v27_apply, val_main_v26_apply, val_main_v23_apply, val_main_v25_apply, val_main_v24_apply,
    val_main_call1_v0_apply, val_main_call1_cst_apply, Spec.dense_apply, idx_v25, idx_v24]
  simp only [lidx_v23, ridx_v23, val_main_v22_apply, idx_v22, Ideal.maximumf_def, Ideal.addf_def, Ideal.ofBits_def,
    Ideal.ofBits_zero_f32]

theorem lidx_v29 (p : Fin 8192) (q : Fin 4096) (k : Fin 4096) : lidx_main_v29 (ix2 p q) k = ix2 p k := by axes2
theorem ridx_v29 (p : Fin 8192) (q : Fin 4096) (k : Fin 4096) : ridx_main_v29 (ix2 p q) k = ix2 k q := by axes2
theorem idx_v28 (k : Fin 4096) (q : Fin 4096) : idx_main_v28 (ix2 k q) = ix2 q k := by axes2
theorem idx_v31 (p : Fin 8192) (q : Fin 4096) : idx_main_v31 (ix2 p q) = ix2 (0 : Fin 1) q := by axes2
theorem idx_v30 (z : Fin 1) (q : Fin 4096) : idx_main_v30 (ix2 z q) = ix1 q := by axes1

/-- The third layer. -/
theorem ref_dense3 (x0 : Arr S8192x512) (x1 x2 x3 : Arr S2048x512) (x5 : Arr S4096x2048) (x6 : Arr S4096) (x7 : Arr S4096x4096) (x8 : Arr S4096) (x9 : Arr S4096x4096) (x10 : Arr S4096) :
    val_main_v33 (F := Ideal) x0 x1 x2 x3 x5 x6 x7 x8 x9 x10
      = Spec.dense (val_main_v27 (F := Ideal) x0 x1 x2 x3 x5 x6 x7 x8) x9 x10 := by
  funext i
  obtain ⟨p, q, rfl⟩ : ∃ (p : Fin 8192) (q : Fin 4096), i = ix2 p q := ⟨i 0, i 1, eq_ix2 i⟩
  rw [val_main_v33_apply, val_main_v32_apply, val_main_v29_apply, val_main_v31_apply, val_main_v30_apply,
    val_main_call2_v0_apply, val_main_call2_cst_apply, Spec.dense_apply, idx_v31, idx_v30]
  simp only [lidx_v29, ridx_v29, val_main_v28_apply, idx_v28, Ideal.maximumf_def, Ideal.addf_def, Ideal.ofBits_def,
    Ideal.ofBits_zero_f32]

theorem lidx_v35 (p : Fin 8192) (q : Fin 4096) (k : Fin 4096) : lidx_main_v35 (ix2 p q) k = ix2 p k := by axes2
theorem ridx_v35 (p : Fin 8192) (q : Fin 4096) (k : Fin 4096) : ridx_main_v35 (ix2 p q) k = ix2 k q := by axes2
theorem idx_v34 (k : Fin 4096) (q : Fin 4096) : idx_main_v34 (ix2 k q) = ix2 q k := by axes2
theorem idx_v37 (p : Fin 8192) (q : Fin 4096) : idx_main_v37 (ix2 p q) = ix2 (0 : Fin 1) q := by axes2
theorem idx_v36 (z : Fin 1) (q : Fin 4096) : idx_main_v36 (ix2 z q) = ix1 q := by axes1

/-- The fourth layer. -/
theorem ref_dense4 (x0 : Arr S8192x512) (x1 x2 x3 : Arr S2048x512) (x5 : Arr S4096x2048) (x6 : Arr S4096) (x7 : Arr S4096x4096) (x8 : Arr S4096) (x9 : Arr S4096x4096) (x10 : Arr S4096) (x11 : Arr S4096x4096) (x12 : Arr S4096) :
    val_main_v39 (F := Ideal) x0 x1 x2 x3 x5 x6 x7 x8 x9 x10 x11 x12
      = Spec.dense (val_main_v33 (F := Ideal) x0 x1 x2 x3 x5 x6 x7 x8 x9 x10) x11 x12 := by
  funext i
  obtain ⟨p, q, rfl⟩ : ∃ (p : Fin 8192) (q : Fin 4096), i = ix2 p q := ⟨i 0, i 1, eq_ix2 i⟩
  rw [val_main_v39_apply, val_main_v38_apply, val_main_v35_apply, val_main_v37_apply, val_main_v36_apply,
    val_main_call3_v0_apply, val_main_call3_cst_apply, Spec.dense_apply, idx_v37, idx_v36]
  simp only [lidx_v35, ridx_v35, val_main_v34_apply, idx_v34, Ideal.maximumf_def, Ideal.addf_def, Ideal.ofBits_def,
    Ideal.ofBits_zero_f32]

/-! ## The last stage: 1 / (1 + exp (-t)) at t = (h · w_outᵀ + b_out) + b_j -/

theorem lidx_v41 (p : Fin 8192) (z : Fin 1) (k : Fin 4096) : lidx_main_v41 (ix2 p z) k = ix2 p k := by axes2
theorem ridx_v41 (p : Fin 8192) (z : Fin 1) (k : Fin 4096) : ridx_main_v41 (ix2 p z) k = ix2 k z := by axes2
theorem idx_v40 (k : Fin 4096) (z : Fin 1) : idx_main_v40 (ix2 k z) = ix2 z k := by axes2
theorem idx_v43 (p : Fin 8192) (z : Fin 1) : idx_main_v43 (ix2 p z) = ix2 (0 : Fin 1) (0 : Fin 1) := by axes2
theorem idx_v42 (z z' : Fin 1) : idx_main_v42 (ix2 z z') = ix1 (0 : Fin 1) := by axes1
theorem idx_v46 (p : Fin 8192) (j : Fin 295) : idx_main_v46 (ix2 p j) = ix2 p (0 : Fin 1) := by axes2
theorem idx_v47 (p : Fin 8192) (j : Fin 295) : idx_main_v47 (ix2 p j) = ix2 (0 : Fin 1) j := by axes2
theorem idx_v45 (z : Fin 1) (j : Fin 295) : idx_main_v45 (ix2 z j) = ix1 j := by axes1

/-- Entry (p, j) of the result: the row's product with the one output weight row plus the output bias is a single
    number per row, spread over the 295 columns and added to b (j); both ones are the word of 1, and
    1 / (1 + exp (-t)) is the logistic function of t by definition. -/
theorem ref_final (x0 : Arr S8192x512) (x1 x2 x3 : Arr S2048x512) (x4 : Arr S295) (x5 : Arr S4096x2048) (x6 : Arr S4096) (x7 : Arr S4096x4096) (x8 : Arr S4096) (x9 : Arr S4096x4096) (x10 : Arr S4096) (x11 : Arr S4096x4096) (x12 : Arr S4096) (x13 : Arr S1x4096) (x14 : Arr S1) :
    val_main_v54 (F := Ideal) x0 x1 x2 x3 x4 x5 x6 x7 x8 x9 x10 x11 x12 x13 x14
      = Spec.final (val_main_v39 (F := Ideal) x0 x1 x2 x3 x5 x6 x7 x8 x9 x10 x11 x12) x13 x14 x4 := by
  funext i
  obtain ⟨p, j, rfl⟩ : ∃ (p : Fin 8192) (j : Fin 295), i = ix2 p j := ⟨i 0, i 1, eq_ix2 i⟩
  rw [val_main_v54_apply, val_main_v53_apply, val_main_cst_3_apply, val_main_v52_apply, val_main_v51_apply,
    val_main_cst_2_apply, val_main_v50_apply, val_main_v49_apply, val_main_v48_apply, val_main_v46_apply,
    val_main_v47_apply, val_main_v45_apply, val_main_v44_apply, val_main_v41_apply, val_main_v43_apply,
    val_main_v42_apply, Spec.final_apply, idx_v46, idx_v47, idx_v45, idx_v43, idx_v42]
  simp only [lidx_v41, ridx_v41, val_main_v40_apply, idx_v40, Ideal.hostDivf_def, Ideal.addf_def,
    Ideal.hostUnary_exp_def, Ideal.hostNegf_def, Ideal.negf_def, Ideal.ofBits_def, Ideal.ofBits_one_f32]
  rfl

/-! ## The whole reference -/

/-- The reference's result is the specification's composition of the fifteen argument arrays. -/
theorem ref_val (x0 : Arr S8192x512) (x1 x2 x3 : Arr S2048x512) (x4 : Arr S295) (x5 : Arr S4096x2048) (x6 : Arr S4096) (x7 : Arr S4096x4096) (x8 : Arr S4096) (x9 : Arr S4096x4096) (x10 : Arr S4096) (x11 : Arr S4096x4096) (x12 : Arr S4096) (x13 : Arr S1x4096) (x14 : Arr S1) :
    val_main_v54 (F := Ideal) x0 x1 x2 x3 x4 x5 x6 x7 x8 x9 x10 x11 x12 x13 x14
      = Spec.final (Spec.dense (Spec.dense (Spec.dense (Spec.dense
          (Spec.mulT (Spec.mulT x0 x3) (softmax0 (Spec.tMul (Spec.mulT x0 x1) (Spec.mulT x0 x2))))
          x5 x6) x7 x8) x9 x10) x11 x12) x13 x14 x4 := by
  rw [ref_final, ref_dense4, ref_dense3, ref_dense2, ref_dense1, ref_ctx, ref_softmax, ref_scores]

end Cert.RefSide

end
-- ==== Proof.Assembly.lean ====
/-
  The five claims.

  The three frames are the generated ones (the reference's is its generated run with the result dropped); the ideal
  pass rewrote nothing, so `preserves` is trivial.  For the algebraic claim both programs end with the result array at
  ONE function of the argument arrays, the network of Proof/Fold.lean: the kernel by its run with the result named
  and the fold of its segment boundaries, the reference by its generated run read one operation at a time.  The two
  programs' softmax stretches are the same list of host operations, hence one function, which is never opened.
-/
import proofs.«124600_j13451837571471_2_alg».proof.Defs
import proofs.«124600_j13451837571471_2_alg».proof.Proof.Gen.Kernel
import proofs.«124600_j13451837571471_2_alg».proof.Proof.Gen.KernelIdeal
import proofs.«124600_j13451837571471_2_alg».proof.Proof.Gen.ReferenceIdeal
import proofs.«124600_j13451837571471_2_alg».proof.Proof.Gen.Pre_finite_inputs
import proofs.«124600_j13451837571471_2_alg».proof.Proof.Gen.Kernel.Frame
import proofs.«124600_j13451837571471_2_alg».proof.Proof.KRun
import proofs.«124600_j13451837571471_2_alg».proof.Proof.Fold
import proofs.«124600_j13451837571471_2_alg».proof.Proof.RefSide

set_option maxRecDepth 16384

noncomputable section

open Idealize.ShloMosaic Idealize.ShloMosaic.TcCoe Idealize.SL.Sem

namespace Cert.Assembly

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's and the reference's softmax stretches are the same composition of the same host operations. -/
theorem softmax_eq : (Cert.KKept.softmaxK : Cert.Spec.Mat 2048 2048 → Cert.Spec.Mat 2048 2048) = Cert.RefSide.softmax0 := rfl

theorem algebraic : Cert.algebraic_KernelIdeal_ReferenceIdeal := by
  intro m ρ m' ρ' _ hagree
  refine ⟨fun c => Cert.Fold.network Cert.RefSide.softmax0 (Cert.Fold.a0 m c) (Cert.Fold.a1 m c) (Cert.Fold.a2 m c) (Cert.Fold.a3 m c)
    (Cert.Fold.a4 m c) (Cert.Fold.a5 m c) (Cert.Fold.a6 m c) (Cert.Fold.a7 m c) (Cert.Fold.a8 m c) (Cert.Fold.a9 m c) (Cert.Fold.a10 m c)
    (Cert.Fold.a11 m c) (Cert.Fold.a12 m c) (Cert.Fold.a13 m c) (Cert.Fold.a14 m c), ?_, ?_⟩
  · refine (θ_run Cert.KernelIdeal.defs _ _).mono (fun r h c => ⟨(h c).1.trans ?_, (h c).2⟩) (Cert.KRun.run_named (F := Ideal) m ρ)
    refine (Cert.Fold.kernel_value m ρ c).trans ?_
    rw [softmax_eq]
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v54_eq, Cert.RefSide.ref_val]
    obtain ⟨e0, e1, e2, e3, e4, e5, e6, e7, e8, e9, e10, e11, e12, e13, e14⟩ := hagree c
    rw [e0, e1, e2, e3, e4, e5, e6, e7, e8, e9, e10, e11, e12, e13, e14]
    rfl

end Cert.Assembly

end
-- ==== Proof.lean ====
/-
  Two programs that compute one network — three projections q, k, v of the input, the attention scores q·kᵀ summed
  over all 8192 positions, a softmax over the scores' first axis, the context v·softmax, four dense layers with bias and
  rectifier, and a final projection with two biases and a logistic — agree at the exact instance, where floats are
  extended reals and every operation is the textbook one.

  The kernel computes the products block by block (and the scores as a running total over 64 blocks of rows), multiplies
  in the other order in its projections, and rounds to a shorter float format between stages; on extended reals a
  change of format is the identity, multiplication commutes, and a sum may be taken in any grouping.  The modules
  under Proof/ state the network once (Spec), read each kernel region's output array as its layer's function of the
  region's input arrays (KProj0, KScores1, KCtx2, KDense3–6, KFinal7), carry the arguments and intermediates through
  the kernel's segment boundaries (KKept, Fold), read the reference one operation at a time (RefSide), and join the
  two runs (KRun, Assembly).
-/
import proofs.«124600_j13451837571471_2_alg».proof.Defs
import proofs.«124600_j13451837571471_2_alg».proof.Proof.Gen.Kernel
import proofs.«124600_j13451837571471_2_alg».proof.Proof.Gen.KernelIdeal
import proofs.«124600_j13451837571471_2_alg».proof.Proof.Gen.ReferenceIdeal
import proofs.«124600_j13451837571471_2_alg».proof.Proof.Gen.Pre_finite_inputs
import proofs.«124600_j13451837571471_2_alg».proof.Proof.Assembly

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Assembly.frame_k, Cert.Assembly.frame_ki, Cert.Assembly.frame_ri, Cert.Assembly.preserves, Cert.Assembly.algebraic⟩

end Cert.Proof

end
